-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x3200000 : Shape := ⟨2, ![2, 3200000]⟩
abbrev S3200000 : Shape := ⟨1, ![3200000]⟩
abbrev S8x64 : Shape := ⟨2, ![8, 64]⟩
abbrev S64 : Shape := ⟨1, ![64]⟩
abbrev S64x64 : Shape := ⟨2, ![64, 64]⟩
abbrev S256x128 : Shape := ⟨2, ![256, 128]⟩
abbrev S256 : Shape := ⟨1, ![256]⟩
abbrev S256x64 : Shape := ⟨2, ![256, 64]⟩
abbrev S136x1 : Shape := ⟨2, ![136, 1]⟩
abbrev S1 : Shape := ⟨1, ![1]⟩
abbrev S_ : Shape := ⟨0, ![]⟩
abbrev S1x3200000 : Shape := ⟨2, ![1, 3200000]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S136x1 : S_.BroadcastsInDim S136x1 (![] : Fin 0 → Fin S136x1.rank)
  reducesTo_S136x1_S_d0_1 : S136x1.ReducesTo [0, 1] S_
  bcast_S_S1 : S_.BroadcastsInDim S1 (![] : Fin 0 → Fin S1.rank)
  reducesTo_S1_S_d0 : S1.ReducesTo [0] S_
  slices_S2x3200000_S1x3200000_1_0 : S2x3200000.Slices ![1, 0] S1x3200000
  shapeCasts_S1x3200000_S3200000 : S1x3200000.ShapeCasts S3200000

variable [Facts]

def fn_part6 {F : FTy → Type} [FloatOps F] (main_arg1 : IVec S2x3200000 32) (main_arg22 : FVec F S1 .f32) (main_v98 : IVec S_ 1) (main_v101 : IVec S136x1 1) (main_c_39 : IVec S_ 1) : IVec S_ 1 :=
  let main_v102 : IVec S_ 1 := (fun x v => Host.reduce IntOp.andi x v reducesTo_S136x1_S_d0_1 h_S_) main_v101 main_c_39
  let main_v103 : IVec S_ 1 := andi main_v98 main_v102
  let main_v104 : FVec F S1 .f32 := Host.absf main_arg22
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_v109 : IVec S1x3200000 32 := (extractStridedSlice S1x3200000 ![1, 0] · slices_S2x3200000_S1x3200000_1_0) main_arg1
  let main_v110 : IVec S3200000 32 := shapeCast S3200000 main_v109 shapeCasts_S1x3200000_S3200000
  let main_c_42 : IVec S_ 32 := constantI S_ 32 0#32
  let main_v111 : IVec S3200000 32 := broadcastInDim S3200000 ![] bcast_S_S3200000 main_c_42
  let main_v112 : IVec S3200000 1 := cmpi .sge main_v110 main_v111
  let main_c_43 : IVec S_ 1 := constantI S_ 1 1#1
  let main_v113 : IVec S_ 1 := (fun x v => Host.reduce IntOp.andi x v reducesTo_S3200000_S_d0 h_S_) main_v112 main_c_43
  let main_v114 : IVec S_ 1 := andi main_v108 main_v113
  main_v114

def fn_part5 {F : FTy → Type} [FloatOps F] (main_arg1 : IVec S2x3200000 32) (main_arg19 : FVec F S256 .f32) (main_arg20 : FVec F S256 .f32) (main_arg21 : FVec F S136x1 .f32) (main_arg22 : FVec F S1 .f32) (main_v83 : IVec S_ 1) (main_v84 : FVec F S256x64 .f32) (main_cst_32 : FVec F S_ .f32) : IVec S_ 1 :=
  let main_v85 : FVec F S256x64 .f32 := broadcastInDim S256x64 ![] bcast_S_S256x64 main_cst_32
  let main_v86 : IVec S256x64 1 := cmpf .olt main_v84 main_v85
  let main_c_33 : IVec S_ 1 := constantI S_ 1 1#1
  let main_v87 : IVec S_ 1 := (fun x v => Host.reduce IntOp.andi x v reducesTo_S256x64_S_d0_1 h_S_) main_v86 main_c_33
  let main_v88 : IVec S_ 1 := andi main_v83 main_v87
  let main_v89 : FVec F S256 .f32 := Host.absf main_arg19
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg20
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S136x1 .f32 := Host.absf main_arg21
  let main_cst_38 : FVec F S_ .f32 := constant S_ .f32 0x7F800000#32
  let main_v100 : FVec F S136x1 .f32 := broadcastInDim S136x1 ![] bcast_S_S136x1 main_cst_38
  let main_v101 : IVec S136x1 1 := cmpf .olt main_v99 main_v100
  let main_c_39 : IVec S_ 1 := constantI S_ 1 1#1
  fn_part6 (F := F) main_arg1 main_arg22 main_v98 main_v101 main_c_39

def fn_part4 {F : FTy → Type} [FloatOps F] (main_arg1 : IVec S2x3200000 32) (main_arg15 : FVec F S256x128 .f32) (main_arg16 : FVec F S256 .f32) (main_arg17 : FVec F S256 .f32) (main_arg18 : FVec F S256x64 .f32) (main_arg19 : FVec F S256 .f32) (main_arg20 : FVec F S256 .f32) (main_arg21 : FVec F S136x1 .f32) (main_arg22 : FVec F S1 .f32) (main_v63 : IVec S_ 1) (main_v67 : IVec S_ 1) : IVec S_ 1 :=
  let main_v68 : IVec S_ 1 := andi main_v63 main_v67
  let main_v69 : FVec F S256x128 .f32 := Host.absf main_arg15
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x64 .f32 := Host.absf main_arg18
  let main_cst_32 : FVec F S_ .f32 := constant S_ .f32 0x7F800000#32
  fn_part5 (F := F) main_arg1 main_arg19 main_arg20 main_arg21 main_arg22 main_v83 main_v84 main_cst_32

def fn_part3 {F : FTy → Type} [FloatOps F] (main_arg1 : IVec S2x3200000 32) (main_arg12 : FVec F S64 .f32) (main_arg13 : FVec F S64 .f32) (main_arg14 : FVec F S64 .f32) (main_arg15 : FVec F S256x128 .f32) (main_arg16 : FVec F S256 .f32) (main_arg17 : FVec F S256 .f32) (main_arg18 : FVec F S256x64 .f32) (main_arg19 : FVec F S256 .f32) (main_arg20 : FVec F S256 .f32) (main_arg21 : FVec F S136x1 .f32) (main_arg22 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg1 main_arg15 main_arg16 main_arg17 main_arg18 main_arg19 main_arg20 main_arg21 main_arg22 main_v63 main_v67

def fn_part2 {F : FTy → Type} [FloatOps F] (main_arg1 : IVec S2x3200000 32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S256x128 .f32) (main_arg16 : FVec F S256 .f32) (main_arg17 : FVec F S256 .f32) (main_arg18 : FVec F S256x64 .f32) (main_arg19 : FVec F S256 .f32) (main_arg20 : FVec F S256 .f32) (main_arg21 : FVec F S136x1 .f32) (main_arg22 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_arg12 main_arg13 main_arg14 main_arg15 main_arg16 main_arg17 main_arg18 main_arg19 main_arg20 main_arg21 main_arg22 main_v48 main_v49 main_v50

def fn_part1 {F : FTy → Type} [FloatOps F] (main_arg1 : IVec S2x3200000 32) (main_arg5 : FVec F S64x64 .f32) (main_arg6 : FVec F S64 .f32) (main_arg7 : FVec F S64 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S256x128 .f32) (main_arg16 : FVec F S256 .f32) (main_arg17 : FVec F S256 .f32) (main_arg18 : FVec F S256x64 .f32) (main_arg19 : FVec F S256 .f32) (main_arg20 : FVec F S256 .f32) (main_arg21 : FVec F S136x1 .f32) (main_arg22 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x8 .f32) (main_arg1 : IVec S2x3200000 32) (main_arg2 : FVec F S3200000 .f32) (main_arg3 : FVec F S8x64 .f32) (main_arg4 : FVec F S64 .f32) (main_arg5 : FVec F S64x64 .f32) (main_arg6 : FVec F S64 .f32) (main_arg7 : FVec F S64 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S256x128 .f32) (main_arg16 : FVec F S256 .f32) (main_arg17 : FVec F S256 .f32) (main_arg18 : FVec F S256x64 .f32) (main_arg19 : FVec F S256 .f32) (main_arg20 : FVec F S256 .f32) (main_arg21 : FVec F S136x1 .f32) (main_arg22 : FVec F S1 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S8x64 .f32 := Host.absf main_arg3
  let main_cst_2 : FVec F S_ .f32 := constant S_ .f32 0x7F800000#32
  let main_v10 : FVec F S8x64 .f32 := broadcastInDim S8x64 ![] bcast_S_S8x64 main_cst_2
  let main_v11 : IVec S8x64 1 := cmpf .olt main_v9 main_v10
  let main_c_3 : IVec S_ 1 := constantI S_ 1 1#1
  let main_v12 : IVec S_ 1 := (fun x v => Host.reduce IntOp.andi x v reducesTo_S8x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x8 : Shape := ⟨2, ![100000, 8]⟩
abbrev S2x3200000 : Shape := ⟨2, ![2, 3200000]⟩
abbrev S3200000 : Shape := ⟨1, ![3200000]⟩
abbrev S8x64 : Shape := ⟨2, ![8, 64]⟩
abbrev S64 : Shape := ⟨1, ![64]⟩
abbrev S64x64 : Shape := ⟨2, ![64, 64]⟩
abbrev S256x128 : Shape := ⟨2, ![256, 128]⟩
abbrev S256 : Shape := ⟨1, ![256]⟩
abbrev S256x64 : Shape := ⟨2, ![256, 64]⟩
abbrev S136x1 : Shape := ⟨2, ![136, 1]⟩
abbrev S1 : Shape := ⟨1, ![1]⟩
abbrev S1x3200000 : Shape := ⟨2, ![1, 3200000]⟩
abbrev S_ : Shape := ⟨0, ![]⟩
abbrev S100000 : Shape := ⟨1, ![100000]⟩
abbrev S3200000x1 : Shape := ⟨2, ![3200000, 1]⟩
abbrev S100000x64 : Shape := ⟨2, ![100000, 64]⟩
abbrev S5000x8 : Shape := ⟨2, ![5000, 8]⟩
abbrev S5000x64 : Shape := ⟨2, ![5000, 64]⟩
abbrev S3200000x64 : Shape := ⟨2, ![3200000, 64]⟩
abbrev S100000x1 : Shape := ⟨2, ![100000, 1]⟩
abbrev S1x64 : Shape := ⟨2, ![1, 64]⟩
abbrev S128x256 : Shape := ⟨2, ![128, 256]⟩
abbrev S64x256 : Shape := ⟨2, ![64, 256]⟩
abbrev S1x256 : Shape := ⟨2, ![1, 256]⟩
abbrev S1x1 : Shape := ⟨2, ![1, 1]⟩
abbrev S5000x1 : Shape := ⟨2, ![5000, 1]⟩
abbrev S5000x256 : Shape := ⟨2, ![5000, 256]⟩
abbrev S64x1 : Shape := ⟨2, ![64, 1]⟩
abbrev S8x1 : Shape := ⟨2, ![8, 1]⟩

abbrev nBuf : Space → Nat
  | .hbm => 119
  | .vmem => 38
  | .smem => 0
  | _ => 0

abbrev bufTy : (tb : Table) → Fin (tcTables nBuf tb) → BufTy
  | .hbm, ⟨0, _⟩ => ⟨S100000x8, .f32⟩
  | .hbm, ⟨1, _⟩ => ⟨S2x3200000, .i32⟩
  | .hbm, ⟨2, _⟩ => ⟨S3200000, .f32⟩
  | .hbm, ⟨3, _⟩ => ⟨S8x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S256x128, .f32⟩
  | .hbm, ⟨16, _⟩ => ⟨S256, .f32⟩
  | .hbm, ⟨17, _⟩ => ⟨S256, .f32⟩
  | .hbm, ⟨18, _⟩ => ⟨S256x64, .f32⟩
  | .hbm, ⟨19, _⟩ => ⟨S256, .f32⟩
  | .hbm, ⟨20, _⟩ => ⟨S256, .f32⟩
  | .hbm, ⟨21, _⟩ => ⟨S136x1, .f32⟩
  | .hbm, ⟨22, _⟩ => ⟨S1, .f32⟩
  | .hbm, ⟨23, _⟩ => ⟨S1x3200000, .i32⟩
  | .hbm, ⟨24, _⟩ => ⟨S3200000, .i32⟩
  | .hbm, ⟨25, _⟩ => ⟨S1x3200000, .i32⟩
  | .hbm, ⟨26, _⟩ => ⟨S3200000, .i32⟩
  | .hbm, ⟨27, _⟩ => ⟨S_, .f32⟩
  | .hbm, ⟨28, _⟩ => ⟨S100000, .f32⟩
  | .hbm, ⟨29, _⟩ => ⟨S3200000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000, .f32⟩
  | .hbm, ⟨44, _⟩ => ⟨S3200000, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000, .f32⟩
  | .hbm, ⟨54, _⟩ => ⟨S3200000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x64, .f32⟩
  | .hbm, ⟨59, _⟩ => ⟨S3200000x1, .f32⟩
  | .hbm, ⟨60, _⟩ => ⟨S_, .i32⟩
  | .hbm, ⟨61, _⟩ => ⟨S3200000, .i32⟩
  | .hbm, ⟨62, _⟩ => ⟨S3200000, .i1⟩
  | .hbm, ⟨63, _⟩ => ⟨S_, .i32⟩
  | .hbm, ⟨64, _⟩ => ⟨S3200000, .i32⟩
  | .hbm, ⟨65, _⟩ => ⟨S3200000, .i32⟩
  | .hbm, ⟨66, _⟩ => ⟨S3200000, .i32⟩
  | .hbm, ⟨67, _⟩ => ⟨S3200000x1, .i32⟩
  | .hbm, ⟨68, _⟩ => ⟨S3200000x64, .f32⟩
  | .hbm, ⟨69, _⟩ => ⟨S3200000x64, .f32⟩
  | .hbm, ⟨70, _⟩ => ⟨S3200000x64, .f32⟩
  | .hbm, ⟨71, _⟩ => ⟨S_, .f32⟩
  | .hbm, ⟨72, _⟩ => ⟨S100000x64, .f32⟩
  | .hbm, ⟨73, _⟩ => ⟨S3200000x1, .i32⟩
  | .hbm, ⟨74, _⟩ => ⟨S100000x64, .f32⟩
  | .hbm, ⟨75, _⟩ => ⟨S100000x1, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S1x64, .f32⟩
  | .hbm, ⟨80, _⟩ => ⟨S1x64, .f32⟩
  | .hbm, ⟨81, _⟩ => ⟨S1x64, .f32⟩
  | .hbm, ⟨82, _⟩ => ⟨S1x64, .f32⟩
  | .hbm, ⟨83, _⟩ => ⟨S1x64, .f32⟩
  | .hbm, ⟨84, _⟩ => ⟨S100000x64, .f32⟩
  | .hbm, ⟨85, _⟩ => ⟨S100000x64, .f32⟩
  | .hbm, ⟨86, _⟩ => ⟨S3200000x1, .f32⟩
  | .hbm, ⟨87, _⟩ => ⟨S_, .i32⟩
  | .hbm, ⟨88, _⟩ => ⟨S3200000, .i32⟩
  | .hbm, ⟨89, _⟩ => ⟨S3200000, .i1⟩
  | .hbm, ⟨90, _⟩ => ⟨S_, .i32⟩
  | .hbm, ⟨91, _⟩ => ⟨S3200000, .i32⟩
  | .hbm, ⟨92, _⟩ => ⟨S3200000, .i32⟩
  | .hbm, ⟨93, _⟩ => ⟨S3200000, .i32⟩
  | .hbm, ⟨94, _⟩ => ⟨S3200000x1, .i32⟩
  | .hbm, ⟨95, _⟩ => ⟨S3200000x64, .f32⟩
  | .hbm, ⟨96, _⟩ => ⟨S3200000x64, .f32⟩
  | .hbm, ⟨97, _⟩ => ⟨S3200000x64, .f32⟩
  | .hbm, ⟨98, _⟩ => ⟨S_, .f32⟩
  | .hbm, ⟨99, _⟩ => ⟨S100000x64, .f32⟩
  | .hbm, ⟨100, _⟩ => ⟨S3200000x1, .i32⟩
  | .hbm, ⟨101, _⟩ => ⟨S100000x64, .f32⟩
  | .hbm, ⟨102, _⟩ => ⟨S100000x1, .f32⟩
  | .hbm, ⟨103, _⟩ => ⟨S100000x64, .f32⟩
  | .hbm, ⟨104, _⟩ => ⟨S100000x64, .f32⟩
  | .hbm, ⟨105, _⟩ => ⟨S100000x64, .f32⟩
  | .hbm, ⟨106, _⟩ => ⟨S128x256, .f32⟩
  | .hbm, ⟨107, _⟩ => ⟨S64x256, .f32⟩
  | .hbm, ⟨108, _⟩ => ⟨S1x64, .f32⟩
  | .hbm, ⟨109, _⟩ => ⟨S1x64, .f32⟩
  | .hbm, ⟨110, _⟩ => ⟨S1x64, .f32⟩
  | .hbm, ⟨111, _⟩ => ⟨S1x64, .f32⟩
  | .hbm, ⟨112, _⟩ => ⟨S1x64, .f32⟩
  | .hbm, ⟨113, _⟩ => ⟨S1x256, .f32⟩
  | .hbm, ⟨114, _⟩ => ⟨S1x256, .f32⟩
  | .hbm, ⟨115, _⟩ => ⟨S1x256, .f32⟩
  | .hbm, ⟨116, _⟩ => ⟨S1x256, .f32⟩
  | .hbm, ⟨117, _⟩ => ⟨S1x1, .f32⟩
  | .hbm, ⟨118, _⟩ => ⟨S100000x1, .f32⟩
  | .local _ .vmem, ⟨0, _⟩ => ⟨S5000x8, .f32⟩
  | .local _ .vmem, ⟨1, _⟩ => ⟨S5000x8, .f32⟩
  | .local _ .vmem, ⟨2, _⟩ => ⟨S8x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x8, .f32⟩
  | .local _ .vmem, ⟨22, _⟩ => ⟨S5000x8, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S128x256, .f32⟩
  | .local _ .vmem, ⟨29, _⟩ => ⟨S1x256, .f32⟩
  | .local _ .vmem, ⟨30, _⟩ => ⟨S1x256, .f32⟩
  | .local _ .vmem, ⟨31, _⟩ => ⟨S64x256, .f32⟩
  | .local _ .vmem, ⟨32, _⟩ => ⟨S1x256, .f32⟩
  | .local _ .vmem, ⟨33, _⟩ => ⟨S1x256, .f32⟩
  | .local _ .vmem, ⟨34, _⟩ => ⟨S136x1, .f32⟩
  | .local _ .vmem, ⟨35, _⟩ => ⟨S1x1, .f32⟩
  | .local _ .vmem, ⟨36, _⟩ => ⟨S5000x1, .f32⟩
  | .local _ .vmem, ⟨37, _⟩ => ⟨S5000x1, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst_0 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_c : Ref sig .tc := ⟨.hbm, 35, rfl⟩
abbrev main_v10 : Ref sig .tc := ⟨.hbm, 36, rfl⟩
abbrev main_v11 : Ref sig .tc := ⟨.hbm, 37, rfl⟩
abbrev main_c_1 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_2 : Ref sig .tc := ⟨.hbm, 45, rfl⟩
abbrev main_v18 : Ref sig .tc := ⟨.hbm, 46, rfl⟩
abbrev main_v19 : Ref sig .tc := ⟨.hbm, 47, rfl⟩
abbrev main_c_3 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_4 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_5 : Ref sig .tc := ⟨.hbm, 60, rfl⟩
abbrev main_v30 : Ref sig .tc := ⟨.hbm, 61, rfl⟩
abbrev main_v31 : Ref sig .tc := ⟨.hbm, 62, rfl⟩
abbrev main_c_6 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_7 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51_0 : Ref sig .tc := ⟨.hbm, 84, rfl⟩
abbrev main_v51_1 : Ref sig .tc := ⟨.hbm, 85, rfl⟩
abbrev main_v52 : Ref sig .tc := ⟨.hbm, 86, rfl⟩
abbrev main_c_8 : Ref sig .tc := ⟨.hbm, 87, rfl⟩
abbrev main_v53 : Ref sig .tc := ⟨.hbm, 88, rfl⟩
abbrev main_v54 : Ref sig .tc := ⟨.hbm, 89, rfl⟩
abbrev main_c_9 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_10 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc1_stg8_0 : Ref sig .tc := ⟨.vmem, 15, rfl⟩
abbrev cc1_stg8_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg10_0 : Ref sig .tc := ⟨.vmem, 30, rfl⟩
abbrev cc2_stg11_0 : Ref sig .tc := ⟨.vmem, 31, rfl⟩
abbrev cc2_stg12_0 : Ref sig .tc := ⟨.vmem, 32, rfl⟩
abbrev cc2_stg13_0 : Ref sig .tc := ⟨.vmem, 33, rfl⟩
abbrev cc2_stg14_0 : Ref sig .tc := ⟨.vmem, 34, rfl⟩
abbrev cc2_stg15_0 : Ref sig .tc := ⟨.vmem, 35, rfl⟩
abbrev cc2_stg16_0 : Ref sig .tc := ⟨.vmem, 36, rfl⟩
abbrev cc2_stg16_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev cc1_sem8_0 : DmaSem sig := 15
abbrev cc1_sem8_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc2_sem10_0 : DmaSem sig := 30
abbrev cc2_sem11_0 : DmaSem sig := 31
abbrev cc2_sem12_0 : DmaSem sig := 32
abbrev cc2_sem13_0 : DmaSem sig := 33
abbrev cc2_sem14_0 : DmaSem sig := 34
abbrev cc2_sem15_0 : DmaSem sig := 35
abbrev cc2_sem16_0 : DmaSem sig := 36
abbrev cc2_sem16_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x256 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x256 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S136x1 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S1x1 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 2 → Memref sig .tc .vmem S5000x1 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  inb_S5000x8_S5000x8_0_0 : ∀ a, (![0, 0] : Fin 2 → Nat) a + S5000x8.size a ≤ S5000x8.size a
  h_S5000x8 : 0 < S5000x8.numel
  bitsLt_bf16_f32 : FTy.bits .bf16 < FTy.bits .f32
  inb_S8x64_S8x64_0_0 : ∀ a, (![0, 0] : Fin 2 → Nat) a + S8x64.size a ≤ S8x64.size a
  h_S8x64 : 0 < S8x64.numel
  inb_S5000x64_S5000x64_0_0 : ∀ a, (![0, 0] : Fin 2 → Nat) a + S5000x64.size a ≤ S5000x64.size a
  h_S5000x64 : 0 < S5000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  transposes_S256x128_S128x256_1_0 : S256x128.Transposes [1, 0] S128x256
  transposes_S256x64_S64x256_1_0 : S256x64.Transposes [1, 0] S64x256
  shapeCasts_S256_S1x256 : S256.ShapeCasts S1x256
  shapeCasts_S1_S1x1 : S1.ShapeCasts S1x1
  inb_S128x256_S64x256_0_0 : ∀ a, (![0, 0] : Fin 2 → Nat) a + S64x256.size a ≤ S128x256.size a
  h_S64x256 : 0 < S64x256.numel
  shapeCasts_S64x256_S64x256 : S64x256.ShapeCasts S64x256
  inb_S128x256_S64x256_64_0 : ∀ a, (![64, 0] : Fin 2 → Nat) a + S64x256.size a ≤ S128x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  slices_S5000x256_o0_0_S5000x64 : S5000x256.Slices ![0, 0] S5000x64
  slices_S5000x256_o0_128_S5000x64 : S5000x256.Slices ![0, 128] S5000x64
  slices_S5000x256_o0_192_S5000x64 : S5000x256.Slices ![0, 192] S5000x64
  inb_S64x256_S64x256_0_0 : ∀ a, (![0, 0] : Fin 2 → Nat) a + S64x256.size a ≤ S64x256.size a
  inb_S136x1_S64x1_0_0 : ∀ a, (![0, 0] : Fin 2 → Nat) a + S64x1.size a ≤ S136x1.size a
  h_S64x1 : 0 < S64x1.numel
  inb_S136x1_S64x1_64_0 : ∀ a, (![64, 0] : Fin 2 → Nat) a + S64x1.size a ≤ S136x1.size a
  inb_S136x1_S8x1_128_0 : ∀ a, (![128, 0] : Fin 2 → Nat) a + S8x1.size a ≤ S136x1.size a
  h_S8x1 : 0 < S8x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x8_S8x64_S5000x64_1_0_0_1_n_n_wf : DotDims.WF S5000x8 S8x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  dot_S5000x64_S64x256_S5000x256_1_0_0_1_n_n_wf : DotDims.WF S5000x64 S64x256 S5000x256 [1] [0] [0] [1] [] []
  dot_S5000x64_S64x1_S5000x1_1_0_0_1_n_n_wf : DotDims.WF S5000x64 S64x1 S5000x1 [1] [0] [0] [1] [] []
  dot_S5000x8_S8x1_S5000x1_1_0_0_1_n_n_wf : DotDims.WF S5000x8 S8x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S100000x8.size a
  hwx0_0 : ∀ i : grid0.Coords, EltTy.bits .f32 = 32 ∨ (Rect.block (s := S100000x8) S5000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x8.size a ≤ S100000x8.size a
  hwx2_2 : ∀ i : grid2.Coords, EltTy.bits .f32 = 32 ∨ (Rect.block (s := S100000x8) S5000x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x256.size a ≤ S128x256.size a
  hwx2_8 : ∀ i : grid2.Coords, EltTy.bits .f32 = 32 ∨ (Rect.block (s := S128x256) S128x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x256.size a ≤ S1x256.size a
  hwx2_9 : ∀ i : grid2.Coords, EltTy.bits .f32 = 32 ∨ (Rect.block (s := S1x256) S1x256.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x256.size a ≤ S1x256.size a
  hwx2_10 : ∀ i : grid2.Coords, EltTy.bits .f32 = 32 ∨ (Rect.block (s := S1x256) S1x256.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S64x256.size a ≤ S64x256.size a
  hwx2_11 : ∀ i : grid2.Coords, EltTy.bits .f32 = 32 ∨ (Rect.block (s := S64x256) S64x256.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x256.size a ≤ S1x256.size a
  hwx2_12 : ∀ i : grid2.Coords, EltTy.bits .f32 = 32 ∨ (Rect.block (s := S1x256) S1x256.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x256.size a ≤ S1x256.size a
  hwx2_13 : ∀ i : grid2.Coords, EltTy.bits .f32 = 32 ∨ (Rect.block (s := S1x256) S1x256.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S136x1.size a ≤ S136x1.size a
  hwx2_14 : ∀ i : grid2.Coords, EltTy.bits .f32 = 32 ∨ (Rect.block (s := S136x1) S136x1.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S1x1.size a ≤ S1x1.size a
  hwx2_15 : ∀ i : grid2.Coords, EltTy.bits .f32 = 32 ∨ (Rect.block (s := S1x1) S1x1.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S5000x1.size a ≤ S100000x1.size a
  hwx2_16 : ∀ i : grid2.Coords, EltTy.bits .f32 = 32 ∨ (Rect.block (s := S100000x1) S5000x1.size (cc2_transform_16 i) (hinb2_16 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def dot_S5000x8_S8x1_S5000x1_1_0_0_1_n_n : DotDims S5000x8 S8x1 S5000x1 where
  lhsContracting := [1]
  rhsContracting := [0]
  lhsNonContracting := [0]
  rhsNonContracting := [1]
  lhsBatch := []
  rhsBatch := []
  wf := dot_S5000x8_S8x1_S5000x1_1_0_0_1_n_n_wf

abbrev win0_0 : Pipeline.Window sig grid0 :=
  Pipeline.Window.ofSpec (Memref.whole main_arg0) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v51_0) S5000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v51_1) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v51_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S5000x8.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v71) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v72) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v73) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v74) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v75) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v69) S128x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v76) S1x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v77) S1x256.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v70) S64x256.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v78) S1x256.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v79) S1x256.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_arg21) S136x1.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v80) S1x1.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v81) S5000x1.size cc2_transform_16 reads2_16 true false 2 stage2_16 sem2_16
    hrank2 hreads2_16 hinb2_16 nbuf2_16 (Memref.isWhole_whole _) hwx2_16 hstage2_16

abbrev win2 : Fin 17 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | ⟨_ + 17, h⟩ => absurd h (Nat.not_lt.2 (Nat.le_add_left _ _))
abbrev spec2 : Fin 17 → Pipeline.WinSpec sig grid2.rank := fun w => (win2 w).toWinSpec

class Facts : Prop extends Facts₀ where

variable [Facts]
-- ==== ReferenceIdeal.lean ====
abbrev S100000x8 : Shape := ⟨2, ![100000, 8]⟩
abbrev S2x3200000 : Shape := ⟨2, ![2, 3200000]⟩
abbrev S3200000 : Shape := ⟨1, ![3200000]⟩
abbrev S8x64 : Shape := ⟨2, ![8, 64]⟩
abbrev S64 : Shape := ⟨1, ![64]⟩
abbrev S64x64 : Shape := ⟨2, ![64, 64]⟩
abbrev S256x128 : Shape := ⟨2, ![256, 128]⟩
abbrev S256 : Shape := ⟨1, ![256]⟩
abbrev S256x64 : Shape := ⟨2, ![256, 64]⟩
abbrev S136x1 : Shape := ⟨2, ![136, 1]⟩
abbrev S1 : Shape := ⟨1, ![1]⟩
abbrev S1x3200000 : Shape := ⟨2, ![1, 3200000]⟩
abbrev S100000x64 : Shape := ⟨2, ![100000, 64]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S100000x128 : Shape := ⟨2, ![100000, 128]⟩
abbrev S128x256 : Shape := ⟨2, ![128, 256]⟩
abbrev S100000x256 : Shape := ⟨2, ![100000, 256]⟩
abbrev S1x256 : Shape := ⟨2, ![1, 256]⟩
abbrev S64x256 : Shape := ⟨2, ![64, 256]⟩
abbrev S100000x136 : Shape := ⟨2, ![100000, 136]⟩
abbrev S1x1 : Shape := ⟨2, ![1, 1]⟩

abbrev nBuf : Space → Nat
  | .hbm => 258
  | .vmem => 0
  | .smem => 0
  | _ => 0

abbrev hbmTy0_0 (i : Nat) : BufTy := match i % 128 with
  | 0 => ⟨S100000x8, .f32⟩
  | 1 => ⟨S2x3200000, .i32⟩
  | 2 => ⟨S3200000, .f32⟩
  | 3 => ⟨S8x64, .f32⟩
  | 4 => ⟨S64, .f32⟩
  | 5 => ⟨S64x64, .f32⟩
  | 6 => ⟨S64, .f32⟩
  | 7 => ⟨S64, .f32⟩
  | 8 => ⟨S64, .f32⟩
  | 9 => ⟨S64, .f32⟩
  | 10 => ⟨S64, .f32⟩
  | 11 => ⟨S64, .f32⟩
  | 12 => ⟨S64, .f32⟩
  | 13 => ⟨S64, .f32⟩
  | 14 => ⟨S64, .f32⟩
  | 15 => ⟨S256x128, .f32⟩
  | 16 => ⟨S256, .f32⟩
  | 17 => ⟨S256, .f32⟩
  | 18 => ⟨S256x64, .f32⟩
  | 19 => ⟨S256, .f32⟩
  | 20 => ⟨S256, .f32⟩
  | 21 => ⟨S136x1, .f32⟩
  | 22 => ⟨S1, .f32⟩
  | 23 => ⟨S1x3200000, .i32⟩
  | 24 => ⟨S3200000, .i32⟩
  | 25 => ⟨S1x3200000, .i32⟩
  | 26 => ⟨S3200000, .i32⟩
  | 27 => ⟨S100000x64, .f32⟩
  | 28 => ⟨S_, .f32⟩
  | 29 => ⟨S100000, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S100000, .f32⟩
  | 39 => ⟨S_, .f32⟩
  | 40 => ⟨S100000, .f32⟩
  | 41 => ⟨S100000, .f32⟩
  | 42 => ⟨S100000, .f32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S3200000, .f32⟩
  | 52 => ⟨S3200000, .f32⟩
  | 53 => ⟨S_, .i32⟩
  | 54 => ⟨S3200000, .i32⟩
  | 55 => ⟨S3200000, .i1⟩
  | 56 => ⟨S_, .i32⟩
  | 57 => ⟨S3200000, .i32⟩
  | 58 => ⟨S3200000, .i32⟩
  | 59 => ⟨S3200000, .i32⟩
  | 60 => ⟨S3200000x1, .i32⟩
  | 61 => ⟨S3200000, .f32⟩
  | 62 => ⟨S3200000, .f32⟩
  | 63 => ⟨S3200000x1, .f32⟩
  | 64 => ⟨S_, .i32⟩
  | 65 => ⟨S3200000, .i32⟩
  | 66 => ⟨S3200000, .i1⟩
  | 67 => ⟨S_, .i32⟩
  | 68 => ⟨S3200000, .i32⟩
  | 69 => ⟨S3200000, .i32⟩
  | 70 => ⟨S3200000, .i32⟩
  | 71 => ⟨S3200000x1, .i32⟩
  | 72 => ⟨S3200000x64, .f32⟩
  | 73 => ⟨S3200000x64, .f32⟩
  | 74 => ⟨S3200000x64, .f32⟩
  | 75 => ⟨S_, .f32⟩
  | 76 => ⟨S100000x64, .f32⟩
  | 77 => ⟨S3200000x1, .i32⟩
  | 78 => ⟨S100000x64, .f32⟩
  | 79 => ⟨S_, .f32⟩
  | 80 => ⟨S100000, .f32⟩
  | 81 => ⟨S100000, .f32⟩
  | 82 => ⟨S100000x1, .f32⟩
  | 83 => ⟨S100000x64, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S1x64, .f32⟩
  | 93 => ⟨S100000x64, .f32⟩
  | 94 => ⟨S100000x64, .f32⟩
  | 95 => ⟨S_, .f32⟩
  | 96 => ⟨S64, .f32⟩
  | 97 => ⟨S64, .f32⟩
  | 98 => ⟨S64, .f32⟩
  | 99 => ⟨S1x64, .f32⟩
  | 100 => ⟨S100000x64, .f32⟩
  | 101 => ⟨S100000x64, .f32⟩
  | 102 => ⟨S1x64, .f32⟩
  | 103 => ⟨S100000x64, .f32⟩
  | 104 => ⟨S100000x64, .f32⟩
  | 105 => ⟨S1x64, .f32⟩
  | 106 => ⟨S100000x64, .f32⟩
  | 107 => ⟨S100000x64, .f32⟩
  | 108 => ⟨S100000x64, .f32⟩
  | 109 => ⟨S_, .f32⟩
  | 110 => ⟨S100000, .f32⟩
  | 111 => ⟨S_, .i32⟩
  | 112 => ⟨S3200000, .i32⟩
  | 113 => ⟨S3200000, .i1⟩
  | 114 => ⟨S_, .i32⟩
  | 115 => ⟨S3200000, .i32⟩
  | 116 => ⟨S3200000, .i32⟩
  | 117 => ⟨S3200000, .i32⟩
  | 118 => ⟨S3200000x1, .i32⟩
  | 119 => ⟨S100000, .f32⟩
  | 120 => ⟨S_, .f32⟩
  | 121 => ⟨S100000, .f32⟩
  | 122 => ⟨S100000, .f32⟩
  | 123 => ⟨S100000, .f32⟩
  | 124 => ⟨S_, .i32⟩
  | 125 => ⟨S3200000, .i32⟩
  | 126 => ⟨S3200000, .i1⟩
  | 127 => ⟨S_, .i32⟩
  | _ => ⟨S100000x8, .f32⟩

abbrev hbmTy0_1 (i : Nat) : BufTy := match i % 128 with
  | 0 => ⟨S3200000, .i32⟩
  | 1 => ⟨S3200000, .i32⟩
  | 2 => ⟨S3200000, .i32⟩
  | 3 => ⟨S3200000x1, .i32⟩
  | 4 => ⟨S3200000, .f32⟩
  | 5 => ⟨S3200000, .f32⟩
  | 6 => ⟨S_, .i32⟩
  | 7 => ⟨S3200000, .i32⟩
  | 8 => ⟨S3200000, .i1⟩
  | 9 => ⟨S_, .i32⟩
  | 10 => ⟨S3200000, .i32⟩
  | 11 => ⟨S3200000, .i32⟩
  | 12 => ⟨S3200000, .i32⟩
  | 13 => ⟨S3200000x1, .i32⟩
  | 14 => ⟨S3200000, .f32⟩
  | 15 => ⟨S3200000, .f32⟩
  | 16 => ⟨S3200000x1, .f32⟩
  | 17 => ⟨S_, .i32⟩
  | 18 => ⟨S3200000, .i32⟩
  | 19 => ⟨S3200000, .i1⟩
  | 20 => ⟨S_, .i32⟩
  | 21 => ⟨S3200000, .i32⟩
  | 22 => ⟨S3200000, .i32⟩
  | 23 => ⟨S3200000, .i32⟩
  | 24 => ⟨S3200000x1, .i32⟩
  | 25 => ⟨S3200000x64, .f32⟩
  | 26 => ⟨S3200000x64, .f32⟩
  | 27 => ⟨S3200000x64, .f32⟩
  | 28 => ⟨S_, .f32⟩
  | 29 => ⟨S100000x64, .f32⟩
  | 30 => ⟨S3200000x1, .i32⟩
  | 31 => ⟨S100000x64, .f32⟩
  | 32 => ⟨S_, .f32⟩
  | 33 => ⟨S100000, .f32⟩
  | 34 => ⟨S100000, .f32⟩
  | 35 => ⟨S100000x1, .f32⟩
  | 36 => ⟨S100000x64, .f32⟩
  | 37 => ⟨S100000x64, .f32⟩
  | 38 => ⟨S100000x64, .f32⟩
  | 39 => ⟨S1x64, .f32⟩
  | 40 => ⟨S100000x64, .f32⟩
  | 41 => ⟨S100000x64, .f32⟩
  | 42 => ⟨S_, .f32⟩
  | 43 => ⟨S100000x64, .f32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S64, .f32⟩
  | 50 => ⟨S64, .f32⟩
  | 51 => ⟨S64, .f32⟩
  | 52 => ⟨S1x64, .f32⟩
  | 53 => ⟨S100000x64, .f32⟩
  | 54 => ⟨S100000x64, .f32⟩
  | 55 => ⟨S1x64, .f32⟩
  | 56 => ⟨S100000x64, .f32⟩
  | 57 => ⟨S100000x64, .f32⟩
  | 58 => ⟨S1x64, .f32⟩
  | 59 => ⟨S100000x64, .f32⟩
  | 60 => ⟨S100000x64, .f32⟩
  | 61 => ⟨S100000x128, .f32⟩
  | 62 => ⟨S128x256, .f32⟩
  | 63 => ⟨S100000x256, .f32⟩
  | 64 => ⟨S256, .f32⟩
  | 65 => ⟨S1x256, .f32⟩
  | 66 => ⟨S100000x256, .f32⟩
  | 67 => ⟨S100000x256, .f32⟩
  | 68 => ⟨S100000x64, .f32⟩
  | 69 => ⟨S100000x64, .f32⟩
  | 70 => ⟨S100000x64, .f32⟩
  | 71 => ⟨S100000x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S100000x64, .f32⟩
  | 81 => ⟨S100000x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S100000x64, .f32⟩
  | 91 => ⟨S100000x64, .f32⟩
  | 92 => ⟨S64x256, .f32⟩
  | 93 => ⟨S100000x256, .f32⟩
  | 94 => ⟨S256, .f32⟩
  | 95 => ⟨S1x256, .f32⟩
  | 96 => ⟨S100000x256, .f32⟩
  | 97 => ⟨S100000x256, .f32⟩
  | 98 => ⟨S100000x64, .f32⟩
  | 99 => ⟨S100000x64, .f32⟩
  | 100 => ⟨S100000x64, .f32⟩
  | 101 => ⟨S100000x64, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S100000x64, .f32⟩
  | 111 => ⟨S100000x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S100000x64, .f32⟩
  | 121 => ⟨S100000x64, .f32⟩
  | 122 => ⟨S100000x136, .f32⟩
  | 123 => ⟨S_, .f32⟩
  | 124 => ⟨S100000x136, .f32⟩
  | 125 => ⟨S100000x136, .f32⟩
  | 126 => ⟨S100000x1, .f32⟩
  | 127 => ⟨S1x1, .f32⟩
  | _ => ⟨S100000x8, .f32⟩

abbrev hbmTy0_2 (i : Nat) : BufTy := match i % 128 with
  | 0 => ⟨S100000x1, .f32⟩
  | 1 => ⟨S100000x1, .f32⟩
  | _ => ⟨S100000x8, .f32⟩

abbrev hbmTy (i : Nat) : BufTy := match i / 128 with
  | 0 => hbmTy0_0 i
  | 1 => hbmTy0_1 i
  | 2 => hbmTy0_2 i
  | _ => ⟨S100000x8, .f32⟩

abbrev bufTy : (tb : Table) → Fin (tcTables nBuf tb) → BufTy
  | .hbm, ⟨i, _⟩ => hbmTy i
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_c : Ref sig .tc := ⟨.hbm, 30, rfl⟩
abbrev main_v6 : Ref sig .tc := ⟨.hbm, 31, rfl⟩
abbrev main_v7 : Ref sig .tc := ⟨.hbm, 32, rfl⟩
abbrev main_c_0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_1 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c_2 : Ref sig .tc := ⟨.hbm, 43, rfl⟩
abbrev main_v16 : Ref sig .tc := ⟨.hbm, 44, rfl⟩
abbrev main_v17 : Ref sig .tc := ⟨.hbm, 45, rfl⟩
abbrev main_c_3 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_4 : Ref sig .tc := ⟨.hbm, 53, rfl⟩
abbrev main_v24 : Ref sig .tc := ⟨.hbm, 54, rfl⟩
abbrev main_v25 : Ref sig .tc := ⟨.hbm, 55, rfl⟩
abbrev main_c_5 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_c_6 : Ref sig .tc := ⟨.hbm, 64, rfl⟩
abbrev main_v33 : Ref sig .tc := ⟨.hbm, 65, rfl⟩
abbrev main_v34 : Ref sig .tc := ⟨.hbm, 66, rfl⟩
abbrev main_c_7 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_8 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_9 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_call0_cst : Ref sig .tc := ⟨.hbm, 89, rfl⟩
abbrev main_call0_v0 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_10 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_11 : Ref sig .tc := ⟨.hbm, 109, rfl⟩
abbrev main_v71 : Ref sig .tc := ⟨.hbm, 110, rfl⟩
abbrev main_c_12 : Ref sig .tc := ⟨.hbm, 111, rfl⟩
abbrev main_v72 : Ref sig .tc := ⟨.hbm, 112, rfl⟩
abbrev main_v73 : Ref sig .tc := ⟨.hbm, 113, rfl⟩
abbrev main_c_13 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_14 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_c_15 : Ref sig .tc := ⟨.hbm, 124, rfl⟩
abbrev main_v82 : Ref sig .tc := ⟨.hbm, 125, rfl⟩
abbrev main_v83 : Ref sig .tc := ⟨.hbm, 126, rfl⟩
abbrev main_c_16 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_c_17 : Ref sig .tc := ⟨.hbm, 134, rfl⟩
abbrev main_v90 : Ref sig .tc := ⟨.hbm, 135, rfl⟩
abbrev main_v91 : Ref sig .tc := ⟨.hbm, 136, rfl⟩
abbrev main_c_18 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_c_19 : Ref sig .tc := ⟨.hbm, 145, rfl⟩
abbrev main_v99 : Ref sig .tc := ⟨.hbm, 146, rfl⟩
abbrev main_v100 : Ref sig .tc := ⟨.hbm, 147, rfl⟩
abbrev main_c_20 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_cst_21 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_22 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_call1_cst : Ref sig .tc := ⟨.hbm, 170, rfl⟩
abbrev main_call1_v0 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_23 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_cst_24 : Ref sig .tc := ⟨.hbm, 202, rfl⟩
abbrev main_v149 : Ref sig .tc := ⟨.hbm, 203, rfl⟩
abbrev main_v150 : Ref sig .tc := ⟨.hbm, 204, rfl⟩
abbrev main_cst_25 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_cst_26 : Ref sig .tc := ⟨.hbm, 212, rfl⟩
abbrev main_v157 : Ref sig .tc := ⟨.hbm, 213, rfl⟩
abbrev main_v158 : Ref sig .tc := ⟨.hbm, 214, rfl⟩
abbrev main_cst_27 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_cst_28 : Ref sig .tc := ⟨.hbm, 232, rfl⟩
abbrev main_v175 : Ref sig .tc := ⟨.hbm, 233, rfl⟩
abbrev main_v176 : Ref sig .tc := ⟨.hbm, 234, rfl⟩
abbrev main_cst_29 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_cst_30 : Ref sig .tc := ⟨.hbm, 242, rfl⟩
abbrev main_v183 : Ref sig .tc := ⟨.hbm, 243, rfl⟩
abbrev main_v184 : Ref sig .tc := ⟨.hbm, 244, rfl⟩
abbrev main_cst_31 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_call2_cst : Ref sig .tc := ⟨.hbm, 251, rfl⟩
abbrev main_call2_v0 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  concatenates_S100000x64_S100000x64_S100000x128_d1 : Shape.Concatenates [S100000x64, S100000x64] S100000x128 1
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S100000x256_S100000x64_0_0 : S100000x256.Slices ![0, 0] S100000x64
  slices_S100000x256_S100000x64_0_64 : S100000x256.Slices ![0, 64] S100000x64
  slices_S100000x256_S100000x64_0_128 : S100000x256.Slices ![0, 128] S100000x64
  slices_S100000x256_S100000x64_0_192 : S100000x256.Slices ![0, 192] S100000x64
  transposes_S256x64_S64x256_1_0 : S256x64.Transposes [1, 0] S64x256
  concatenates_S100000x64_S100000x64_S100000x8_S100000x136_d1 : Shape.Concatenates [S100000x64, S100000x64, S100000x8] S100000x136 1
  bcast_S_S100000x136 : S_.BroadcastsInDim S100000x136 (![] : Fin 0 → Fin S100000x136.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x8_S8x64_S100000x64_1_0_0_1_n_n_wf : DotDims.WF S100000x8 S8x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S100000x128_S128x256_S100000x256_1_0_0_1_n_n_wf : DotDims.WF S100000x128 S128x256 S100000x256 [1] [0] [0] [1] [] []
  dot_S100000x64_S64x256_S100000x256_1_0_0_1_n_n_wf : DotDims.WF S100000x64 S64x256 S100000x256 [1] [0] [0] [1] [] []
  dot_S100000x136_S136x1_S100000x1_1_0_0_1_n_n_wf : DotDims.WF S100000x136 S136x1 S100000x1 [1] [0] [0] [1] [] []

variable [Facts₀]

def dot_S100000x8_S8x64_S100000x64_1_0_0_1_n_n : DotDims S100000x8 S8x64 S100000x64 where
  lhsContracting := [1]
  rhsContracting := [0]
  lhsNonContracting := [0]
  rhsNonContracting := [1]
  lhsBatch := []
  rhsBatch := []
  wf := dot_S100000x8_S8x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf
def dot_S100000x136_S136x1_S100000x1_1_0_0_1_n_n : DotDims S100000x136 S136x1 S100000x1 where
  lhsContracting := [1]
  rhsContracting := [0]
  lhsNonContracting := [0]
  rhsNonContracting := [1]
  lhsBatch := []
  rhsBatch := []
  wf := dot_S100000x136_S136x1_S100000x1_1_0_0_1_n_n_wf

class Facts : Prop extends Facts₀ where

variable [Facts]
-- ==== Proof.RefRunKept.lean ====
/-
  The reference's line of operations in fifteen pieces: what each piece leaves alone.

  A piece writes one buffer per operation; a buffer outside that list holds after the piece what it held before
  (`keptA` … `keptI2`). The fold over two lines in a row is the second line's fold of the first's (`after_append`).
-/
import proofs.«159935_j82514911690903_1_alg».proof.Proof.RunP
import proofs.«159935_j82514911690903_1_alg».proof.Proof.ReadP

set_option maxRecDepth 16384
-- the declarations of this module are elaborated one after the other
set_option Elab.async false

noncomputable section

namespace Cert.RefRun

open Cert.ReferenceIdeal Cert.ReferenceIdeal.Gen Cert.ReferenceIdeal.Read Cert.ReferenceIdeal.Value
open Idealize.ShloMosaic Idealize.ShloMosaic.TcCoe Idealize.SL.Sem Idealize.ShloMosaic.StableHlo

variable (U : Valuation τ sig (Elt Ideal))

/-- Read one buffer after a piece: unfold the piece and compute the fold. -/
local macro "read_fold" ops:ident : tactic => `(tactic| (dsimp only [$ops:ident]; after_results_simp))

/-- A value stored in a typed buffer and read back is the value (the buffer's type IS the value's type). -/
theorem ofBuf_toBuf {sig : RefSig} {Val : EltTy → Type} {T : BufTy} (x : TRef sig T) (v : T.Contents Val) :
    x.ofBuf (x.toBuf v) = v :=
  eq_of_heq ((cast_heq _ _).trans (cast_heq _ _))

/-- The fold over two lines run one after the other. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- The buffers piece A writes, and that it leaves every other buffer alone. -/
abbrev writtenA : List (Ref sig .tc) := [main_v0, main_v1, main_v2, main_v3, main_v4, main_cst, main_v5, main_c, main_v6, main_v7, main_c_0, main_v8, main_v9, main_v10, main_v11, main_v12, main_cst_1, main_v13, main_v14, main_v15, main_c_2, main_v16, main_v17, main_c_3, main_v18, main_v19, main_v20, main_v21, main_v22, main_v23, main_c_4, main_v24, main_v25, main_c_5, main_v26, main_v27, main_v28, main_v29, main_v30, main_v31]
theorem opsA_writes : (opsA : List (HloOp τ sig (Elt Ideal))).Forall fun op =>
    op.writes ⊆ (writtenA.map (Proc.devRef (τ := τ) .tc)).toFinset := by
  simp only [opsA, List.Forall, TRef.nullary, TRef.unary, TRef.binary, StableHlo.nullary_writes, StableHlo.unary_writes, StableHlo.binary_writes,
    StableHlo.ternary_writes, StableHlo.quaternary_writes, StableHlo.reshape_writes, StableHlo.nary_writes]
  repeat' apply And.intro
  all_goals exact Finset.singleton_subset_iff.mpr (List.mem_toFinset.mpr (List.mem_map.mpr ⟨_, by decide, rfl⟩))
theorem keptA (r : Ref sig .tc) (hr : r ∉ writtenA) : after opsA U (Proc.devRef .tc r) = U (Proc.devRef .tc r) :=
  after_of_writes_sub opsA U opsA_writes hr

/-- The buffers piece B writes, and that it leaves every other buffer alone. -/
abbrev writtenB : List (Ref sig .tc) := [main_v32, main_c_6, main_v33, main_v34, main_c_7, main_v35, main_v36, main_v37, main_v38, main_v39, main_v40, main_v41, main_cst_8, main_v42, main_v43, main_v44, main_cst_9, main_v45, main_v46, main_v47, main_v48, main_v49, main_v50]
theorem opsB_writes : (opsB : List (HloOp τ sig (Elt Ideal))).Forall fun op =>
    op.writes ⊆ (writtenB.map (Proc.devRef (τ := τ) .tc)).toFinset := by
  simp only [opsB, List.Forall, TRef.nullary, TRef.unary, TRef.binary, StableHlo.nullary_writes, StableHlo.unary_writes, StableHlo.binary_writes,
    StableHlo.ternary_writes, StableHlo.quaternary_writes, StableHlo.reshape_writes, StableHlo.nary_writes]
  repeat' apply And.intro
  all_goals exact Finset.singleton_subset_iff.mpr (List.mem_toFinset.mpr (List.mem_map.mpr ⟨_, by decide, rfl⟩))
theorem keptB (r : Ref sig .tc) (hr : r ∉ writtenB) : after opsB U (Proc.devRef .tc r) = U (Proc.devRef .tc r) :=
  after_of_writes_sub opsB U opsB_writes hr

/-- The buffers piece C1 writes, and that it leaves every other buffer alone. -/
abbrev writtenC1 : List (Ref sig .tc) := [main_v51, main_v52, main_v53]
theorem opsC1_writes : (opsC1 : List (HloOp τ sig (Elt Ideal))).Forall fun op =>
    op.writes ⊆ (writtenC1.map (Proc.devRef (τ := τ) .tc)).toFinset := by
  simp only [opsC1, List.Forall, TRef.nullary, TRef.unary, TRef.binary, StableHlo.nullary_writes, StableHlo.unary_writes, StableHlo.binary_writes,
    StableHlo.ternary_writes, StableHlo.quaternary_writes, StableHlo.reshape_writes, StableHlo.nary_writes]
  repeat' apply And.intro
  all_goals exact Finset.singleton_subset_iff.mpr (List.mem_toFinset.mpr (List.mem_map.mpr ⟨_, by decide, rfl⟩))
theorem keptC1 (r : Ref sig .tc) (hr : r ∉ writtenC1) : after opsC1 U (Proc.devRef .tc r) = U (Proc.devRef .tc r) :=
  after_of_writes_sub opsC1 U opsC1_writes hr

/-- The buffers piece Cr writes, and that it leaves every other buffer alone. -/
abbrev writtenCr : List (Ref sig .tc) := [main_call0_cst, main_call0_v0, main_v54]
theorem opsCr_writes : (opsCr : List (HloOp τ sig (Elt Ideal))).Forall fun op =>
    op.writes ⊆ (writtenCr.map (Proc.devRef (τ := τ) .tc)).toFinset := by
  simp only [opsCr, List.Forall, TRef.nullary, TRef.unary, TRef.binary, StableHlo.nullary_writes, StableHlo.unary_writes, StableHlo.binary_writes,
    StableHlo.ternary_writes, StableHlo.quaternary_writes, StableHlo.reshape_writes, StableHlo.nary_writes]
  repeat' apply And.intro
  all_goals exact Finset.singleton_subset_iff.mpr (List.mem_toFinset.mpr (List.mem_map.mpr ⟨_, by decide, rfl⟩))
theorem keptCr (r : Ref sig .tc) (hr : r ∉ writtenCr) : after opsCr U (Proc.devRef .tc r) = U (Proc.devRef .tc r) :=
  after_of_writes_sub opsCr U opsCr_writes hr

/-- The buffers piece C2 writes, and that it leaves every other buffer alone. -/
abbrev writtenC2 : List (Ref sig .tc) := [main_v55, main_v56, main_v57, main_cst_10, main_v58, main_v59, main_v60, main_v61, main_v62, main_v63, main_v64, main_v65, main_v66, main_v67, main_v68, main_v69, main_v70]
theorem opsC2_writes : (opsC2 : List (HloOp τ sig (Elt Ideal))).Forall fun op =>
    op.writes ⊆ (writtenC2.map (Proc.devRef (τ := τ) .tc)).toFinset := by
  simp only [opsC2, List.Forall, TRef.nullary, TRef.unary, TRef.binary, StableHlo.nullary_writes, StableHlo.unary_writes, StableHlo.binary_writes,
    StableHlo.ternary_writes, StableHlo.quaternary_writes, StableHlo.reshape_writes, StableHlo.nary_writes]
  repeat' apply And.intro
  all_goals exact Finset.singleton_subset_iff.mpr (List.mem_toFinset.mpr (List.mem_map.mpr ⟨_, by decide, rfl⟩))
theorem keptC2 (r : Ref sig .tc) (hr : r ∉ writtenC2) : after opsC2 U (Proc.devRef .tc r) = U (Proc.devRef .tc r) :=
  after_of_writes_sub opsC2 U opsC2_writes hr

/-- The buffers piece D writes, and that it leaves every other buffer alone. -/
abbrev writtenD : List (Ref sig .tc) := [main_cst_11, main_v71, main_c_12, main_v72, main_v73, main_c_13, main_v74, main_v75, main_v76, main_v77, main_v78, main_cst_14, main_v79, main_v80, main_v81, main_c_15, main_v82, main_v83, main_c_16, main_v84, main_v85, main_v86, main_v87, main_v88, main_v89, main_c_17, main_v90, main_v91, main_c_18, main_v92, main_v93, main_v94, main_v95, main_v96, main_v97]
theorem opsD_writes : (opsD : List (HloOp τ sig (Elt Ideal))).Forall fun op =>
    op.writes ⊆ (writtenD.map (Proc.devRef (τ := τ) .tc)).toFinset := by
  simp only [opsD, List.Forall, TRef.nullary, TRef.unary, TRef.binary, StableHlo.nullary_writes, StableHlo.unary_writes, StableHlo.binary_writes,
    StableHlo.ternary_writes, StableHlo.quaternary_writes, StableHlo.reshape_writes, StableHlo.nary_writes]
  repeat' apply And.intro
  all_goals exact Finset.singleton_subset_iff.mpr (List.mem_toFinset.mpr (List.mem_map.mpr ⟨_, by decide, rfl⟩))
theorem keptD (r : Ref sig .tc) (hr : r ∉ writtenD) : after opsD U (Proc.devRef .tc r) = U (Proc.devRef .tc r) :=
  after_of_writes_sub opsD U opsD_writes hr

/-- The buffers piece E writes, and that it leaves every other buffer alone. -/
abbrev writtenE : List (Ref sig .tc) := [main_v98, main_c_19, main_v99, main_v100, main_c_20, main_v101, main_v102, main_v103, main_v104, main_v105, main_v106, main_v107, main_cst_21, main_v108, main_v109, main_v110, main_cst_22, main_v111, main_v112, main_v113, main_v114, main_v115, main_v116]
theorem opsE_writes : (opsE : List (HloOp τ sig (Elt Ideal))).Forall fun op =>
    op.writes ⊆ (writtenE.map (Proc.devRef (τ := τ) .tc)).toFinset := by
  simp only [opsE, List.Forall, TRef.nullary, TRef.unary, TRef.binary, StableHlo.nullary_writes, StableHlo.unary_writes, StableHlo.binary_writes,
    StableHlo.ternary_writes, StableHlo.quaternary_writes, StableHlo.reshape_writes, StableHlo.nary_writes]
  repeat' apply And.intro
  all_goals exact Finset.singleton_subset_iff.mpr (List.mem_toFinset.mpr (List.mem_map.mpr ⟨_, by decide, rfl⟩))
theorem keptE (r : Ref sig .tc) (hr : r ∉ writtenE) : after opsE U (Proc.devRef .tc r) = U (Proc.devRef .tc r) :=
  after_of_writes_sub opsE U opsE_writes hr

/-- The buffers piece F1 writes, and that it leaves every other buffer alone. -/
abbrev writtenF1 : List (Ref sig .tc) := [main_v117, main_v118, main_v119]
theorem opsF1_writes : (opsF1 : List (HloOp τ sig (Elt Ideal))).Forall fun op =>
    op.writes ⊆ (writtenF1.map (Proc.devRef (τ := τ) .tc)).toFinset := by
  simp only [opsF1, List.Forall, TRef.nullary, TRef.unary, TRef.binary, StableHlo.nullary_writes, StableHlo.unary_writes, StableHlo.binary_writes,
    StableHlo.ternary_writes, StableHlo.quaternary_writes, StableHlo.reshape_writes, StableHlo.nary_writes]
  repeat' apply And.intro
  all_goals exact Finset.singleton_subset_iff.mpr (List.mem_toFinset.mpr (List.mem_map.mpr ⟨_, by decide, rfl⟩))
theorem keptF1 (r : Ref sig .tc) (hr : r ∉ writtenF1) : after opsF1 U (Proc.devRef .tc r) = U (Proc.devRef .tc r) :=
  after_of_writes_sub opsF1 U opsF1_writes hr

/-- The buffers piece Fr writes, and that it leaves every other buffer alone. -/
abbrev writtenFr : List (Ref sig .tc) := [main_call1_cst, main_call1_v0, main_v120]
theorem opsFr_writes : (opsFr : List (HloOp τ sig (Elt Ideal))).Forall fun op =>
    op.writes ⊆ (writtenFr.map (Proc.devRef (τ := τ) .tc)).toFinset := by
  simp only [opsFr, List.Forall, TRef.nullary, TRef.unary, TRef.binary, StableHlo.nullary_writes, StableHlo.unary_writes, StableHlo.binary_writes,
    StableHlo.ternary_writes, StableHlo.quaternary_writes, StableHlo.reshape_writes, StableHlo.nary_writes]
  repeat' apply And.intro
  all_goals exact Finset.singleton_subset_iff.mpr (List.mem_toFinset.mpr (List.mem_map.mpr ⟨_, by decide, rfl⟩))
theorem keptFr (r : Ref sig .tc) (hr : r ∉ writtenFr) : after opsFr U (Proc.devRef .tc r) = U (Proc.devRef .tc r) :=
  after_of_writes_sub opsFr U opsFr_writes hr

/-- The buffers piece F2 writes, and that it leaves every other buffer alone. -/
abbrev writtenF2 : List (Ref sig .tc) := [main_v121, main_v122, main_v123, main_cst_23, main_v124, main_v125, main_v126, main_v127, main_v128, main_v129, main_v130, main_v131, main_v132, main_v133, main_v134, main_v135]
theorem opsF2_writes : (opsF2 : List (HloOp τ sig (Elt Ideal))).Forall fun op =>
    op.writes ⊆ (writtenF2.map (Proc.devRef (τ := τ) .tc)).toFinset := by
  simp only [opsF2, List.Forall, TRef.nullary, TRef.unary, TRef.binary, StableHlo.nullary_writes, StableHlo.unary_writes, StableHlo.binary_writes,
    StableHlo.ternary_writes, StableHlo.quaternary_writes, StableHlo.reshape_writes, StableHlo.nary_writes]
  repeat' apply And.intro
  all_goals exact Finset.singleton_subset_iff.mpr (List.mem_toFinset.mpr (List.mem_map.mpr ⟨_, by decide, rfl⟩))
theorem keptF2 (r : Ref sig .tc) (hr : r ∉ writtenF2) : after opsF2 U (Proc.devRef .tc r) = U (Proc.devRef .tc r) :=
  after_of_writes_sub opsF2 U opsF2_writes hr

/-- The buffers piece G writes, and that it leaves every other buffer alone. -/
abbrev writtenG : List (Ref sig .tc) := [main_v136, main_v137, main_v138, main_v139, main_v140, main_v141, main_v142, main_v143, main_v144, main_v145, main_v146, main_v147, main_v148, main_cst_24, main_v149, main_v150, main_cst_25, main_v151, main_v152, main_v153, main_v154, main_v155, main_v156, main_cst_26, main_v157, main_v158, main_cst_27, main_v159, main_v160, main_v161, main_v162]
theorem opsG_writes : (opsG : List (HloOp τ sig (Elt Ideal))).Forall fun op =>
    op.writes ⊆ (writtenG.map (Proc.devRef (τ := τ) .tc)).toFinset := by
  simp only [opsG, List.Forall, TRef.nullary, TRef.unary, TRef.binary, StableHlo.nullary_writes, StableHlo.unary_writes, StableHlo.binary_writes,
    StableHlo.ternary_writes, StableHlo.quaternary_writes, StableHlo.reshape_writes, StableHlo.nary_writes]
  repeat' apply And.intro
  all_goals exact Finset.singleton_subset_iff.mpr (List.mem_toFinset.mpr (List.mem_map.mpr ⟨_, by decide, rfl⟩))
theorem keptG (r : Ref sig .tc) (hr : r ∉ writtenG) : after opsG U (Proc.devRef .tc r) = U (Proc.devRef .tc r) :=
  after_of_writes_sub opsG U opsG_writes hr

/-- The buffers piece H writes, and that it leaves every other buffer alone. -/
abbrev writtenH : List (Ref sig .tc) := [main_v163, main_v164, main_v165, main_v166, main_v167, main_v168, main_v169, main_v170, main_v171, main_v172, main_v173, main_v174, main_cst_28, main_v175, main_v176, main_cst_29, main_v177, main_v178, main_v179, main_v180, main_v181, main_v182, main_cst_30, main_v183, main_v184, main_cst_31, main_v185, main_v186, main_v187, main_v188]
theorem opsH_writes : (opsH : List (HloOp τ sig (Elt Ideal))).Forall fun op =>
    op.writes ⊆ (writtenH.map (Proc.devRef (τ := τ) .tc)).toFinset := by
  simp only [opsH, List.Forall, TRef.nullary, TRef.unary, TRef.binary, StableHlo.nullary_writes, StableHlo.unary_writes, StableHlo.binary_writes,
    StableHlo.ternary_writes, StableHlo.quaternary_writes, StableHlo.reshape_writes, StableHlo.nary_writes]
  repeat' apply And.intro
  all_goals exact Finset.singleton_subset_iff.mpr (List.mem_toFinset.mpr (List.mem_map.mpr ⟨_, by decide, rfl⟩))
theorem keptH (r : Ref sig .tc) (hr : r ∉ writtenH) : after opsH U (Proc.devRef .tc r) = U (Proc.devRef .tc r) :=
  after_of_writes_sub opsH U opsH_writes hr

/-- The buffers piece I1 writes, and that it leaves every other buffer alone. -/
abbrev writtenI1 : List (Ref sig .tc) := [main_v189]
theorem opsI1_writes : (opsI1 : List (HloOp τ sig (Elt Ideal))).Forall fun op =>
    op.writes ⊆ (writtenI1.map (Proc.devRef (τ := τ) .tc)).toFinset := by
  simp only [opsI1, List.Forall, TRef.nullary, TRef.unary, TRef.binary, StableHlo.nullary_writes, StableHlo.unary_writes, StableHlo.binary_writes,
    StableHlo.ternary_writes, StableHlo.quaternary_writes, StableHlo.reshape_writes, StableHlo.nary_writes]
  repeat' apply And.intro
  all_goals exact Finset.singleton_subset_iff.mpr (List.mem_toFinset.mpr (List.mem_map.mpr ⟨_, by decide, rfl⟩))
theorem keptI1 (r : Ref sig .tc) (hr : r ∉ writtenI1) : after opsI1 U (Proc.devRef .tc r) = U (Proc.devRef .tc r) :=
  after_of_writes_sub opsI1 U opsI1_writes hr

/-- The buffers piece Ir writes, and that it leaves every other buffer alone. -/
abbrev writtenIr : List (Ref sig .tc) := [main_call2_cst, main_call2_v0, main_v190]
theorem opsIr_writes : (opsIr : List (HloOp τ sig (Elt Ideal))).Forall fun op =>
    op.writes ⊆ (writtenIr.map (Proc.devRef (τ := τ) .tc)).toFinset := by
  simp only [opsIr, List.Forall, TRef.nullary, TRef.unary, TRef.binary, StableHlo.nullary_writes, StableHlo.unary_writes, StableHlo.binary_writes,
    StableHlo.ternary_writes, StableHlo.quaternary_writes, StableHlo.reshape_writes, StableHlo.nary_writes]
  repeat' apply And.intro
  all_goals exact Finset.singleton_subset_iff.mpr (List.mem_toFinset.mpr (List.mem_map.mpr ⟨_, by decide, rfl⟩))
theorem keptIr (r : Ref sig .tc) (hr : r ∉ writtenIr) : after opsIr U (Proc.devRef .tc r) = U (Proc.devRef .tc r) :=
  after_of_writes_sub opsIr U opsIr_writes hr

/-- The buffers piece I2 writes, and that it leaves every other buffer alone. -/
abbrev writtenI2 : List (Ref sig .tc) := [main_v191, main_v192, main_v193, main_v194]
theorem opsI2_writes : (opsI2 : List (HloOp τ sig (Elt Ideal))).Forall fun op =>
    op.writes ⊆ (writtenI2.map (Proc.devRef (τ := τ) .tc)).toFinset := by
  simp only [opsI2, List.Forall, TRef.nullary, TRef.unary, TRef.binary, StableHlo.nullary_writes, StableHlo.unary_writes, StableHlo.binary_writes,
    StableHlo.ternary_writes, StableHlo.quaternary_writes, StableHlo.reshape_writes, StableHlo.nary_writes]
  repeat' apply And.intro
  all_goals exact Finset.singleton_subset_iff.mpr (List.mem_toFinset.mpr (List.mem_map.mpr ⟨_, by decide, rfl⟩))
theorem keptI2 (r : Ref sig .tc) (hr : r ∉ writtenI2) : after opsI2 U (Proc.devRef .tc r) = U (Proc.devRef .tc r) :=
  after_of_writes_sub opsI2 U opsI2_writes hr

end Cert.RefRun

end
-- ==== Proof.RefRunAB.lean ====
/-
  The reference's line of operations read piece by piece (pieces A and B: edge list, first projection, degree, normalisation, first aggregation).

  Each theorem reads one buffer after one piece from ARBITRARY contents `U`: given that the buffers the piece takes
  from earlier pieces hold the reference's stage functions (`val_main_vN`) of some arrays, and that the argument
  buffers it reads hold those arrays, the buffer it hands on holds the next stage function of the same arrays.
-/
import proofs.«159935_j82514911690903_1_alg».proof.Proof.RunP
import proofs.«159935_j82514911690903_1_alg».proof.Proof.ReadP

set_option maxRecDepth 16384
-- the declarations of this module are elaborated one after the other
set_option Elab.async false

noncomputable section

namespace Cert.RefRun

open Cert.ReferenceIdeal Cert.ReferenceIdeal.Gen Cert.ReferenceIdeal.Read Cert.ReferenceIdeal.Value
open Idealize.ShloMosaic Idealize.ShloMosaic.TcCoe Idealize.SL.Sem Idealize.ShloMosaic.StableHlo

variable (U : Valuation τ sig (Elt Ideal))

/-- Read one buffer after a piece: unfold the piece and compute the fold. -/
local macro "read_fold" ops:ident : tactic => `(tactic| (dsimp only [$ops:ident]; after_results_simp))

/-- Piece A: the edge list's rows, the first projection, the degree and the edge normalisation. -/
theorem A_v1 (x1 : (⟨S2x3200000, .i32⟩ : BufTy).Contents (Elt Ideal))
    (ha1 : U (Proc.devRef .tc main_arg1) = x1) :
    after opsA U (Proc.devRef .tc main_v1) = val_main_v1 (F := Ideal) x1 := by
  read_fold opsA
  rw [ha1]
  simp only [val_main_v0, val_main_v1] <;> rfl
theorem A_v3 (x1 : (⟨S2x3200000, .i32⟩ : BufTy).Contents (Elt Ideal))
    (ha1 : U (Proc.devRef .tc main_arg1) = x1) :
    after opsA U (Proc.devRef .tc main_v3) = val_main_v3 (F := Ideal) x1 := by
  read_fold opsA
  rw [ha1]
  simp only [val_main_v0, val_main_v1, val_main_v2, val_main_v3] <;> rfl
theorem A_v4 (x0 : (⟨S100000x8, .f32⟩ : BufTy).Contents (Elt Ideal)) (x3 : (⟨S8x64, .f32⟩ : BufTy).Contents (Elt Ideal))
    (ha0 : U (Proc.devRef .tc main_arg0) = x0) (ha3 : U (Proc.devRef .tc main_arg3) = x3) :
    after opsA U (Proc.devRef .tc main_v4) = val_main_v4 (F := Ideal) x0 x3 := by
  read_fold opsA
  rw [ha0, ha3]
  simp only [val_main_v0, val_main_v1, val_main_v2, val_main_v3, val_main_v4] <;> rfl
theorem A_v14 (x1 : (⟨S2x3200000, .i32⟩ : BufTy).Contents (Elt Ideal)) (x2 : (⟨S3200000, .f32⟩ : BufTy).Contents (Elt Ideal))
    (ha1 : U (Proc.devRef .tc main_arg1) = x1) (ha2 : U (Proc.devRef .tc main_arg2) = x2) :
    after opsA U (Proc.devRef .tc main_v14) = val_main_v14 (F := Ideal) x1 x2 := by
  read_fold opsA
  rw [ha1, ha2]
  simp only [val_main_v0, val_main_v1, val_main_v2, val_main_v3, val_main_v4, val_main_cst, val_main_v5, val_main_c, val_main_v6, val_main_v7, val_main_c_0, val_main_v8, val_main_v9, val_main_v10, val_main_v11, val_main_v12, val_main_cst_1, val_main_v13, val_main_v14] <;> rfl
theorem A_v31 (x1 : (⟨S2x3200000, .i32⟩ : BufTy).Contents (Elt Ideal)) (x2 : (⟨S3200000, .f32⟩ : BufTy).Contents (Elt Ideal))
    (ha1 : U (Proc.devRef .tc main_arg1) = x1) (ha2 : U (Proc.devRef .tc main_arg2) = x2) :
    after opsA U (Proc.devRef .tc main_v31) = val_main_v31 (F := Ideal) x1 x2 := by
  read_fold opsA
  rw [ha1, ha2]
  simp only [val_main_v0, val_main_v1, val_main_v2, val_main_v3, val_main_v4, val_main_cst, val_main_v5, val_main_c, val_main_v6, val_main_v7, val_main_c_0, val_main_v8, val_main_v9, val_main_v10, val_main_v11, val_main_v12, val_main_cst_1, val_main_v13, val_main_v14, val_main_v15, val_main_c_2, val_main_v16, val_main_v17, val_main_c_3, val_main_v18, val_main_v19, val_main_v20, val_main_v21, val_main_v22, val_main_v23, val_main_c_4, val_main_v24, val_main_v25, val_main_c_5, val_main_v26, val_main_v27, val_main_v28, val_main_v29, val_main_v30, val_main_v31] <;> rfl

/-- Piece B: the first aggregation. -/
theorem B_v50 (x0 : (⟨S100000x8, .f32⟩ : BufTy).Contents (Elt Ideal)) (x1 : (⟨S2x3200000, .i32⟩ : BufTy).Contents (Elt Ideal)) (x2 : (⟨S3200000, .f32⟩ : BufTy).Contents (Elt Ideal)) (x3 : (⟨S8x64, .f32⟩ : BufTy).Contents (Elt Ideal))
    (hv31 : U (Proc.devRef .tc main_v31) = val_main_v31 (F := Ideal) x1 x2) (hv4 : U (Proc.devRef .tc main_v4) = val_main_v4 (F := Ideal) x0 x3) (hv1 : U (Proc.devRef .tc main_v1) = val_main_v1 (F := Ideal) x1) (hv3 : U (Proc.devRef .tc main_v3) = val_main_v3 (F := Ideal) x1) (hv14 : U (Proc.devRef .tc main_v14) = val_main_v14 (F := Ideal) x1 x2) :
    after opsB U (Proc.devRef .tc main_v50) = val_main_v50 (F := Ideal) x0 x1 x2 x3 := by
  read_fold opsB
  rw [hv31, hv4, hv1, hv3, hv14]
  simp only [val_main_v32, val_main_c_6, val_main_v33, val_main_v34, val_main_c_7, val_main_v35, val_main_v36, val_main_v37, val_main_v38, val_main_v39, val_main_v40, val_main_v41, val_main_cst_8, val_main_v42, val_main_v43, val_main_v44, val_main_cst_9, val_main_v45, val_main_v46, val_main_v47, val_main_v48, val_main_v49, val_main_v50] <;> rfl

end Cert.RefRun

end
-- ==== Proof.RefRunCDE.lean ====
/-
  The reference's line of operations read piece by piece (pieces C1 to E: first activation, second projection, the degree once more, second aggregation).

  Each theorem reads one buffer after one piece from ARBITRARY contents `U`: given that the buffers the piece takes
  from earlier pieces hold the reference's stage functions (`val_main_vN`) of some arrays, and that the argument
  buffers it reads hold those arrays, the buffer it hands on holds the next stage function of the same arrays. A
  rectifier that the reference calls as a function is three operations on TYPED buffers, whose values are moved in and
  out of the buffers' own types; such a piece is read on its own, the moves removed as what they are — identities
  (`ofBuf_toBuf`, `cast_heq`).
-/
import proofs.«159935_j82514911690903_1_alg».proof.Proof.RunP
import proofs.«159935_j82514911690903_1_alg».proof.Proof.ReadP
import proofs.«159935_j82514911690903_1_alg».proof.Proof.RefRunKept

set_option maxRecDepth 16384
-- the declarations of this module are elaborated one after the other
set_option Elab.async false

noncomputable section

namespace Cert.RefRun

open Cert.ReferenceIdeal Cert.ReferenceIdeal.Gen Cert.ReferenceIdeal.Read Cert.ReferenceIdeal.Value
open Idealize.ShloMosaic Idealize.ShloMosaic.TcCoe Idealize.SL.Sem Idealize.ShloMosaic.StableHlo

variable (U : Valuation τ sig (Elt Ideal))

/-- Read one buffer after a piece: unfold the piece and compute the fold. -/
local macro "read_fold" ops:ident : tactic => `(tactic| (dsimp only [$ops:ident]; after_results_simp))

/-- Pieces C1, Cr, C2: bias; rectifier; normalisation and the second projection. -/
theorem C1_v53 (x0 : (⟨S100000x8, .f32⟩ : BufTy).Contents (Elt Ideal)) (x1 : (⟨S2x3200000, .i32⟩ : BufTy).Contents (Elt Ideal)) (x2 : (⟨S3200000, .f32⟩ : BufTy).Contents (Elt Ideal)) (x3 : (⟨S8x64, .f32⟩ : BufTy).Contents (Elt Ideal)) (x4 : (⟨S64, .f32⟩ : BufTy).Contents (Elt Ideal))
    (hv50 : U (Proc.devRef .tc main_v50) = val_main_v50 (F := Ideal) x0 x1 x2 x3) (ha4 : U (Proc.devRef .tc main_arg4) = x4) :
    after opsC1 U (Proc.devRef .tc main_v53) = val_main_v53 (F := Ideal) x0 x1 x2 x3 x4 := by
  read_fold opsC1
  rw [hv50, ha4]
  simp only [val_main_v51, val_main_v52, val_main_v53] <;> rfl
theorem Cr_v54 (x0 : (⟨S100000x8, .f32⟩ : BufTy).Contents (Elt Ideal)) (x1 : (⟨S2x3200000, .i32⟩ : BufTy).Contents (Elt Ideal)) (x2 : (⟨S3200000, .f32⟩ : BufTy).Contents (Elt Ideal)) (x3 : (⟨S8x64, .f32⟩ : BufTy).Contents (Elt Ideal)) (x4 : (⟨S64, .f32⟩ : BufTy).Contents (Elt Ideal))
    (hv53 : U (Proc.devRef .tc main_v53) = val_main_v53 (F := Ideal) x0 x1 x2 x3 x4) :
    after opsCr U (Proc.devRef .tc main_v54) = val_main_v54 (F := Ideal) x0 x1 x2 x3 x4 := by
  read_fold opsCr
  simp only [ofBuf_toBuf]
  refine eq_of_heq ((cast_heq _ _).trans (heq_of_eq ?_))
  simp only [val_main_call0_cst, val_main_call0_v0, val_main_v54]
  exact congrArg₂ maximumf (eq_of_heq ((cast_heq _ _).trans (heq_of_eq hv53))) rfl
theorem C2_v69 (x0 : (⟨S100000x8, .f32⟩ : BufTy).Contents (Elt Ideal)) (x1 : (⟨S2x3200000, .i32⟩ : BufTy).Contents (Elt Ideal)) (x2 : (⟨S3200000, .f32⟩ : BufTy).Contents (Elt Ideal)) (x3 : (⟨S8x64, .f32⟩ : BufTy).Contents (Elt Ideal)) (x4 : (⟨S64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal))
    (hv54 : U (Proc.devRef .tc main_v54) = val_main_v54 (F := Ideal) x0 x1 x2 x3 x4) (ha7 : U (Proc.devRef .tc main_arg7) = x7) (ha8 : U (Proc.devRef .tc main_arg8) = x8) (ha9 : U (Proc.devRef .tc main_arg9) = x9) (ha10 : U (Proc.devRef .tc main_arg10) = x10) :
    after opsC2 U (Proc.devRef .tc main_v69) = val_main_v69 (F := Ideal) x0 x1 x2 x3 x4 x7 x8 x9 x10 := by
  read_fold opsC2
  rw [hv54, ha7, ha8, ha9, ha10]
  simp only [val_main_v55, val_main_v56, val_main_v57, val_main_cst_10, val_main_v58, val_main_v59, val_main_v60, val_main_v61, val_main_v62, val_main_v63, val_main_v64, val_main_v65, val_main_v66, val_main_v67, val_main_v68, val_main_v69] <;> rfl
theorem C2_v70 (x0 : (⟨S100000x8, .f32⟩ : BufTy).Contents (Elt Ideal)) (x1 : (⟨S2x3200000, .i32⟩ : BufTy).Contents (Elt Ideal)) (x2 : (⟨S3200000, .f32⟩ : BufTy).Contents (Elt Ideal)) (x3 : (⟨S8x64, .f32⟩ : BufTy).Contents (Elt Ideal)) (x4 : (⟨S64, .f32⟩ : BufTy).Contents (Elt Ideal)) (x5 : (⟨S64x64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal))
    (hv54 : U (Proc.devRef .tc main_v54) = val_main_v54 (F := Ideal) x0 x1 x2 x3 x4) (ha5 : U (Proc.devRef .tc main_arg5) = x5) (ha7 : U (Proc.devRef .tc main_arg7) = x7) (ha8 : U (Proc.devRef .tc main_arg8) = x8) (ha9 : U (Proc.devRef .tc main_arg9) = x9) (ha10 : U (Proc.devRef .tc main_arg10) = x10) :
    after opsC2 U (Proc.devRef .tc main_v70) = val_main_v70 (F := Ideal) x0 x1 x2 x3 x4 x5 x7 x8 x9 x10 := by
  read_fold opsC2
  rw [hv54, ha5, ha7, ha8, ha9, ha10]
  simp only [val_main_v55, val_main_v56, val_main_v57, val_main_cst_10, val_main_v58, val_main_v59, val_main_v60, val_main_v61, val_main_v62, val_main_v63, val_main_v64, val_main_v65, val_main_v66, val_main_v67, val_main_v68, val_main_v69, val_main_v70] <;> rfl

/-- Piece D: the degree and the normalisation once more. -/
theorem D_v80 (x1 : (⟨S2x3200000, .i32⟩ : BufTy).Contents (Elt Ideal)) (x2 : (⟨S3200000, .f32⟩ : BufTy).Contents (Elt Ideal))
    (hv3 : U (Proc.devRef .tc main_v3) = val_main_v3 (F := Ideal) x1) (ha2 : U (Proc.devRef .tc main_arg2) = x2) :
    after opsD U (Proc.devRef .tc main_v80) = val_main_v80 (F := Ideal) x1 x2 := by
  read_fold opsD
  rw [hv3, ha2]
  simp only [val_main_cst_11, val_main_v71, val_main_c_12, val_main_v72, val_main_v73, val_main_c_13, val_main_v74, val_main_v75, val_main_v76, val_main_v77, val_main_v78, val_main_cst_14, val_main_v79, val_main_v80] <;> rfl
theorem D_v97 (x1 : (⟨S2x3200000, .i32⟩ : BufTy).Contents (Elt Ideal)) (x2 : (⟨S3200000, .f32⟩ : BufTy).Contents (Elt Ideal))
    (hv1 : U (Proc.devRef .tc main_v1) = val_main_v1 (F := Ideal) x1) (hv3 : U (Proc.devRef .tc main_v3) = val_main_v3 (F := Ideal) x1) (ha2 : U (Proc.devRef .tc main_arg2) = x2) :
    after opsD U (Proc.devRef .tc main_v97) = val_main_v97 (F := Ideal) x1 x2 := by
  read_fold opsD
  rw [hv1, hv3, ha2]
  simp only [val_main_cst_11, val_main_v71, val_main_c_12, val_main_v72, val_main_v73, val_main_c_13, val_main_v74, val_main_v75, val_main_v76, val_main_v77, val_main_v78, val_main_cst_14, val_main_v79, val_main_v80, val_main_v81, val_main_c_15, val_main_v82, val_main_v83, val_main_c_16, val_main_v84, val_main_v85, val_main_v86, val_main_v87, val_main_v88, val_main_v89, val_main_c_17, val_main_v90, val_main_v91, val_main_c_18, val_main_v92, val_main_v93, val_main_v94, val_main_v95, val_main_v96, val_main_v97] <;> rfl

/-- Piece E: the second aggregation. -/
theorem E_v116 (x0 : (⟨S100000x8, .f32⟩ : BufTy).Contents (Elt Ideal)) (x1 : (⟨S2x3200000, .i32⟩ : BufTy).Contents (Elt Ideal)) (x2 : (⟨S3200000, .f32⟩ : BufTy).Contents (Elt Ideal)) (x3 : (⟨S8x64, .f32⟩ : BufTy).Contents (Elt Ideal)) (x4 : (⟨S64, .f32⟩ : BufTy).Contents (Elt Ideal)) (x5 : (⟨S64x64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal))
    (hv97 : U (Proc.devRef .tc main_v97) = val_main_v97 (F := Ideal) x1 x2) (hv70 : U (Proc.devRef .tc main_v70) = val_main_v70 (F := Ideal) x0 x1 x2 x3 x4 x5 x7 x8 x9 x10) (hv1 : U (Proc.devRef .tc main_v1) = val_main_v1 (F := Ideal) x1) (hv3 : U (Proc.devRef .tc main_v3) = val_main_v3 (F := Ideal) x1) (hv80 : U (Proc.devRef .tc main_v80) = val_main_v80 (F := Ideal) x1 x2) :
    after opsE U (Proc.devRef .tc main_v116) = val_main_v116 (F := Ideal) x0 x1 x2 x3 x4 x5 x7 x8 x9 x10 := by
  read_fold opsE
  rw [hv97, hv70, hv1, hv3, hv80]
  simp only [val_main_v98, val_main_c_19, val_main_v99, val_main_v100, val_main_c_20, val_main_v101, val_main_v102, val_main_v103, val_main_v104, val_main_v105, val_main_v106, val_main_v107, val_main_cst_21, val_main_v108, val_main_v109, val_main_v110, val_main_cst_22, val_main_v111, val_main_v112, val_main_v113, val_main_v114, val_main_v115, val_main_v116] <;> rfl

end Cert.RefRun

end
-- ==== Proof.RefRunFGHI.lean ====
/-
  The reference's line of operations read piece by piece (pieces F1 to I2: second activation, the two gate cells, the read-out).

  Each theorem reads one buffer after one piece from ARBITRARY contents `U`: given that the buffers the piece takes
  from earlier pieces hold the reference's stage functions (`val_main_vN`) of some arrays, and that the argument
  buffers it reads hold those arrays, the buffer it hands on holds the next stage function of the same arrays. A
  rectifier that the reference calls as a function is three operations on TYPED buffers, whose values are moved in and
  out of the buffers' own types; such a piece is read on its own, the moves removed as what they are — identities
  (`ofBuf_toBuf`, `cast_heq`).
-/
import proofs.«159935_j82514911690903_1_alg».proof.Proof.RunP
import proofs.«159935_j82514911690903_1_alg».proof.Proof.ReadP
import proofs.«159935_j82514911690903_1_alg».proof.Proof.RefRunKept

set_option maxRecDepth 16384
-- the declarations of this module are elaborated one after the other
set_option Elab.async false

noncomputable section

namespace Cert.RefRun

open Cert.ReferenceIdeal Cert.ReferenceIdeal.Gen Cert.ReferenceIdeal.Read Cert.ReferenceIdeal.Value
open Idealize.ShloMosaic Idealize.ShloMosaic.TcCoe Idealize.SL.Sem Idealize.ShloMosaic.StableHlo

variable (U : Valuation τ sig (Elt Ideal))

/-- Read one buffer after a piece: unfold the piece and compute the fold. -/
local macro "read_fold" ops:ident : tactic => `(tactic| (dsimp only [$ops:ident]; after_results_simp))

/-- Pieces F1, Fr, F2: bias; rectifier; normalisation. -/
theorem F1_v119 (x0 : (⟨S100000x8, .f32⟩ : BufTy).Contents (Elt Ideal)) (x1 : (⟨S2x3200000, .i32⟩ : BufTy).Contents (Elt Ideal)) (x2 : (⟨S3200000, .f32⟩ : BufTy).Contents (Elt Ideal)) (x3 : (⟨S8x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal))
    (hv116 : U (Proc.devRef .tc main_v116) = val_main_v116 (F := Ideal) x0 x1 x2 x3 x4 x5 x7 x8 x9 x10) (ha6 : U (Proc.devRef .tc main_arg6) = x6) :
    after opsF1 U (Proc.devRef .tc main_v119) = val_main_v119 (F := Ideal) x0 x1 x2 x3 x4 x5 x6 x7 x8 x9 x10 := by
  read_fold opsF1
  rw [hv116, ha6]
  simp only [val_main_v117, val_main_v118, val_main_v119] <;> rfl
theorem Fr_v120 (x0 : (⟨S100000x8, .f32⟩ : BufTy).Contents (Elt Ideal)) (x1 : (⟨S2x3200000, .i32⟩ : BufTy).Contents (Elt Ideal)) (x2 : (⟨S3200000, .f32⟩ : BufTy).Contents (Elt Ideal)) (x3 : (⟨S8x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal))
    (hv119 : U (Proc.devRef .tc main_v119) = val_main_v119 (F := Ideal) x0 x1 x2 x3 x4 x5 x6 x7 x8 x9 x10) :
    after opsFr U (Proc.devRef .tc main_v120) = val_main_v120 (F := Ideal) x0 x1 x2 x3 x4 x5 x6 x7 x8 x9 x10 := by
  read_fold opsFr
  simp only [ofBuf_toBuf]
  refine eq_of_heq ((cast_heq _ _).trans (heq_of_eq ?_))
  simp only [val_main_call1_cst, val_main_call1_v0, val_main_v120]
  exact congrArg₂ maximumf (eq_of_heq ((cast_heq _ _).trans (heq_of_eq hv119))) rfl
theorem F2_v135 (x0 : (⟨S100000x8, .f32⟩ : BufTy).Contents (Elt Ideal)) (x1 : (⟨S2x3200000, .i32⟩ : BufTy).Contents (Elt Ideal)) (x2 : (⟨S3200000, .f32⟩ : BufTy).Contents (Elt Ideal)) (x3 : (⟨S8x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal))
    (hv120 : U (Proc.devRef .tc main_v120) = val_main_v120 (F := Ideal) x0 x1 x2 x3 x4 x5 x6 x7 x8 x9 x10) (ha11 : U (Proc.devRef .tc main_arg11) = x11) (ha12 : U (Proc.devRef .tc main_arg12) = x12) (ha13 : U (Proc.devRef .tc main_arg13) = x13) (ha14 : U (Proc.devRef .tc main_arg14) = x14) :
    after opsF2 U (Proc.devRef .tc main_v135) = val_main_v135 (F := Ideal) x0 x1 x2 x3 x4 x5 x6 x7 x8 x9 x10 x11 x12 x13 x14 := by
  read_fold opsF2
  rw [hv120, ha11, ha12, ha13, ha14]
  simp only [val_main_v121, val_main_v122, val_main_v123, val_main_cst_23, val_main_v124, val_main_v125, val_main_v126, val_main_v127, val_main_v128, val_main_v129, val_main_v130, val_main_v131, val_main_v132, val_main_v133, val_main_v134, val_main_v135] <;> rfl

/-- Piece G: the first gate cell. -/
theorem G_v162 (x0 : (⟨S100000x8, .f32⟩ : BufTy).Contents (Elt Ideal)) (x1 : (⟨S2x3200000, .i32⟩ : BufTy).Contents (Elt Ideal)) (x2 : (⟨S3200000, .f32⟩ : BufTy).Contents (Elt Ideal)) (x3 : (⟨S8x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S256x128, .f32⟩ : BufTy).Contents (Elt Ideal)) (x16 : (⟨S256, .f32⟩ : BufTy).Contents (Elt Ideal)) (x17 : (⟨S256, .f32⟩ : BufTy).Contents (Elt Ideal))
    (hv69 : U (Proc.devRef .tc main_v69) = val_main_v69 (F := Ideal) x0 x1 x2 x3 x4 x7 x8 x9 x10) (hv135 : U (Proc.devRef .tc main_v135) = val_main_v135 (F := Ideal) x0 x1 x2 x3 x4 x5 x6 x7 x8 x9 x10 x11 x12 x13 x14) (ha15 : U (Proc.devRef .tc main_arg15) = x15) (ha16 : U (Proc.devRef .tc main_arg16) = x16) (ha17 : U (Proc.devRef .tc main_arg17) = x17) :
    after opsG U (Proc.devRef .tc main_v162) = val_main_v162 (F := Ideal) x0 x1 x2 x3 x4 x5 x6 x7 x8 x9 x10 x11 x12 x13 x14 x15 x16 x17 := by
  read_fold opsG
  rw [hv69, hv135, ha15, ha16, ha17]
  simp only [val_main_v136, val_main_v137, val_main_v138, val_main_v139, val_main_v140, val_main_v141, val_main_v142, val_main_v143, val_main_v144, val_main_v145, val_main_v146, val_main_v147, val_main_v148, val_main_cst_24, val_main_v149, val_main_v150, val_main_cst_25, val_main_v151, val_main_v152, val_main_v153, val_main_v154, val_main_v155, val_main_v156, val_main_cst_26, val_main_v157, val_main_v158, val_main_cst_27, val_main_v159, val_main_v160, val_main_v161, val_main_v162] <;> rfl

/-- Piece H: the second gate cell. -/
theorem H_v188 (x0 : (⟨S100000x8, .f32⟩ : BufTy).Contents (Elt Ideal)) (x1 : (⟨S2x3200000, .i32⟩ : BufTy).Contents (Elt Ideal)) (x2 : (⟨S3200000, .f32⟩ : BufTy).Contents (Elt Ideal)) (x3 : (⟨S8x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S256x128, .f32⟩ : BufTy).Contents (Elt Ideal)) (x16 : (⟨S256, .f32⟩ : BufTy).Contents (Elt Ideal)) (x17 : (⟨S256, .f32⟩ : BufTy).Contents (Elt Ideal)) (x18 : (⟨S256x64, .f32⟩ : BufTy).Contents (Elt Ideal)) (x19 : (⟨S256, .f32⟩ : BufTy).Contents (Elt Ideal)) (x20 : (⟨S256, .f32⟩ : BufTy).Contents (Elt Ideal))
    (hv162 : U (Proc.devRef .tc main_v162) = val_main_v162 (F := Ideal) x0 x1 x2 x3 x4 x5 x6 x7 x8 x9 x10 x11 x12 x13 x14 x15 x16 x17) (ha18 : U (Proc.devRef .tc main_arg18) = x18) (ha19 : U (Proc.devRef .tc main_arg19) = x19) (ha20 : U (Proc.devRef .tc main_arg20) = x20) :
    after opsH U (Proc.devRef .tc main_v188) = val_main_v188 (F := Ideal) x0 x1 x2 x3 x4 x5 x6 x7 x8 x9 x10 x11 x12 x13 x14 x15 x16 x17 x18 x19 x20 := by
  read_fold opsH
  rw [hv162, ha18, ha19, ha20]
  simp only [val_main_v163, val_main_v164, val_main_v165, val_main_v166, val_main_v167, val_main_v168, val_main_v169, val_main_v170, val_main_v171, val_main_v172, val_main_v173, val_main_v174, val_main_cst_28, val_main_v175, val_main_v176, val_main_cst_29, val_main_v177, val_main_v178, val_main_v179, val_main_v180, val_main_v181, val_main_v182, val_main_cst_30, val_main_v183, val_main_v184, val_main_cst_31, val_main_v185, val_main_v186, val_main_v187, val_main_v188] <;> rfl

/-- Pieces I1, Ir, I2: the read-out's input; its rectifier; the product with the read-out matrix and the bias. -/
theorem I1_v189 (x0 : (⟨S100000x8, .f32⟩ : BufTy).Contents (Elt Ideal)) (x1 : (⟨S2x3200000, .i32⟩ : BufTy).Contents (Elt Ideal)) (x2 : (⟨S3200000, .f32⟩ : BufTy).Contents (Elt Ideal)) (x3 : (⟨S8x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S256x128, .f32⟩ : BufTy).Contents (Elt Ideal)) (x16 : (⟨S256, .f32⟩ : BufTy).Contents (Elt Ideal)) (x17 : (⟨S256, .f32⟩ : BufTy).Contents (Elt Ideal)) (x18 : (⟨S256x64, .f32⟩ : BufTy).Contents (Elt Ideal)) (x19 : (⟨S256, .f32⟩ : BufTy).Contents (Elt Ideal)) (x20 : (⟨S256, .f32⟩ : BufTy).Contents (Elt Ideal))
    (hv162 : U (Proc.devRef .tc main_v162) = val_main_v162 (F := Ideal) x0 x1 x2 x3 x4 x5 x6 x7 x8 x9 x10 x11 x12 x13 x14 x15 x16 x17) (hv188 : U (Proc.devRef .tc main_v188) = val_main_v188 (F := Ideal) x0 x1 x2 x3 x4 x5 x6 x7 x8 x9 x10 x11 x12 x13 x14 x15 x16 x17 x18 x19 x20) (ha0 : U (Proc.devRef .tc main_arg0) = x0) :
    after opsI1 U (Proc.devRef .tc main_v189) = val_main_v189 (F := Ideal) x0 x1 x2 x3 x4 x5 x6 x7 x8 x9 x10 x11 x12 x13 x14 x15 x16 x17 x18 x19 x20 := by
  read_fold opsI1
  show concatenate S100000x136 1 [⟨S100000x64, U (Proc.devRef .tc main_v162)⟩, ⟨S100000x64, U (Proc.devRef .tc main_v188)⟩,
    ⟨S100000x8, U (Proc.devRef .tc main_arg0)⟩] concatenates_S100000x64_S100000x64_S100000x8_S100000x136_d1 = _
  rw [hv162, hv188, ha0]
  simp only [val_main_v189] <;> rfl
theorem Ir_v190 (x0 : (⟨S100000x8, .f32⟩ : BufTy).Contents (Elt Ideal)) (x1 : (⟨S2x3200000, .i32⟩ : BufTy).Contents (Elt Ideal)) (x2 : (⟨S3200000, .f32⟩ : BufTy).Contents (Elt Ideal)) (x3 : (⟨S8x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S256x128, .f32⟩ : BufTy).Contents (Elt Ideal)) (x16 : (⟨S256, .f32⟩ : BufTy).Contents (Elt Ideal)) (x17 : (⟨S256, .f32⟩ : BufTy).Contents (Elt Ideal)) (x18 : (⟨S256x64, .f32⟩ : BufTy).Contents (Elt Ideal)) (x19 : (⟨S256, .f32⟩ : BufTy).Contents (Elt Ideal)) (x20 : (⟨S256, .f32⟩ : BufTy).Contents (Elt Ideal))
    (hv189 : U (Proc.devRef .tc main_v189) = val_main_v189 (F := Ideal) x0 x1 x2 x3 x4 x5 x6 x7 x8 x9 x10 x11 x12 x13 x14 x15 x16 x17 x18 x19 x20) :
    after opsIr U (Proc.devRef .tc main_v190) = val_main_v190 (F := Ideal) x0 x1 x2 x3 x4 x5 x6 x7 x8 x9 x10 x11 x12 x13 x14 x15 x16 x17 x18 x19 x20 := by
  read_fold opsIr
  simp only [ofBuf_toBuf]
  refine eq_of_heq ((cast_heq _ _).trans (heq_of_eq ?_))
  simp only [val_main_call2_cst, val_main_call2_v0, val_main_v190]
  exact congrArg₂ maximumf (eq_of_heq ((cast_heq _ _).trans (heq_of_eq hv189))) rfl
theorem I2_v194 (x0 : (⟨S100000x8, .f32⟩ : BufTy).Contents (Elt Ideal)) (x1 : (⟨S2x3200000, .i32⟩ : BufTy).Contents (Elt Ideal)) (x2 : (⟨S3200000, .f32⟩ : BufTy).Contents (Elt Ideal)) (x3 : (⟨S8x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (x10 : (⟨S64, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S256x128, .f32⟩ : BufTy).Contents (Elt Ideal)) (x16 : (⟨S256, .f32⟩ : BufTy).Contents (Elt Ideal)) (x17 : (⟨S256, .f32⟩ : BufTy).Contents (Elt Ideal)) (x18 : (⟨S256x64, .f32⟩ : BufTy).Contents (Elt Ideal)) (x19 : (⟨S256, .f32⟩ : BufTy).Contents (Elt Ideal)) (x20 : (⟨S256, .f32⟩ : BufTy).Contents (Elt Ideal)) (x21 : (⟨S136x1, .f32⟩ : BufTy).Contents (Elt Ideal)) (x22 : (⟨S1, .f32⟩ : BufTy).Contents (Elt Ideal))
    (hv190 : U (Proc.devRef .tc main_v190) = val_main_v190 (F := Ideal) x0 x1 x2 x3 x4 x5 x6 x7 x8 x9 x10 x11 x12 x13 x14 x15 x16 x17 x18 x19 x20) (ha21 : U (Proc.devRef .tc main_arg21) = x21) (ha22 : U (Proc.devRef .tc main_arg22) = x22) :
    after opsI2 U (Proc.devRef .tc main_v194) = val_main_v194 (F := Ideal) x0 x1 x2 x3 x4 x5 x6 x7 x8 x9 x10 x11 x12 x13 x14 x15 x16 x17 x18 x19 x20 x21 x22 := by
  read_fold opsI2
  rw [hv190, ha21, ha22]
  simp only [val_main_v191, val_main_v192, val_main_v193, val_main_v194] <;> rfl

end Cert.RefRun

end
-- ==== Proof.RefRun.lean ====
/-
  The reference's run.

  The reference is one straight line of 235 array operations. After the line each buffer holds the fold of the
  operations over the launch contents (`StableHlo.run_seq`). Reading the result through the whole fold at once expands
  every shared intermediate wherever it is used; instead the line is cut into fifteen consecutive pieces (after the
  first aggregation, around each rectifier, after each activation and projection, after each gate cell), each read on
  its own (`A_v1` … `I2_v194`) and chained here: the result buffer ends at the last stage function of the argument
  buffers, every argument buffer as it was.
-/
import proofs.«159935_j82514911690903_1_alg».proof.Proof.RefRunKept
import proofs.«159935_j82514911690903_1_alg».proof.Proof.RefRunAB
import proofs.«159935_j82514911690903_1_alg».proof.Proof.RefRunCDE
import proofs.«159935_j82514911690903_1_alg».proof.Proof.RefRunFGHI

set_option maxRecDepth 16384
-- the declarations of this module are elaborated one after the other
set_option Elab.async false

noncomputable section

namespace Cert.RefRun

open Cert.ReferenceIdeal Cert.ReferenceIdeal.Gen Cert.ReferenceIdeal.Read Cert.ReferenceIdeal.Value
open Idealize.ShloMosaic Idealize.ShloMosaic.TcCoe Idealize.SL.Sem Idealize.ShloMosaic.StableHlo

variable (U : Valuation τ sig (Elt Ideal))

/-- Read one buffer after a piece: unfold the piece and compute the fold. -/
local macro "read_fold" ops:ident : tactic => `(tactic| (dsimp only [$ops:ident]; after_results_simp))

/-! ## The fifteen pieces in a row -/

/-- The contents after pieces A, A–B, …, A–I2, from contents `U`. -/
abbrev UA : Valuation τ sig (Elt Ideal) := after opsA U
abbrev UB : Valuation τ sig (Elt Ideal) := after opsB (UA U)
abbrev UC1 : Valuation τ sig (Elt Ideal) := after opsC1 (UB U)
abbrev UCr : Valuation τ sig (Elt Ideal) := after opsCr (UC1 U)
abbrev UC2 : Valuation τ sig (Elt Ideal) := after opsC2 (UCr U)
abbrev UD : Valuation τ sig (Elt Ideal) := after opsD (UC2 U)
abbrev UE : Valuation τ sig (Elt Ideal) := after opsE (UD U)
abbrev UF1 : Valuation τ sig (Elt Ideal) := after opsF1 (UE U)
abbrev UFr : Valuation τ sig (Elt Ideal) := after opsFr (UF1 U)
abbrev UF2 : Valuation τ sig (Elt Ideal) := after opsF2 (UFr U)
abbrev UG : Valuation τ sig (Elt Ideal) := after opsG (UF2 U)
abbrev UH : Valuation τ sig (Elt Ideal) := after opsH (UG U)
abbrev UI1 : Valuation τ sig (Elt Ideal) := after opsI1 (UH U)
abbrev UIr : Valuation τ sig (Elt Ideal) := after opsIr (UI1 U)
abbrev UI2 : Valuation τ sig (Elt Ideal) := after opsI2 (UIr U)

/-- The whole line's fold is the fifteen pieces' folds in a row. -/
theorem fold_eq : after ops U = UI2 U := by
  rw [ops_split]
  simp only [after_append]

/-- A buffer no piece writes (every argument buffer is one). -/
abbrev Untouched (r : Ref sig .tc) : Prop := r ∉ writtenA ∧ r ∉ writtenB ∧ r ∉ writtenC1 ∧ r ∉ writtenCr ∧ r ∉ writtenC2 ∧ r ∉ writtenD ∧ r ∉ writtenE ∧ r ∉ writtenF1 ∧ r ∉ writtenFr ∧ r ∉ writtenF2 ∧ r ∉ writtenG ∧ r ∉ writtenH ∧ r ∉ writtenI1 ∧ r ∉ writtenIr ∧ r ∉ writtenI2

theorem keptUA (r : Ref sig .tc) (h : Untouched r) : UA U (Proc.devRef .tc r) = U (Proc.devRef .tc r) :=
  (keptA U r (h.1))
theorem keptUB (r : Ref sig .tc) (h : Untouched r) : UB U (Proc.devRef .tc r) = U (Proc.devRef .tc r) :=
  ((keptB (UA U) r (h.2.1)).trans (keptA U r (h.1)))
theorem keptUC1 (r : Ref sig .tc) (h : Untouched r) : UC1 U (Proc.devRef .tc r) = U (Proc.devRef .tc r) :=
  (((keptC1 (UB U) r (h.2.2.1)).trans (keptB (UA U) r (h.2.1))).trans (keptA U r (h.1)))
theorem keptUCr (r : Ref sig .tc) (h : Untouched r) : UCr U (Proc.devRef .tc r) = U (Proc.devRef .tc r) :=
  ((((keptCr (UC1 U) r (h.2.2.2.1)).trans (keptC1 (UB U) r (h.2.2.1))).trans (keptB (UA U) r (h.2.1))).trans (keptA U r (h.1)))
theorem keptUC2 (r : Ref sig .tc) (h : Untouched r) : UC2 U (Proc.devRef .tc r) = U (Proc.devRef .tc r) :=
  (((((keptC2 (UCr U) r (h.2.2.2.2.1)).trans (keptCr (UC1 U) r (h.2.2.2.1))).trans (keptC1 (UB U) r (h.2.2.1))).trans (keptB (UA U) r (h.2.1))).trans (keptA U r (h.1)))
theorem keptUD (r : Ref sig .tc) (h : Untouched r) : UD U (Proc.devRef .tc r) = U (Proc.devRef .tc r) :=
  ((((((keptD (UC2 U) r (h.2.2.2.2.2.1)).trans (keptC2 (UCr U) r (h.2.2.2.2.1))).trans (keptCr (UC1 U) r (h.2.2.2.1))).trans (keptC1 (UB U) r (h.2.2.1))).trans (keptB (UA U) r (h.2.1))).trans (keptA U r (h.1)))
theorem keptUE (r : Ref sig .tc) (h : Untouched r) : UE U (Proc.devRef .tc r) = U (Proc.devRef .tc r) :=
  (((((((keptE (UD U) r (h.2.2.2.2.2.2.1)).trans (keptD (UC2 U) r (h.2.2.2.2.2.1))).trans (keptC2 (UCr U) r (h.2.2.2.2.1))).trans (keptCr (UC1 U) r (h.2.2.2.1))).trans (keptC1 (UB U) r (h.2.2.1))).trans (keptB (UA U) r (h.2.1))).trans (keptA U r (h.1)))
theorem keptUF1 (r : Ref sig .tc) (h : Untouched r) : UF1 U (Proc.devRef .tc r) = U (Proc.devRef .tc r) :=
  ((((((((keptF1 (UE U) r (h.2.2.2.2.2.2.2.1)).trans (keptE (UD U) r (h.2.2.2.2.2.2.1))).trans (keptD (UC2 U) r (h.2.2.2.2.2.1))).trans (keptC2 (UCr U) r (h.2.2.2.2.1))).trans (keptCr (UC1 U) r (h.2.2.2.1))).trans (keptC1 (UB U) r (h.2.2.1))).trans (keptB (UA U) r (h.2.1))).trans (keptA U r (h.1)))
theorem keptUFr (r : Ref sig .tc) (h : Untouched r) : UFr U (Proc.devRef .tc r) = U (Proc.devRef .tc r) :=
  (((((((((keptFr (UF1 U) r (h.2.2.2.2.2.2.2.2.1)).trans (keptF1 (UE U) r (h.2.2.2.2.2.2.2.1))).trans (keptE (UD U) r (h.2.2.2.2.2.2.1))).trans (keptD (UC2 U) r (h.2.2.2.2.2.1))).trans (keptC2 (UCr U) r (h.2.2.2.2.1))).trans (keptCr (UC1 U) r (h.2.2.2.1))).trans (keptC1 (UB U) r (h.2.2.1))).trans (keptB (UA U) r (h.2.1))).trans (keptA U r (h.1)))
theorem keptUF2 (r : Ref sig .tc) (h : Untouched r) : UF2 U (Proc.devRef .tc r) = U (Proc.devRef .tc r) :=
  ((((((((((keptF2 (UFr U) r (h.2.2.2.2.2.2.2.2.2.1)).trans (keptFr (UF1 U) r (h.2.2.2.2.2.2.2.2.1))).trans (keptF1 (UE U) r (h.2.2.2.2.2.2.2.1))).trans (keptE (UD U) r (h.2.2.2.2.2.2.1))).trans (keptD (UC2 U) r (h.2.2.2.2.2.1))).trans (keptC2 (UCr U) r (h.2.2.2.2.1))).trans (keptCr (UC1 U) r (h.2.2.2.1))).trans (keptC1 (UB U) r (h.2.2.1))).trans (keptB (UA U) r (h.2.1))).trans (keptA U r (h.1)))
theorem keptUG (r : Ref sig .tc) (h : Untouched r) : UG U (Proc.devRef .tc r) = U (Proc.devRef .tc r) :=
  (((((((((((keptG (UF2 U) r (h.2.2.2.2.2.2.2.2.2.2.1)).trans (keptF2 (UFr U) r (h.2.2.2.2.2.2.2.2.2.1))).trans (keptFr (UF1 U) r (h.2.2.2.2.2.2.2.2.1))).trans (keptF1 (UE U) r (h.2.2.2.2.2.2.2.1))).trans (keptE (UD U) r (h.2.2.2.2.2.2.1))).trans (keptD (UC2 U) r (h.2.2.2.2.2.1))).trans (keptC2 (UCr U) r (h.2.2.2.2.1))).trans (keptCr (UC1 U) r (h.2.2.2.1))).trans (keptC1 (UB U) r (h.2.2.1))).trans (keptB (UA U) r (h.2.1))).trans (keptA U r (h.1)))
theorem keptUH (r : Ref sig .tc) (h : Untouched r) : UH U (Proc.devRef .tc r) = U (Proc.devRef .tc r) :=
  ((((((((((((keptH (UG U) r (h.2.2.2.2.2.2.2.2.2.2.2.1)).trans (keptG (UF2 U) r (h.2.2.2.2.2.2.2.2.2.2.1))).trans (keptF2 (UFr U) r (h.2.2.2.2.2.2.2.2.2.1))).trans (keptFr (UF1 U) r (h.2.2.2.2.2.2.2.2.1))).trans (keptF1 (UE U) r (h.2.2.2.2.2.2.2.1))).trans (keptE (UD U) r (h.2.2.2.2.2.2.1))).trans (keptD (UC2 U) r (h.2.2.2.2.2.1))).trans (keptC2 (UCr U) r (h.2.2.2.2.1))).trans (keptCr (UC1 U) r (h.2.2.2.1))).trans (keptC1 (UB U) r (h.2.2.1))).trans (keptB (UA U) r (h.2.1))).trans (keptA U r (h.1)))
theorem keptUI1 (r : Ref sig .tc) (h : Untouched r) : UI1 U (Proc.devRef .tc r) = U (Proc.devRef .tc r) :=
  (((((((((((((keptI1 (UH U) r (h.2.2.2.2.2.2.2.2.2.2.2.2.1)).trans (keptH (UG U) r (h.2.2.2.2.2.2.2.2.2.2.2.1))).trans (keptG (UF2 U) r (h.2.2.2.2.2.2.2.2.2.2.1))).trans (keptF2 (UFr U) r (h.2.2.2.2.2.2.2.2.2.1))).trans (keptFr (UF1 U) r (h.2.2.2.2.2.2.2.2.1))).trans (keptF1 (UE U) r (h.2.2.2.2.2.2.2.1))).trans (keptE (UD U) r (h.2.2.2.2.2.2.1))).trans (keptD (UC2 U) r (h.2.2.2.2.2.1))).trans (keptC2 (UCr U) r (h.2.2.2.2.1))).trans (keptCr (UC1 U) r (h.2.2.2.1))).trans (keptC1 (UB U) r (h.2.2.1))).trans (keptB (UA U) r (h.2.1))).trans (keptA U r (h.1)))
theorem keptUIr (r : Ref sig .tc) (h : Untouched r) : UIr U (Proc.devRef .tc r) = U (Proc.devRef .tc r) :=
  ((((((((((((((keptIr (UI1 U) r (h.2.2.2.2.2.2.2.2.2.2.2.2.2.1)).trans (keptI1 (UH U) r (h.2.2.2.2.2.2.2.2.2.2.2.2.1))).trans (keptH (UG U) r (h.2.2.2.2.2.2.2.2.2.2.2.1))).trans (keptG (UF2 U) r (h.2.2.2.2.2.2.2.2.2.2.1))).trans (keptF2 (UFr U) r (h.2.2.2.2.2.2.2.2.2.1))).trans (keptFr (UF1 U) r (h.2.2.2.2.2.2.2.2.1))).trans (keptF1 (UE U) r (h.2.2.2.2.2.2.2.1))).trans (keptE (UD U) r (h.2.2.2.2.2.2.1))).trans (keptD (UC2 U) r (h.2.2.2.2.2.1))).trans (keptC2 (UCr U) r (h.2.2.2.2.1))).trans (keptCr (UC1 U) r (h.2.2.2.1))).trans (keptC1 (UB U) r (h.2.2.1))).trans (keptB (UA U) r (h.2.1))).trans (keptA U r (h.1)))
theorem keptUI2 (r : Ref sig .tc) (h : Untouched r) : UI2 U (Proc.devRef .tc r) = U (Proc.devRef .tc r) :=
  (((((((((((((((keptI2 (UIr U) r (h.2.2.2.2.2.2.2.2.2.2.2.2.2.2)).trans (keptIr (UI1 U) r (h.2.2.2.2.2.2.2.2.2.2.2.2.2.1))).trans (keptI1 (UH U) r (h.2.2.2.2.2.2.2.2.2.2.2.2.1))).trans (keptH (UG U) r (h.2.2.2.2.2.2.2.2.2.2.2.1))).trans (keptG (UF2 U) r (h.2.2.2.2.2.2.2.2.2.2.1))).trans (keptF2 (UFr U) r (h.2.2.2.2.2.2.2.2.2.1))).trans (keptFr (UF1 U) r (h.2.2.2.2.2.2.2.2.1))).trans (keptF1 (UE U) r (h.2.2.2.2.2.2.2.1))).trans (keptE (UD U) r (h.2.2.2.2.2.2.1))).trans (keptD (UC2 U) r (h.2.2.2.2.2.1))).trans (keptC2 (UCr U) r (h.2.2.2.2.1))).trans (keptCr (UC1 U) r (h.2.2.2.1))).trans (keptC1 (UB U) r (h.2.2.1))).trans (keptB (UA U) r (h.2.1))).trans (keptA U r (h.1)))

/-! ### The stages, piece after piece (the arrays are the argument buffers of `U`) -/

theorem sA1 : UA U (Proc.devRef .tc main_v1) = val_main_v1 (F := Ideal) (U (Proc.devRef .tc main_arg1)) :=
  A_v1 U _ rfl
theorem sA3 : UA U (Proc.devRef .tc main_v3) = val_main_v3 (F := Ideal) (U (Proc.devRef .tc main_arg1)) :=
  A_v3 U _ rfl
theorem sA4 : UA U (Proc.devRef .tc main_v4) = val_main_v4 (F := Ideal) (U (Proc.devRef .tc main_arg0)) (U (Proc.devRef .tc main_arg3)) :=
  A_v4 U _ _ rfl rfl
theorem sA14 : UA U (Proc.devRef .tc main_v14) = val_main_v14 (F := Ideal) (U (Proc.devRef .tc main_arg1)) (U (Proc.devRef .tc main_arg2)) :=
  A_v14 U _ _ rfl rfl
theorem sA31 : UA U (Proc.devRef .tc main_v31) = val_main_v31 (F := Ideal) (U (Proc.devRef .tc main_arg1)) (U (Proc.devRef .tc main_arg2)) :=
  A_v31 U _ _ rfl rfl
theorem sB50 : UB U (Proc.devRef .tc main_v50) = val_main_v50 (F := Ideal) (U (Proc.devRef .tc main_arg0)) (U (Proc.devRef .tc main_arg1)) (U (Proc.devRef .tc main_arg2)) (U (Proc.devRef .tc main_arg3)) :=
  B_v50 (UA U) _ _ _ _ (sA31 U) (sA4 U) (sA1 U) (sA3 U) (sA14 U)
theorem sC53 : UC1 U (Proc.devRef .tc main_v53) = val_main_v53 (F := Ideal) (U (Proc.devRef .tc main_arg0)) (U (Proc.devRef .tc main_arg1)) (U (Proc.devRef .tc main_arg2)) (U (Proc.devRef .tc main_arg3)) (U (Proc.devRef .tc main_arg4)) :=
  C1_v53 (UB U) _ _ _ _ _ (sB50 U) (keptUB U main_arg4 (by decide))
theorem sC54 : UCr U (Proc.devRef .tc main_v54) = val_main_v54 (F := Ideal) (U (Proc.devRef .tc main_arg0)) (U (Proc.devRef .tc main_arg1)) (U (Proc.devRef .tc main_arg2)) (U (Proc.devRef .tc main_arg3)) (U (Proc.devRef .tc main_arg4)) :=
  Cr_v54 (UC1 U) _ _ _ _ _ (sC53 U)
theorem sC69 : UC2 U (Proc.devRef .tc main_v69) = val_main_v69 (F := Ideal) (U (Proc.devRef .tc main_arg0)) (U (Proc.devRef .tc main_arg1)) (U (Proc.devRef .tc main_arg2)) (U (Proc.devRef .tc main_arg3)) (U (Proc.devRef .tc main_arg4)) (U (Proc.devRef .tc main_arg7)) (U (Proc.devRef .tc main_arg8)) (U (Proc.devRef .tc main_arg9)) (U (Proc.devRef .tc main_arg10)) :=
  C2_v69 (UCr U) _ _ _ _ _ _ _ _ _ (sC54 U) (keptUCr U main_arg7 (by decide)) (keptUCr U main_arg8 (by decide)) (keptUCr U main_arg9 (by decide)) (keptUCr U main_arg10 (by decide))
theorem sC70 : UC2 U (Proc.devRef .tc main_v70) = val_main_v70 (F := Ideal) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg7)) (U (Proc.devRef .tc main_arg8)) (U (Proc.devRef .tc main_arg9)) (U (Proc.devRef .tc main_arg10)) :=
  C2_v70 (UCr U) _ _ _ _ _ _ _ _ _ _ (sC54 U) (keptUCr U main_arg5 (by decide)) (keptUCr U main_arg7 (by decide)) (keptUCr U main_arg8 (by decide)) (keptUCr U main_arg9 (by decide)) (keptUCr U main_arg10 (by decide))
/-- The edge list's rows are still there after the pieces in between. -/
theorem sC1 : UC2 U (Proc.devRef .tc main_v1) = val_main_v1 (F := Ideal) (U (Proc.devRef .tc main_arg1)) :=
  ((keptC2 (UCr U) main_v1 (by decide)).trans ((keptCr (UC1 U) main_v1 (by decide)).trans ((keptC1 (UB U) main_v1 (by decide)).trans ((keptB (UA U) main_v1 (by decide)).trans (sA1 U)))))
theorem sC3 : UC2 U (Proc.devRef .tc main_v3) = val_main_v3 (F := Ideal) (U (Proc.devRef .tc main_arg1)) :=
  ((keptC2 (UCr U) main_v3 (by decide)).trans ((keptCr (UC1 U) main_v3 (by decide)).trans ((keptC1 (UB U) main_v3 (by decide)).trans ((keptB (UA U) main_v3 (by decide)).trans (sA3 U)))))
theorem sD80 : UD U (Proc.devRef .tc main_v80) = val_main_v80 (F := Ideal) (U (Proc.devRef .tc main_arg1)) (U (Proc.devRef .tc main_arg2)) :=
  D_v80 (UC2 U) _ _ (sC3 U) (keptUC2 U main_arg2 (by decide))
theorem sD97 : UD U (Proc.devRef .tc main_v97) = val_main_v97 (F := Ideal) (U (Proc.devRef .tc main_arg1)) (U (Proc.devRef .tc main_arg2)) :=
  D_v97 (UC2 U) _ _ (sC1 U) (sC3 U) (keptUC2 U main_arg2 (by decide))
theorem sE116 : UE U (Proc.devRef .tc main_v116) = val_main_v116 (F := Ideal) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg7)) (U (Proc.devRef .tc main_arg8)) (U (Proc.devRef .tc main_arg9)) (U (Proc.devRef .tc main_arg10)) :=
  E_v116 (UD U) _ _ _ _ _ _ _ _ _ _ (sD97 U) ((keptD (UC2 U) main_v70 (by decide)).trans (sC70 U))
    ((keptD (UC2 U) main_v1 (by decide)).trans (sC1 U)) ((keptD (UC2 U) main_v3 (by decide)).trans (sC3 U)) (sD80 U)
theorem sF119 : UF1 U (Proc.devRef .tc main_v119) = val_main_v119 (F := Ideal) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) :=
  F1_v119 (UE U) _ _ _ _ _ _ _ _ _ _ _ (sE116 U) (keptUE U main_arg6 (by decide))
theorem sF120 : UFr U (Proc.devRef .tc main_v120) = val_main_v120 (F := Ideal) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) :=
  Fr_v120 (UF1 U) _ _ _ _ _ _ _ _ _ _ _ (sF119 U)
theorem sF135 : UF2 U (Proc.devRef .tc main_v135) = val_main_v135 (F := Ideal) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) :=
  F2_v135 (UFr U) _ _ _ _ _ _ _ _ _ _ _ _ _ _ _ (sF120 U) (keptUFr U main_arg11 (by decide)) (keptUFr U main_arg12 (by decide)) (keptUFr U main_arg13 (by decide)) (keptUFr U main_arg14 (by decide))
theorem sG162 : UG U (Proc.devRef .tc main_v162) = val_main_v162 (F := Ideal) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) :=
  G_v162 (UF2 U) _ _ _ _ _ _ _ _ _ _ _ _ _ _ _ _ _ _
    ((keptF2 (UFr U) main_v69 (by decide)).trans ((keptFr (UF1 U) main_v69 (by decide)).trans ((keptF1 (UE U) main_v69 (by decide)).trans ((keptE (UD U) main_v69 (by decide)).trans ((keptD (UC2 U) main_v69 (by decide)).trans (sC69 U))))))
    (sF135 U) (keptUF2 U main_arg15 (by decide)) (keptUF2 U main_arg16 (by decide)) (keptUF2 U main_arg17 (by decide))
theorem sH188 : UH U (Proc.devRef .tc main_v188) = val_main_v188 (F := Ideal) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) (U (Proc.devRef .tc main_arg18)) (U (Proc.devRef .tc main_arg19)) (U (Proc.devRef .tc main_arg20)) :=
  H_v188 (UG U) _ _ _ _ _ _ _ _ _ _ _ _ _ _ _ _ _ _ _ _ _ (sG162 U) (keptUG U main_arg18 (by decide)) (keptUG U main_arg19 (by decide)) (keptUG U main_arg20 (by decide))
theorem sI189 : UI1 U (Proc.devRef .tc main_v189) = val_main_v189 (F := Ideal) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) (U (Proc.devRef .tc main_arg18)) (U (Proc.devRef .tc main_arg19)) (U (Proc.devRef .tc main_arg20)) :=
  I1_v189 (UH U) _ _ _ _ _ _ _ _ _ _ _ _ _ _ _ _ _ _ _ _ _ ((keptH (UG U) main_v162 (by decide)).trans (sG162 U)) (sH188 U) (keptUH U main_arg0 (by decide))
theorem sI190 : UIr U (Proc.devRef .tc main_v190) = val_main_v190 (F := Ideal) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) (U (Proc.devRef .tc main_arg18)) (U (Proc.devRef .tc main_arg19)) (U (Proc.devRef .tc main_arg20)) :=
  Ir_v190 (UI1 U) _ _ _ _ _ _ _ _ _ _ _ _ _ _ _ _ _ _ _ _ _ (sI189 U)
theorem sI194 : UI2 U (Proc.devRef .tc main_v194) = val_main_v194 (F := Ideal) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) (U (Proc.devRef .tc main_arg18)) (U (Proc.devRef .tc main_arg19)) (U (Proc.devRef .tc main_arg20)) (U (Proc.devRef .tc main_arg21)) (U (Proc.devRef .tc main_arg22)) :=
  I2_v194 (UIr U) _ _ _ _ _ _ _ _ _ _ _ _ _ _ _ _ _ _ _ _ _ _ _ (sI190 U) (keptUIr U main_arg21 (by decide)) (keptUIr U main_arg22 (by decide))

/-- THE RESULT BUFFER after the whole line is the last stage function of the argument buffers. -/
theorem result_eq : after ops U (Proc.devRef .tc main_v194) = val_main_v194 (F := Ideal) (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) (U (Proc.devRef .tc main_arg7)) (U (Proc.devRef .tc main_arg8)) (U (Proc.devRef .tc main_arg9)) (U (Proc.devRef .tc main_arg10)) (U (Proc.devRef .tc main_arg11)) (U (Proc.devRef .tc main_arg12)) (U (Proc.devRef .tc main_arg13)) (U (Proc.devRef .tc main_arg14)) (U (Proc.devRef .tc main_arg15)) (U (Proc.devRef .tc main_arg16)) (U (Proc.devRef .tc main_arg17)) (U (Proc.devRef .tc main_arg18)) (U (Proc.devRef .tc main_arg19)) (U (Proc.devRef .tc main_arg20)) (U (Proc.devRef .tc main_arg21)) (U (Proc.devRef .tc main_arg22)) := by
  rw [fold_eq]; exact sI194 U

/-- An argument buffer after the whole line is as it was. -/
theorem arg_kept (r : Ref sig .tc) (h : Untouched r) : after ops U (Proc.devRef .tc r) = U (Proc.devRef .tc r) := by
  rw [fold_eq]; exact keptUI2 U r h

/-! ## The run -/

/-- From any memory with zero counters every weakly fair execution of the reference terminates; the result buffer then
    holds the last stage function of the launch memory's arguments, and the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v194) = val_main_v194 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v194).trans (result_eq (launchContents m c)),
      (h c main_arg0).trans (arg_kept (launchContents m c) main_arg0 (by decide)),
      (h c main_arg1).trans (arg_kept (launchContents m c) main_arg1 (by decide)),
      (h c main_arg2).trans (arg_kept (launchContents m c) main_arg2 (by decide)),
      (h c main_arg3).trans (arg_kept (launchContents m c) main_arg3 (by decide)),
      (h c main_arg4).trans (arg_kept (launchContents m c) main_arg4 (by decide)),
      (h c main_arg5).trans (arg_kept (launchContents m c) main_arg5 (by decide)),
      (h c main_arg6).trans (arg_kept (launchContents m c) main_arg6 (by decide)),
      (h c main_arg7).trans (arg_kept (launchContents m c) main_arg7 (by decide)),
      (h c main_arg8).trans (arg_kept (launchContents m c) main_arg8 (by decide)),
      (h c main_arg9).trans (arg_kept (launchContents m c) main_arg9 (by decide)),
      (h c main_arg10).trans (arg_kept (launchContents m c) main_arg10 (by decide)),
      (h c main_arg11).trans (arg_kept (launchContents m c) main_arg11 (by decide)),
      (h c main_arg12).trans (arg_kept (launchContents m c) main_arg12 (by decide)),
      (h c main_arg13).trans (arg_kept (launchContents m c) main_arg13 (by decide)),
      (h c main_arg14).trans (arg_kept (launchContents m c) main_arg14 (by decide)),
      (h c main_arg15).trans (arg_kept (launchContents m c) main_arg15 (by decide)),
      (h c main_arg16).trans (arg_kept (launchContents m c) main_arg16 (by decide)),
      (h c main_arg17).trans (arg_kept (launchContents m c) main_arg17 (by decide)),
      (h c main_arg18).trans (arg_kept (launchContents m c) main_arg18 (by decide)),
      (h c main_arg19).trans (arg_kept (launchContents m c) main_arg19 (by decide)),
      (h c main_arg20).trans (arg_kept (launchContents m c) main_arg20 (by decide)),
      (h c main_arg21).trans (arg_kept (launchContents m c) main_arg21 (by decide)),
      (h c main_arg22).trans (arg_kept (launchContents m c) main_arg22 (by decide))⟩)
    (run_seq scopedRefs_eq scopedSems_eq defs main (fun _ => ops) main_eq (fun _ => ops_sub) m ρ)

end Cert.RefRun

end
-- ==== Proof.KRun.lean ====
/-
  The kernel's run, with its result named.

  The program is three row-tiled regions among stretches of host operations. Its frame run already knows the contents
  of every buffer at each boundary as a fold from the launch memory (`Gen.W0` … `Gen.W6`): a host stretch applies its
  operations, a region replaces its arrays by what its write-backs leave. Here the same run is stated once more with
  the final contents of the RESULT buffer kept: the result ends at `Gen.W6` read at the result's reference, and every
  argument array ends as launched.
-/
import proofs.«159935_j82514911690903_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from `m` terminates without a fault; the result buffer then holds the last boundary's
    contents at the result's reference, and the argument arrays are as launched. -/
theorem run : θ_run defs (onTc (τ := τ) (main (F := F))) ⟨m, fun _ => 0, ρ⟩ (fun r => ∀ c : Dev nD,
      r.2.mem ((c.tc : Thread nD τ).loc main_v81) = W6 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v81 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c),
       (h c _ (mem_uc main_arg22 (by decide))).trans (W6_main_arg22 m ρ c)⟩)

end Cert.KernelIdeal.KRun

end
-- ==== Proof.Spec.lean ====
/-
  The mathematics of the three fused stages, entry by entry over the extended reals.

  The network is a two-layer graph convolution followed by two gate cells and a linear read-out, and every fused
  stage is row-local: row `r` of a stage's result depends on row `r` of the stage's node arrays and on the (small)
  parameter arrays only. Each definition below is one stage's result as ONE function of the arrays the stage reads:

  * `proj1`  — the first layer's projection `x · W1`;
  * `h1`, `h2pre` — the first layer's normalised activation `bn (relu (agg + b))` and its projection by `W2`;
  * `final`  — the second layer's activation, the two gate cells and the read-out.

  A matrix product is the finite sum over the contracted coordinate; a product against a row block of a taller
  matrix (rows `0..63`, `64..127`, `128..135`) reads the taller matrix at the shifted row; a gate's pre-activation
  is sliced by column block (`0..63`, `128..191`, `192..255`). Float words are kept as words.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals with literal extents. -/
abbrev Arr (n0 n1 : Nat) : Type := (⟨2, ![n0, n1]⟩ : Shape).Idx → EReal

/-- The word of `0.0`. -/
abbrev zeroW : EReal := Ideal.ofBits .f32 0x00000000#32
/-- The word of the normalisation's epsilon. -/
abbrev epsW : EReal := Ideal.ofBits .f32 0x3727C5AC#32

/-! ## Rows of a taller matrix, columns of a wider one -/

/-- Row `k` of the upper half of a 128-row matrix. -/
abbrev up (k : Fin 64) : Fin 128 := ⟨k.val, by omega⟩
/-- Row `64 + k` of a 128-row matrix. -/
abbrev dn (k : Fin 64) : Fin 128 := ⟨64 + k.val, by omega⟩
/-- Rows `k`, `64 + k` and `128 + k` of the 136-row read-out matrix. -/
abbrev ro0 (k : Fin 64) : Fin 136 := ⟨k.val, by omega⟩
abbrev ro1 (k : Fin 64) : Fin 136 := ⟨64 + k.val, by omega⟩
abbrev ro2 (k : Fin 8) : Fin 136 := ⟨128 + k.val, by omega⟩
/-- Columns `c`, `128 + c`, `192 + c` of a gate's 256 pre-activations: input gate, candidate, output gate. -/
abbrev cI (c : Fin 64) : Fin 256 := ⟨c.val, by omega⟩
abbrev cG (c : Fin 64) : Fin 256 := ⟨128 + c.val, by omega⟩
abbrev cO (c : Fin 64) : Fin 256 := ⟨192 + c.val, by omega⟩

/-! ## The first layer's projection -/

/-- `(x · W1) r c = ∑ₖ x r k · W1 k c`. -/
def proj1At (x : Arr 100000 8) (w : Arr 8 64) (r : Fin 100000) (c : Fin 64) : EReal :=
  ∑ k : Fin 8, x (ix2 r k) * w (ix2 k c)
def proj1 (x : Arr 100000 8) (w : Arr 8 64) : Arr 100000 64 := fun i => proj1At x w (i 0) (i 1)

/-! ## Bias, rectifier, normalisation -/

/-- One normalised entry: `(max (a + b) 0 − mean) · rsqrt (var + ε) · γ + β`. -/
def bnRelu (a b mean var g be : EReal) : EReal :=
  (max (a + b) zeroW - mean) * Ideal.rsqrt (var + epsW) * g + be

/-- The normalised activation of an aggregated array, entry `(r, k)`: the parameters are rows `[1, 64]`. -/
def actAt (agg : Arr 100000 64) (b g be mean var : Arr 1 64) (r : Fin 100000) (k : Fin 64) : EReal :=
  bnRelu (agg (ix2 r k)) (b (ix2 0 k)) (mean (ix2 0 k)) (var (ix2 0 k)) (g (ix2 0 k)) (be (ix2 0 k))

/-- The first layer's activation as an array. -/
def h1 (agg : Arr 100000 64) (b g be mean var : Arr 1 64) : Arr 100000 64 :=
  fun i => actAt agg b g be mean var (i 0) (i 1)

/-- The second layer's projection `h1 · W2`. -/
def h2preAt (agg : Arr 100000 64) (b g be mean var : Arr 1 64) (w2 : Arr 64 64) (r : Fin 100000) (c : Fin 64) : EReal :=
  ∑ k : Fin 64, actAt agg b g be mean var r k * w2 (ix2 k c)
def h2pre (agg : Arr 100000 64) (b g be mean var : Arr 1 64) (w2 : Arr 64 64) : Arr 100000 64 :=
  fun i => h2preAt agg b g be mean var w2 (i 0) (i 1)

/-! ## The gate cells and the read-out -/

/-- A gate cell from a zero state: `σ(o) · tanh (σ(i) · tanh g)`. -/
def cell (i g o : EReal) : EReal := Ideal.logistic o * Ideal.tanh (Ideal.logistic i * Ideal.tanh g)

/-- The first cell's pre-activation `j` of row `r`: `h1` against the upper 64 rows of the transposed weight, the
    second layer's activation `a2` against the lower 64, then the two biases, added in this order. -/
def pre1At (hh1 : Arr 100000 64) (a2 : Fin 100000 → Fin 64 → EReal) (w : Arr 128 256) (bi bh : Arr 1 256)
    (r : Fin 100000) (j : Fin 256) : EReal :=
  (∑ k : Fin 64, hh1 (ix2 r k) * w (ix2 (up k) j)) + (∑ k : Fin 64, a2 r k * w (ix2 (dn k) j)) + bi (ix2 0 j) + bh (ix2 0 j)

/-- The first cell's output, entry `(r, c)`. -/
def lh1At (hh1 : Arr 100000 64) (a2 : Fin 100000 → Fin 64 → EReal) (w : Arr 128 256) (bi bh : Arr 1 256)
    (r : Fin 100000) (c : Fin 64) : EReal :=
  cell (pre1At hh1 a2 w bi bh r (cI c)) (pre1At hh1 a2 w bi bh r (cG c)) (pre1At hh1 a2 w bi bh r (cO c))

/-- The second cell's pre-activation `j` of row `r`, from the first cell's outputs `l1`. -/
def pre2At (l1 : Fin 100000 → Fin 64 → EReal) (w : Arr 64 256) (bi bh : Arr 1 256) (r : Fin 100000) (j : Fin 256) : EReal :=
  (∑ k : Fin 64, l1 r k * w (ix2 k j)) + bi (ix2 0 j) + bh (ix2 0 j)

/-- The second cell's output, entry `(r, c)`. -/
def lh2At (l1 : Fin 100000 → Fin 64 → EReal) (w : Arr 64 256) (bi bh : Arr 1 256) (r : Fin 100000) (c : Fin 64) : EReal :=
  cell (pre2At l1 w bi bh r (cI c)) (pre2At l1 w bi bh r (cG c)) (pre2At l1 w bi bh r (cO c))

/-- The read-out of row `r`: the rectified first cell against rows `0..63` of the read-out matrix, the rectified
    second cell against rows `64..127`, the rectified input features against rows `128..135`, then the bias. -/
def outAt (l1 l2 : Fin 100000 → Fin 64 → EReal) (x : Arr 100000 8) (wl : Arr 136 1) (bl : Arr 1 1) (r : Fin 100000) : EReal :=
  (∑ k : Fin 64, max (l1 r k) zeroW * wl (ix2 (ro0 k) 0)) + (∑ k : Fin 64, max (l2 r k) zeroW * wl (ix2 (ro1 k) 0))
    + (∑ k : Fin 8, max (x (ix2 r k)) zeroW * wl (ix2 (ro2 k) 0)) + bl (ix2 0 0)

/-- The last stage's result from the arrays it reads: `hh1` the first layer's activation, `agg2` the second layer's
    aggregation, `x` the input features, then the second normalisation's parameters, the two cells' transposed weights
    and biases, and the read-out's. -/
def finalAt (hh1 agg2 : Arr 100000 64) (x : Arr 100000 8) (b2 g2 be2 mean2 var2 : Arr 1 64)
    (w1t : Arr 128 256) (bi1 bh1 : Arr 1 256) (w2t : Arr 64 256) (bi2 bh2 : Arr 1 256) (wl : Arr 136 1) (bl : Arr 1 1)
    (r : Fin 100000) : EReal :=
  outAt (lh1At hh1 (actAt agg2 b2 g2 be2 mean2 var2) w1t bi1 bh1)
    (lh2At (lh1At hh1 (actAt agg2 b2 g2 be2 mean2 var2) w1t bi1 bh1) w2t bi2 bh2) x wl bl r
def final (hh1 agg2 : Arr 100000 64) (x : Arr 100000 8) (b2 g2 be2 mean2 var2 : Arr 1 64)
    (w1t : Arr 128 256) (bi1 bh1 : Arr 1 256) (w2t : Arr 64 256) (bi2 bh2 : Arr 1 256) (wl : Arr 136 1) (bl : Arr 1 1) :
    Arr 100000 1 :=
  fun i => finalAt hh1 agg2 x b2 g2 be2 mean2 var2 w1t bi1 bh1 w2t bi2 bh2 wl bl (i 0)

end Cert.Spec

end
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.Region0.lean ====
/-
  Region 0: the first layer's projection. Each grid point multiplies its block of 5000 rows of `x` by the whole
  `W1`; the array the region leaves is `x · W1`, entry by entry.
-/
import proofs.«159935_j82514911690903_1_alg».proof.Proof.Gen.KernelIdeal.Frame
import proofs.«159935_j82514911690903_1_alg».proof.Proof.Spec
import proofs.«159935_j82514911690903_1_alg».proof.Proof.LibBlock
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Cert.LibBlock Idealize.ShloMosaic Idealize.ShloMosaic.ValueIdx
open Idealize.ShloMosaic.TcCoe Idealize.SL.Sem
open Idealize.ShloMosaic.Pipeline (Dat Cfg Window)

variable (V : (c : Dev nD) → (b : Ref sig .tc) → Buf (Elt Ideal) ((c : Thread nD τ).loc b))

/-- The body's product at `(p, q)`: `∑ₖ x (p, k) * w (k, q)` over the 8 contracted columns. -/
theorem pay_apply (x0 : Vec Ideal S5000x8 .f32) (x1 : Vec Ideal S8x64 .f32) (p : Fin 5000) (q : Fin 64) :
    k0_pay1 (F := Ideal) x0 x1 (ix2 p q) = ∑ k : Fin 8, x0 (ix2 p k) * x1 (ix2 k q) := by
  unfold k0_pay1
  exact matmul_zero_ix2 dot_S5000x8_S8x64_S5000x64_1_0_0_1_n_n rfl rfl rfl rfl rfl rfl none _ _ p q

/-- The block indices over the grid: point `t` reads row block `t` of `x`, the whole of `W1`, and writes row block `t`. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of `x · W1`. -/
theorem flushed_eq (c : Dev nD) (t : Fin cfg0.N) :
    (dat0 (F := Ideal) V c).flushed 2 t
      = ((cfg0.win 2).blk t).view.read (Elt Ideal) (Cert.Spec.proj1 (V c main_arg0) (V c main_arg3)) := by
  show (cfg0.win 2).cut (grid0.coords t) ((dat0 (F := Ideal) V c).after 2 t) = _
  rw [after0_2]
  unfold out0_2
  rw [View.canon_unit_zero hz]
  simp only [View.ld_unit_zero (S := S5000x8) hz, View.ld_unit_zero (S := S8x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q)
      = Cert.Spec.proj1 (V c main_arg0) (V c main_arg3) (((cfg0.win 2).blk t).view.emb (ix2 p q))
  refine (pay_apply _ _ p q).trans ?_
  unfold Cert.Spec.proj1 Cert.Spec.proj1At
  refine Finset.sum_congr rfl fun k _ => ?_
  have h0 : iblk0 V c 0 t (ix2 p k) = V c main_arg0 (ix2 (((cfg0.win 2).blk t).view.emb (ix2 p q) 0) k) := by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 8 + 1 * k.val = k.val; omega
  have h1 : iblk0 V c 1 t (ix2 k q) = V c main_arg3 (ix2 k (((cfg0.win 2).blk t).view.emb (ix2 p q) 1)) := by
    show V c main_arg3 (((cfg0.win 1).blk t).view.emb (ix2 k q)) = _
    refine congrArg (V c main_arg3) (funext fun a => Fin.ext ?_)
    match a with
    | ⟨0, _⟩ => show win0_1.index t (0 : Fin 2) * 8 + 1 * k.val = k.val; omega
    | ⟨1, _⟩ => show win0_1.index t (1 : Fin 2) * 64 + 1 * q.val = win0_2.index t (1 : Fin 2) * 64 + 1 * q.val; omega
  rw [h0, h1]

/-- An index of the result is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v28).slice (win0_2.rect t)).set ↔ _
  rw [View.set_slice_whole, Rect.mem_set_unit]
  exact Iff.rfl

/-- Row `r` lies in the block of point `r / 5000`: the 20 blocks cover the result. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE ARRAY region 0 leaves: `x · W1`. -/
theorem arr (c : Dev nD) :
    (dat0 (F := Ideal) V c).arrAt 2 cfg0.N = Cert.Spec.proj1 (V c main_arg0) (V c main_arg3) :=
  (dat0 (F := Ideal) V c).arrAt_eq_of_cover 2 _ (fun t _ => flushed_eq V c t) cover

end Cert.KernelIdeal.Region0

end
-- ==== Proof.Region1.lean ====
/-
  Region 1: the first layer's activation and the second layer's projection. Each grid point adds the bias row to its
  block of 5000 rows of the aggregated array, rectifies, normalises with the mean, variance, scale and shift rows, and
  multiplies the result by the whole `W2`. The two arrays the region leaves are `bn (relu (agg + b))` and its product
  with `W2`, entry by entry.
-/
import proofs.«159935_j82514911690903_1_alg».proof.Proof.Gen.KernelIdeal.Frame
import proofs.«159935_j82514911690903_1_alg».proof.Proof.Spec
import proofs.«159935_j82514911690903_1_alg».proof.Proof.LibBlock
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Cert.LibBlock Idealize.ShloMosaic Idealize.ShloMosaic.ValueIdx
open Idealize.ShloMosaic.TcCoe Idealize.SL.Sem
open Idealize.ShloMosaic.Pipeline (Dat Cfg Window)

variable (V : (c : Dev nD) → (b : Ref sig .tc) → Buf (Elt Ideal) ((c : Thread nD τ).loc b))

/-! ## The body's arithmetic at an index -/

/-- The normalised activation at `(p, q)`: `(max (a + b) 0 − mean) · rsqrt (var + ε) · γ + β` of the block's entry and
    the five rows' entries at column `q`. -/
theorem pay1_apply (x0 : Vec Ideal S5000x64 .f32) (b va me g be : Vec Ideal S1x64 .f32) (p : Fin 5000) (q : Fin 64) :
    k1_pay1 (F := Ideal) x0 b va me g be (ix2 p q)
      = Cert.Spec.bnRelu (x0 (ix2 p q)) (b (ix2 (0 : Fin 1) q)) (me (ix2 (0 : Fin 1) q)) (va (ix2 (0 : Fin 1) q))
          (g (ix2 (0 : Fin 1) q)) (be (ix2 (0 : Fin 1) q)) := by
  unfold k1_pay1 Cert.Spec.bnRelu
  simp only [shapeCast_self, addf_apply, mulf_apply, subf_apply, maximumf_apply, broadcast_apply, broadcastTo_1b_ab_apply]
  rfl

/-- The projection at `(p, q)`: the sum over the 64 contracted columns of the activation times `W2`. -/
theorem pay2_apply (x0 : Vec Ideal S5000x64 .f32) (b va me g be : Vec Ideal S1x64 .f32) (w : Vec Ideal S64x64 .f32)
    (p : Fin 5000) (q : Fin 64) :
    k1_pay2 (F := Ideal) x0 b va me g be w (ix2 p q)
      = ∑ k : Fin 64, k1_pay1 (F := Ideal) x0 b va me g be (ix2 p k) * w (ix2 k q) := by
  unfold k1_pay2
  exact matmul_zero_ix2 dot_S5000x64_S64x64_S5000x64_1_0_0_1_n_n rfl rfl rfl rfl rfl rfl none _ _ p q

/-! ## The blocks over the grid -/

/-- The block indices over the grid: point `t` reads row block `t` of the aggregated array, the whole of each row and
    of `W2`, and writes row block `t` of both results. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- Window 0 at point `t`: local `(p, k)` is row `5000 t + p`, column `k`, of the aggregated array. -/
theorem agg_read (c : Dev nD) (t : Fin cfg1.N) (p : Fin 5000) (k : Fin 64) (r : Fin 100000)
    (hr : r.val = t.val * 5000 + p.val) : iblk1 V c 0 t (ix2 p k) = V c main_v45 (ix2 r k) := by
  obtain ⟨e00, e01, e10, e11, e20, e21, e30, e31, e40, e41, e50, e51, e60, e61, e70, e71, e80, e81⟩ := idx_facts t
  show V c main_v45 (((cfg1.win 0).blk t).view.emb (ix2 p k)) = _
  refine congrArg (V c main_v45) (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

/-- Window 1 (the bias row) is the whole `[1, 64]` array at every point. -/
theorem row1_read (c : Dev nD) (t : Fin cfg1.N) (k : Fin 64) :
    iblk1 V c 1 t (ix2 (0 : Fin 1) k) = V c main_v46 (ix2 (0 : Fin 1) k) := by
  obtain ⟨e00, e01, e10, e11, e20, e21, e30, e31, e40, e41, e50, e51, e60, e61, e70, e71, e80, e81⟩ := idx_facts t
  show V c main_v46 (((cfg1.win 1).blk t).view.emb (ix2 (0 : Fin 1) k)) = _
  refine congrArg (V c main_v46) (funext fun a => Fin.ext ?_)
  match a with
  | ⟨0, _⟩ => show win1_1.index t (0 : Fin 2) * 1 + 1 * 0 = 0; omega
  | ⟨1, _⟩ => show win1_1.index t (1 : Fin 2) * 64 + 1 * k.val = k.val; omega

/-- Window 2 (the scale row) is the whole `[1, 64]` array at every point. -/
theorem row2_read (c : Dev nD) (t : Fin cfg1.N) (k : Fin 64) :
    iblk1 V c 2 t (ix2 (0 : Fin 1) k) = V c main_v47 (ix2 (0 : Fin 1) k) := by
  obtain ⟨e00, e01, e10, e11, e20, e21, e30, e31, e40, e41, e50, e51, e60, e61, e70, e71, e80, e81⟩ := idx_facts t
  show V c main_v47 (((cfg1.win 2).blk t).view.emb (ix2 (0 : Fin 1) k)) = _
  refine congrArg (V c main_v47) (funext fun a => Fin.ext ?_)
  match a with
  | ⟨0, _⟩ => show win1_2.index t (0 : Fin 2) * 1 + 1 * 0 = 0; omega
  | ⟨1, _⟩ => show win1_2.index t (1 : Fin 2) * 64 + 1 * k.val = k.val; omega

/-- Window 3 (the shift row) is the whole `[1, 64]` array at every point. -/
theorem row3_read (c : Dev nD) (t : Fin cfg1.N) (k : Fin 64) :
    iblk1 V c 3 t (ix2 (0 : Fin 1) k) = V c main_v48 (ix2 (0 : Fin 1) k) := by
  obtain ⟨e00, e01, e10, e11, e20, e21, e30, e31, e40, e41, e50, e51, e60, e61, e70, e71, e80, e81⟩ := idx_facts t
  show V c main_v48 (((cfg1.win 3).blk t).view.emb (ix2 (0 : Fin 1) k)) = _
  refine congrArg (V c main_v48) (funext fun a => Fin.ext ?_)
  match a with
  | ⟨0, _⟩ => show win1_3.index t (0 : Fin 2) * 1 + 1 * 0 = 0; omega
  | ⟨1, _⟩ => show win1_3.index t (1 : Fin 2) * 64 + 1 * k.val = k.val; omega

/-- Window 4 (the mean row) is the whole `[1, 64]` array at every point. -/
theorem row4_read (c : Dev nD) (t : Fin cfg1.N) (k : Fin 64) :
    iblk1 V c 4 t (ix2 (0 : Fin 1) k) = V c main_v49 (ix2 (0 : Fin 1) k) := by
  obtain ⟨e00, e01, e10, e11, e20, e21, e30, e31, e40, e41, e50, e51, e60, e61, e70, e71, e80, e81⟩ := idx_facts t
  show V c main_v49 (((cfg1.win 4).blk t).view.emb (ix2 (0 : Fin 1) k)) = _
  refine congrArg (V c main_v49) (funext fun a => Fin.ext ?_)
  match a with
  | ⟨0, _⟩ => show win1_4.index t (0 : Fin 2) * 1 + 1 * 0 = 0; omega
  | ⟨1, _⟩ => show win1_4.index t (1 : Fin 2) * 64 + 1 * k.val = k.val; omega

/-- Window 5 (the variance row) is the whole `[1, 64]` array at every point. -/
theorem row5_read (c : Dev nD) (t : Fin cfg1.N) (k : Fin 64) :
    iblk1 V c 5 t (ix2 (0 : Fin 1) k) = V c main_v50 (ix2 (0 : Fin 1) k) := by
  obtain ⟨e00, e01, e10, e11, e20, e21, e30, e31, e40, e41, e50, e51, e60, e61, e70, e71, e80, e81⟩ := idx_facts t
  show V c main_v50 (((cfg1.win 5).blk t).view.emb (ix2 (0 : Fin 1) k)) = _
  refine congrArg (V c main_v50) (funext fun a => Fin.ext ?_)
  match a with
  | ⟨0, _⟩ => show win1_5.index t (0 : Fin 2) * 1 + 1 * 0 = 0; omega
  | ⟨1, _⟩ => show win1_5.index t (1 : Fin 2) * 64 + 1 * k.val = k.val; omega

/-- Window 6 is the whole `W2` at every point. -/
theorem w2_read (c : Dev nD) (t : Fin cfg1.N) (k q : Fin 64) :
    iblk1 V c 6 t (ix2 k q) = V c main_arg5 (ix2 k q) := by
  obtain ⟨e00, e01, e10, e11, e20, e21, e30, e31, e40, e41, e50, e51, e60, e61, e70, e71, e80, e81⟩ := idx_facts t
  show V c main_arg5 (((cfg1.win 6).blk t).view.emb (ix2 k q)) = _
  refine congrArg (V c main_arg5) (funext fun a => Fin.ext ?_)
  match a with
  | ⟨0, _⟩ => show win1_6.index t (0 : Fin 2) * 64 + 1 * k.val = k.val; omega
  | ⟨1, _⟩ => show win1_6.index t (1 : Fin 2) * 64 + 1 * q.val = q.val; omega

/-- Where point `t`'s output block 7 sits: local `(p, q)` is row `5000 t + p`, column `q`, of the result. -/
theorem emb7 (t : Fin cfg1.N) (p : Fin 5000) (q : Fin 64) :
    ∃ r : Fin 100000, r.val = t.val * 5000 + p.val ∧ ((cfg1.win 7).blk t).view.emb (ix2 p q) = ix2 r q := by
  obtain ⟨e00, e01, e10, e11, e20, e21, e30, e31, e40, e41, e50, e51, e60, e61, e70, e71, e80, e81⟩ := idx_facts t
  have hN : cfg1.N = 20 := N_1
  have ht : t.val < 20 := hN ▸ t.isLt
  refine ⟨⟨t.val * 5000 + p.val, by omega⟩, rfl, funext fun a => Fin.ext ?_⟩
  match a with
  | ⟨0, _⟩ => show win1_7.index t (0 : Fin 2) * 5000 + 1 * p.val = t.val * 5000 + p.val; omega
  | ⟨1, _⟩ => show win1_7.index t (1 : Fin 2) * 64 + 1 * q.val = q.val; omega

/-- Where point `t`'s output block 8 sits: local `(p, q)` is row `5000 t + p`, column `q`, of the result. -/
theorem emb8 (t : Fin cfg1.N) (p : Fin 5000) (q : Fin 64) :
    ∃ r : Fin 100000, r.val = t.val * 5000 + p.val ∧ ((cfg1.win 8).blk t).view.emb (ix2 p q) = ix2 r q := by
  obtain ⟨e00, e01, e10, e11, e20, e21, e30, e31, e40, e41, e50, e51, e60, e61, e70, e71, e80, e81⟩ := idx_facts t
  have hN : cfg1.N = 20 := N_1
  have ht : t.val < 20 := hN ▸ t.isLt
  refine ⟨⟨t.val * 5000 + p.val, by omega⟩, rfl, funext fun a => Fin.ext ?_⟩
  match a with
  | ⟨0, _⟩ => show win1_8.index t (0 : Fin 2) * 5000 + 1 * p.val = t.val * 5000 + p.val; omega
  | ⟨1, _⟩ => show win1_8.index t (1 : Fin 2) * 64 + 1 * q.val = q.val; omega

/-- The body's activation of point `t`'s blocks at local `(p, k)` is the activation of the arrays at row `5000 t + p`. -/
theorem act_read (c : Dev nD) (t : Fin cfg1.N) (p : Fin 5000) (k : Fin 64) (r : Fin 100000)
    (hr : r.val = t.val * 5000 + p.val) :
    k1_pay1 (F := Ideal) (iblk1 V c 0 t) (iblk1 V c 1 t) (iblk1 V c 5 t) (iblk1 V c 4 t) (iblk1 V c 2 t) (iblk1 V c 3 t) (ix2 p k)
      = Cert.Spec.actAt (V c main_v45) (V c main_v46) (V c main_v47) (V c main_v48) (V c main_v49) (V c main_v50) r k := by
  refine (pay1_apply _ _ _ _ _ _ p k).trans ?_
  unfold Cert.Spec.actAt
  rw [agg_read V c t p k r hr, row1_read V c t k, row2_read V c t k, row3_read V c t k, row4_read V c t k, row5_read V c t k]

/-! ## The activation: output window 7 -/

/-- What point `t` writes back to the first result is block `t` of the activation. -/
theorem flushed7_eq (c : Dev nD) (t : Fin cfg1.N) :
    (dat1 (F := Ideal) V c).flushed 7 t
      = ((cfg1.win 7).blk t).view.read (Elt Ideal) (Cert.Spec.h1 (V c main_v45) (V c main_v46) (V c main_v47) (V c main_v48) (V c main_v49) (V c main_v50)) := by
  show (cfg1.win 7).cut (grid1.coords t) ((dat1 (F := Ideal) V c).after 7 t) = _
  rw [after1_7]
  unfold out1_7
  rw [View.canon_unit_zero hz]
  simp only [View.ld_unit_zero (S := S5000x64) hz, View.ld_unit_zero (S := S1x64) hz, View.ld_unit_zero (S := S64x64) hz]
  funext j
  obtain ⟨p, q, rfl⟩ : ∃ (p : Fin 5000) (q : Fin 64), j = ix2 p q := ⟨j 0, j 1, eq_ix2 j⟩
  obtain ⟨r, hr, hE⟩ := emb7 t p q
  show k1_pay1 (F := Ideal) (iblk1 V c 0 t) (iblk1 V c 1 t) (iblk1 V c 5 t) (iblk1 V c 4 t) (iblk1 V c 2 t) (iblk1 V c 3 t) (ix2 p q)
      = Cert.Spec.h1 (V c main_v45) (V c main_v46) (V c main_v47) (V c main_v48) (V c main_v49) (V c main_v50) (((cfg1.win 7).blk t).view.emb (ix2 p q))
  rw [hE]
  exact act_read V c t p q r hr

/-- An index of output 7 is in point `t`'s block iff each coordinate is in the block's range on its axis. -/
theorem mem_blk7 (t : Fin cfg1.N) (i : S100000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v51_0).slice (win1_7.rect t)).set ↔ _
  rw [View.set_slice_whole, Rect.mem_set_unit]
  exact Iff.rfl

/-- Row `r` lies in the block of point `r / 5000`: the 20 blocks cover output 7. -/
theorem cover7 (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e00, e01, e10, e11, e20, e21, e30, e31, e40, e41, e50, e51, e60, e61, e70, e71, e80, e81⟩ := idx_facts t
  refine ⟨t, flush1_7 t, ?_⟩
  rw [mem_blk7]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 64 ≤ (i 1).val ∧ (i 1).val < win1_7.index t (1 : Fin 2) * 64 + 64; omega

/-- THE FIRST ARRAY region 1 leaves: the normalised activation. -/
theorem arr_h1 (c : Dev nD) :
    (dat1 (F := Ideal) V c).arrAt 7 cfg1.N = Cert.Spec.h1 (V c main_v45) (V c main_v46) (V c main_v47) (V c main_v48) (V c main_v49) (V c main_v50) :=
  (dat1 (F := Ideal) V c).arrAt_eq_of_cover 7 _ (fun t _ => flushed7_eq V c t) cover7

/-! ## The projection: output window 8 -/

/-- What point `t` writes back to the second result is block `t` of the activation's product with `W2`. -/
theorem flushed8_eq (c : Dev nD) (t : Fin cfg1.N) :
    (dat1 (F := Ideal) V c).flushed 8 t
      = ((cfg1.win 8).blk t).view.read (Elt Ideal) (Cert.Spec.h2pre (V c main_v45) (V c main_v46) (V c main_v47) (V c main_v48) (V c main_v49) (V c main_v50) (V c main_arg5)) := by
  show (cfg1.win 8).cut (grid1.coords t) ((dat1 (F := Ideal) V c).after 8 t) = _
  rw [after1_8]
  unfold out1_8
  rw [View.canon_unit_zero hz]
  simp only [View.ld_unit_zero (S := S5000x64) hz, View.ld_unit_zero (S := S1x64) hz, View.ld_unit_zero (S := S64x64) hz]
  funext j
  obtain ⟨p, q, rfl⟩ : ∃ (p : Fin 5000) (q : Fin 64), j = ix2 p q := ⟨j 0, j 1, eq_ix2 j⟩
  obtain ⟨r, hr, hE⟩ := emb8 t p q
  show k1_pay2 (F := Ideal) (iblk1 V c 0 t) (iblk1 V c 1 t) (iblk1 V c 5 t) (iblk1 V c 4 t) (iblk1 V c 2 t) (iblk1 V c 3 t) (iblk1 V c 6 t) (ix2 p q)
      = Cert.Spec.h2pre (V c main_v45) (V c main_v46) (V c main_v47) (V c main_v48) (V c main_v49) (V c main_v50) (V c main_arg5) (((cfg1.win 8).blk t).view.emb (ix2 p q))
  rw [hE]
  refine (pay2_apply _ _ _ _ _ _ _ p q).trans ?_
  show _ = Cert.Spec.h2preAt (V c main_v45) (V c main_v46) (V c main_v47) (V c main_v48) (V c main_v49) (V c main_v50) (V c main_arg5) r q
  unfold Cert.Spec.h2preAt
  refine Finset.sum_congr rfl fun k _ => ?_
  rw [act_read V c t p k r hr, w2_read V c t k q]

/-- An index of output 8 is in point `t`'s block iff each coordinate is in the block's range on its axis. -/
theorem mem_blk8 (t : Fin cfg1.N) (i : S100000x64.Idx) :
    i ∈ ((cfg1.win 8).blk t).view.set ↔ ∀ a : Fin 2, win1_8.index t a * S5000x64.size a ≤ (i a).val
      ∧ (i a).val < win1_8.index t a * S5000x64.size a + S5000x64.size a := by
  show i ∈ ((View.whole main_v51_1).slice (win1_8.rect t)).set ↔ _
  rw [View.set_slice_whole, Rect.mem_set_unit]
  exact Iff.rfl

/-- Row `r` lies in the block of point `r / 5000`: the 20 blocks cover output 8. -/
theorem cover8 (i : S100000x64.Idx) :
    ∃ t : Fin cfg1.N, (cfg1.win 8).flush t = true ∧ i ∈ ((cfg1.win 8).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e00, e01, e10, e11, e20, e21, e30, e31, e40, e41, e50, e51, e60, e61, e70, e71, e80, e81⟩ := idx_facts t
  refine ⟨t, flush1_8 t, ?_⟩
  rw [mem_blk8]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 64 ≤ (i 1).val ∧ (i 1).val < win1_8.index t (1 : Fin 2) * 64 + 64; omega

/-- THE SECOND ARRAY region 1 leaves: the activation times `W2`. -/
theorem arr_h2pre (c : Dev nD) :
    (dat1 (F := Ideal) V c).arrAt 8 cfg1.N = Cert.Spec.h2pre (V c main_v45) (V c main_v46) (V c main_v47) (V c main_v48) (V c main_v49) (V c main_v50) (V c main_arg5) :=
  (dat1 (F := Ideal) V c).arrAt_eq_of_cover 8 _ (fun t _ => flushed8_eq V c t) cover8

end Cert.KernelIdeal.Region1

end
-- ==== Proof.Region2Pay.lean ====
/-
  The last stage's arithmetic, entry by entry: each pure value the stage's body computes from the blocks it has loaded,
  read at one entry, is the corresponding term of `Cert.Spec` — the normalised activation, the two products into the
  gates' pre-activations, the two gate cells, the rectifier and the read-out —, and their composition at a row of a
  block is `Cert.Spec.finalAt` at the row of the whole array the block's row is.
-/
import proofs.«159935_j82514911690903_1_alg».proof.Proof.Gen.KernelIdeal.Frame
import proofs.«159935_j82514911690903_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region2

open Cert.KernelIdeal Cert.KernelIdeal.Gen Idealize.ShloMosaic Idealize.ShloMosaic.ValueIdx Idealize.SL.Sem

theorem mm256_lhs0 (i : S5000x256.Idx) (q : dot_S5000x64_S64x256_S5000x256_1_0_0_1_n_n.contr.Idx) : (dot_S5000x64_S64x256_S5000x256_1_0_0_1_n_n.lhsIdx i q 0).val = (i 0).val := by
  unfold DotDims.lhsIdx
  rw [dif_neg (show ¬(0 : Fin S5000x64.rank) ∈ dot_S5000x64_S64x256_S5000x256_1_0_0_1_n_n.lhsBatch by decide), dif_pos (show (0 : Fin S5000x64.rank) ∈ dot_S5000x64_S64x256_S5000x256_1_0_0_1_n_n.lhsNonContracting by decide)]
  rfl
theorem mm256_lhs1 (i : S5000x256.Idx) (q : dot_S5000x64_S64x256_S5000x256_1_0_0_1_n_n.contr.Idx) : (dot_S5000x64_S64x256_S5000x256_1_0_0_1_n_n.lhsIdx i q 1).val = (q ⟨0, by decide⟩).val :=
  dot_S5000x64_S64x256_S5000x256_1_0_0_1_n_n.lhsIdx_val_of_single rfl i q
theorem mm256_rhs0 (i : S5000x256.Idx) (q : dot_S5000x64_S64x256_S5000x256_1_0_0_1_n_n.contr.Idx) : (dot_S5000x64_S64x256_S5000x256_1_0_0_1_n_n.rhsIdx i q 0).val = (q ⟨0, by decide⟩).val :=
  dot_S5000x64_S64x256_S5000x256_1_0_0_1_n_n.rhsIdx_val_of_single rfl i q
theorem mm256_rhs1 (i : S5000x256.Idx) (q : dot_S5000x64_S64x256_S5000x256_1_0_0_1_n_n.contr.Idx) : (dot_S5000x64_S64x256_S5000x256_1_0_0_1_n_n.rhsIdx i q 1).val = (i 1).val := by
  unfold DotDims.rhsIdx
  rw [dif_neg (show ¬(1 : Fin S64x256.rank) ∈ dot_S5000x64_S64x256_S5000x256_1_0_0_1_n_n.rhsBatch by decide), dif_pos (show (1 : Fin S64x256.rank) ∈ dot_S5000x64_S64x256_S5000x256_1_0_0_1_n_n.rhsNonContracting by decide)]
  rfl

/-- A product into the zero accumulator, entry `(p, j)`: the sum over the contracted coordinate. -/
theorem mm256_apply (a : FVec Ideal S5000x64 .bf16) (b : FVec Ideal S64x256 .bf16) (p : Fin 5000) (j : Fin 256) :
    matmul dot_S5000x64_S64x256_S5000x256_1_0_0_1_n_n none a b (constant S5000x256 .f32 0x00000000#32) (ix2 p j)
      = ∑ k : Fin 64, a (ix2 p k) * b (ix2 k j) := by
  simp only [matmul]
  rw [Ideal.matmul_constant_zero_apply, ← Equiv.sum_comp (contrEquiv1 dot_S5000x64_S64x256_S5000x256_1_0_0_1_n_n 64 rfl rfl).symm]
  refine Finset.sum_congr rfl fun k _ => ?_
  have hk := contrEquiv1_symm_val dot_S5000x64_S64x256_S5000x256_1_0_0_1_n_n 64 rfl rfl k
  have el : dot_S5000x64_S64x256_S5000x256_1_0_0_1_n_n.lhsIdx (ix2 p j) ((contrEquiv1 dot_S5000x64_S64x256_S5000x256_1_0_0_1_n_n 64 rfl rfl).symm k) = ix2 p k := funext fun a => Fin.ext (by
    match a with
    | ⟨0, _⟩ => exact mm256_lhs0 _ _
    | ⟨1, _⟩ => exact (mm256_lhs1 _ _).trans hk)
  have er : dot_S5000x64_S64x256_S5000x256_1_0_0_1_n_n.rhsIdx (ix2 p j) ((contrEquiv1 dot_S5000x64_S64x256_S5000x256_1_0_0_1_n_n 64 rfl rfl).symm k) = ix2 k j := funext fun a => Fin.ext (by
    match a with
    | ⟨0, _⟩ => exact (mm256_rhs0 _ _).trans hk
    | ⟨1, _⟩ => exact mm256_rhs1 _ _)
  rw [el, er]

theorem mm1_lhs0 (i : S5000x1.Idx) (q : dot_S5000x64_S64x1_S5000x1_1_0_0_1_n_n.contr.Idx) : (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem mm1_lhs1 (i : S5000x1.Idx) (q : dot_S5000x64_S64x1_S5000x1_1_0_0_1_n_n.contr.Idx) : (dot_S5000x64_S64x1_S5000x1_1_0_0_1_n_n.lhsIdx i q 1).val = (q ⟨0, by decide⟩).val :=
  dot_S5000x64_S64x1_S5000x1_1_0_0_1_n_n.lhsIdx_val_of_single rfl i q
theorem mm1_rhs0 (i : S5000x1.Idx) (q : dot_S5000x64_S64x1_S5000x1_1_0_0_1_n_n.contr.Idx) : (dot_S5000x64_S64x1_S5000x1_1_0_0_1_n_n.rhsIdx i q 0).val = (q ⟨0, by decide⟩).val :=
  dot_S5000x64_S64x1_S5000x1_1_0_0_1_n_n.rhsIdx_val_of_single rfl i q
theorem mm1_rhs1 (i : S5000x1.Idx) (q : dot_S5000x64_S64x1_S5000x1_1_0_0_1_n_n.contr.Idx) : (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- A product into the zero accumulator, entry `(p, j)`: the sum over the contracted coordinate. -/
theorem mm1_apply (a : FVec Ideal S5000x64 .bf16) (b : FVec Ideal S64x1 .bf16) (p : Fin 5000) (j : Fin 1) :
    matmul dot_S5000x64_S64x1_S5000x1_1_0_0_1_n_n none a b (constant S5000x1 .f32 0x00000000#32) (ix2 p j)
      = ∑ k : Fin 64, a (ix2 p k) * b (ix2 k j) := by
  simp only [matmul]
  rw [Ideal.matmul_constant_zero_apply, ← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx (ix2 p j) ((contrEquiv1 dot_S5000x64_S64x1_S5000x1_1_0_0_1_n_n 64 rfl rfl).symm k) = ix2 p k := funext fun a => Fin.ext (by
    match a with
    | ⟨0, _⟩ => exact mm1_lhs0 _ _
    | ⟨1, _⟩ => exact (mm1_lhs1 _ _).trans hk)
  have er : dot_S5000x64_S64x1_S5000x1_1_0_0_1_n_n.rhsIdx (ix2 p j) ((contrEquiv1 dot_S5000x64_S64x1_S5000x1_1_0_0_1_n_n 64 rfl rfl).symm k) = ix2 k j := funext fun a => Fin.ext (by
    match a with
    | ⟨0, _⟩ => exact (mm1_rhs0 _ _).trans hk
    | ⟨1, _⟩ => exact mm1_rhs1 _ _)
  rw [el, er]

theorem mm8_lhs0 (i : S5000x1.Idx) (q : dot_S5000x8_S8x1_S5000x1_1_0_0_1_n_n.contr.Idx) : (dot_S5000x8_S8x1_S5000x1_1_0_0_1_n_n.lhsIdx i q 0).val = (i 0).val := by
  unfold DotDims.lhsIdx
  rw [dif_neg (show ¬(0 : Fin S5000x8.rank) ∈ dot_S5000x8_S8x1_S5000x1_1_0_0_1_n_n.lhsBatch by decide), dif_pos (show (0 : Fin S5000x8.rank) ∈ dot_S5000x8_S8x1_S5000x1_1_0_0_1_n_n.lhsNonContracting by decide)]
  rfl
theorem mm8_lhs1 (i : S5000x1.Idx) (q : dot_S5000x8_S8x1_S5000x1_1_0_0_1_n_n.contr.Idx) : (dot_S5000x8_S8x1_S5000x1_1_0_0_1_n_n.lhsIdx i q 1).val = (q ⟨0, by decide⟩).val :=
  dot_S5000x8_S8x1_S5000x1_1_0_0_1_n_n.lhsIdx_val_of_single rfl i q
theorem mm8_rhs0 (i : S5000x1.Idx) (q : dot_S5000x8_S8x1_S5000x1_1_0_0_1_n_n.contr.Idx) : (dot_S5000x8_S8x1_S5000x1_1_0_0_1_n_n.rhsIdx i q 0).val = (q ⟨0, by decide⟩).val :=
  dot_S5000x8_S8x1_S5000x1_1_0_0_1_n_n.rhsIdx_val_of_single rfl i q
theorem mm8_rhs1 (i : S5000x1.Idx) (q : dot_S5000x8_S8x1_S5000x1_1_0_0_1_n_n.contr.Idx) : (dot_S5000x8_S8x1_S5000x1_1_0_0_1_n_n.rhsIdx i q 1).val = (i 1).val := by
  unfold DotDims.rhsIdx
  rw [dif_neg (show ¬(1 : Fin S8x1.rank) ∈ dot_S5000x8_S8x1_S5000x1_1_0_0_1_n_n.rhsBatch by decide), dif_pos (show (1 : Fin S8x1.rank) ∈ dot_S5000x8_S8x1_S5000x1_1_0_0_1_n_n.rhsNonContracting by decide)]
  rfl

/-- A product into the zero accumulator, entry `(p, j)`: the sum over the contracted coordinate. -/
theorem mm8_apply (a : FVec Ideal S5000x8 .bf16) (b : FVec Ideal S8x1 .bf16) (p : Fin 5000) (j : Fin 1) :
    matmul dot_S5000x8_S8x1_S5000x1_1_0_0_1_n_n none a b (constant S5000x1 .f32 0x00000000#32) (ix2 p j)
      = ∑ k : Fin 8, a (ix2 p k) * b (ix2 k j) := by
  simp only [matmul]
  rw [Ideal.matmul_constant_zero_apply, ← Equiv.sum_comp (contrEquiv1 dot_S5000x8_S8x1_S5000x1_1_0_0_1_n_n 8 rfl rfl).symm]
  refine Finset.sum_congr rfl fun k _ => ?_
  have hk := contrEquiv1_symm_val dot_S5000x8_S8x1_S5000x1_1_0_0_1_n_n 8 rfl rfl k
  have el : dot_S5000x8_S8x1_S5000x1_1_0_0_1_n_n.lhsIdx (ix2 p j) ((contrEquiv1 dot_S5000x8_S8x1_S5000x1_1_0_0_1_n_n 8 rfl rfl).symm k) = ix2 p k := funext fun a => Fin.ext (by
    match a with
    | ⟨0, _⟩ => exact mm8_lhs0 _ _
    | ⟨1, _⟩ => exact (mm8_lhs1 _ _).trans hk)
  have er : dot_S5000x8_S8x1_S5000x1_1_0_0_1_n_n.rhsIdx (ix2 p j) ((contrEquiv1 dot_S5000x8_S8x1_S5000x1_1_0_0_1_n_n 8 rfl rfl).symm k) = ix2 k j := funext fun a => Fin.ext (by
    match a with
    | ⟨0, _⟩ => exact (mm8_rhs0 _ _).trans hk
    | ⟨1, _⟩ => exact mm8_rhs1 _ _)
  rw [el, er]

/-! ## Pointwise operations the index lemmas of the library do not list -/

theorem rsqrt_apply {s : Shape} {φ : FTy} (a : FVec Ideal s φ) (i : s.Idx) : rsqrt a i = Ideal.rsqrt (a i) := rfl
theorem tanh_apply {s : Shape} {φ : FTy} (a : FVec Ideal s φ) (i : s.Idx) : tanh a i = Ideal.tanh (a i) := rfl
theorem logistic_apply {s : Shape} {φ : FTy} (a : FVec Ideal s φ) (i : s.Idx) : logistic a i = Ideal.logistic (a i) := rfl

/-! ## The three column blocks of a gate's pre-activations -/

theorem sliceI (X : FVec Ideal S5000x256 .f32) (p : Fin 5000) (c : Fin 64) :
    extractStridedSlice S5000x64 ![0, 0] X slices_S5000x256_o0_0_S5000x64 (ix2 p c) = X (ix2 p (Cert.Spec.cI c)) :=
  slice2_axis1_apply 0 X _ p c _ (Nat.zero_add _).symm
theorem sliceG (X : FVec Ideal S5000x256 .f32) (p : Fin 5000) (c : Fin 64) :
    extractStridedSlice S5000x64 ![0, 128] X slices_S5000x256_o0_128_S5000x64 (ix2 p c) = X (ix2 p (Cert.Spec.cG c)) :=
  slice2_axis1_apply 128 X _ p c _ rfl
theorem sliceO (X : FVec Ideal S5000x256 .f32) (p : Fin 5000) (c : Fin 64) :
    extractStridedSlice S5000x64 ![0, 192] X slices_S5000x256_o0_192_S5000x64 (ix2 p c) = X (ix2 p (Cert.Spec.cO c)) :=
  slice2_axis1_apply 192 X _ p c _ rfl

/-! ## The payloads at an entry -/

/-- The second layer's activation of a block: bias, rectifier, normalisation, entry `(p, k)`. -/
theorem pay2_apply (v0 : Vec Ideal S5000x64 .f32) (v2 v8 v13 v19 v23 : Vec Ideal S1x64 .f32) (p : Fin 5000) (k : Fin 64) :
    k2_pay2 v0 v2 v8 v13 v19 v23 (ix2 p k)
      = Cert.Spec.bnRelu (v0 (ix2 p k)) (v2 (ix2 0 k)) (v13 (ix2 0 k)) (v8 (ix2 0 k)) (v19 (ix2 0 k)) (v23 (ix2 0 k)) := by
  unfold k2_pay2
  simp only [shapeCast_self, truncf_apply, addf_apply, mulf_apply, subf_apply, maximumf_apply, broadcast_apply, broadcastTo_1b_ab_apply, rsqrt_apply]
  rfl

/-- The lower weight rows pass through unchanged. -/
theorem pay3_apply (v34 : Vec Ideal S64x256 .f32) (i : S64x256.Idx) : k2_pay3 v34 i = v34 i := by
  unfold k2_pay3
  simp only [shapeCast_self, truncf_apply]

/-- The first layer's activation against the upper weight rows, entry `(p, j)`. -/
theorem pay4_apply (v27 : Vec Ideal S5000x64 .f32) (v31 : Vec Ideal S64x256 .f32) (p : Fin 5000) (j : Fin 256) :
    k2_pay4 v27 v31 (ix2 p j) = ∑ k : Fin 64, v27 (ix2 p k) * v31 (ix2 k j) := by
  unfold k2_pay4
  simp only [shapeCast_self]
  exact mm256_apply _ _ p j

/-- The first cell's pre-activation `j` of a block's row `p`, from the values its payload reads. -/
def pre1B (v30 : FVec Ideal S5000x64 .bf16) (v36 : FVec Ideal S64x256 .bf16) (v37 : FVec Ideal S5000x256 .f32)
    (v40 v44 : Vec Ideal S1x256 .f32) (p : Fin 5000) (j : Fin 256) : EReal :=
  v37 (ix2 p j) + (∑ k : Fin 64, v30 (ix2 p k) * v36 (ix2 k j)) + v40 (ix2 0 j) + v44 (ix2 0 j)

/-- The first cell, entry `(p, c)`. -/
theorem pay5_apply (v30 : FVec Ideal S5000x64 .bf16) (v36 : FVec Ideal S64x256 .bf16) (v37 : FVec Ideal S5000x256 .f32)
    (v40 v44 : Vec Ideal S1x256 .f32) (p : Fin 5000) (c : Fin 64) :
    k2_pay5 v30 v36 v37 v40 v44 (ix2 p c)
      = Cert.Spec.cell (pre1B v30 v36 v37 v40 v44 p (Cert.Spec.cI c)) (pre1B v30 v36 v37 v40 v44 p (Cert.Spec.cG c))
          (pre1B v30 v36 v37 v40 v44 p (Cert.Spec.cO c)) := by
  unfold k2_pay5
  simp only [shapeCast_self, mulf_apply, logistic_apply, tanh_apply, sliceI, sliceG, sliceO, addf_apply, broadcastTo_1b_ab_apply, mm256_apply]
  rfl

/-- The second cell's pre-activation `j` of a block's row `p`, from the first cell's outputs `l`. -/
def pre2B (l : FVec Ideal S5000x64 .f32) (v58 : Vec Ideal S64x256 .f32) (v62 v66 : Vec Ideal S1x256 .f32)
    (p : Fin 5000) (j : Fin 256) : EReal :=
  (∑ k : Fin 64, l (ix2 p k) * v58 (ix2 k j)) + v62 (ix2 0 j) + v66 (ix2 0 j)

/-- The second cell, entry `(p, c)`. -/
theorem pay6_apply (v30 : FVec Ideal S5000x64 .bf16) (v36 : FVec Ideal S64x256 .bf16) (v37 : FVec Ideal S5000x256 .f32)
    (v40 v44 : Vec Ideal S1x256 .f32) (v58 : Vec Ideal S64x256 .f32) (v62 v66 : Vec Ideal S1x256 .f32) (p : Fin 5000) (c : Fin 64) :
    k2_pay6 v30 v36 v37 v40 v44 v58 v62 v66 (ix2 p c)
      = Cert.Spec.cell (pre2B (k2_pay5 v30 v36 v37 v40 v44) v58 v62 v66 p (Cert.Spec.cI c))
          (pre2B (k2_pay5 v30 v36 v37 v40 v44) v58 v62 v66 p (Cert.Spec.cG c))
          (pre2B (k2_pay5 v30 v36 v37 v40 v44) v58 v62 v66 p (Cert.Spec.cO c)) := by
  unfold k2_pay6
  generalize k2_pay5 v30 v36 v37 v40 v44 = l
  simp only [shapeCast_self, mulf_apply, logistic_apply, tanh_apply, sliceI, sliceG, sliceO, addf_apply, broadcastTo_1b_ab_apply, mm256_apply]
  rfl

/-- The rectified first cell, entry `(p, c)`. -/
theorem pay7_apply (v30 : FVec Ideal S5000x64 .bf16) (v36 : FVec Ideal S64x256 .bf16) (v37 : FVec Ideal S5000x256 .f32)
    (v40 v44 : Vec Ideal S1x256 .f32) (i : S5000x64.Idx) :
    k2_pay7 v30 v36 v37 v40 v44 i = max (k2_pay5 v30 v36 v37 v40 v44 i) Cert.Spec.zeroW := by
  unfold k2_pay7
  rfl

/-- The read-out of a block's row `p`: three products added in the body's order, then the bias. -/
theorem pay1_apply (v78 : FVec Ideal S5000x64 .f32) (v79 : Vec Ideal S5000x8 .f32) (v81 : FVec Ideal S5000x64 .f32)
    (v89 v91 : Vec Ideal S64x1 .f32) (v93 : Vec Ideal S8x1 .f32) (v100 : Vec Ideal S1x1 .f32) (p : Fin 5000) :
    k2_pay1 v78 v79 v81 (Scalar.ofBits .f32 0x00000000#32) v89 v91 v93 v100 (ix2 p (0 : Fin 1))
      = (∑ k : Fin 64, v81 (ix2 p k) * v89 (ix2 k 0)) + (∑ k : Fin 64, max (v78 (ix2 p k)) Cert.Spec.zeroW * v91 (ix2 k 0))
          + (∑ k : Fin 8, max (v79 (ix2 p k)) Cert.Spec.zeroW * v93 (ix2 k 0)) + v100 (ix2 0 0) := by
  unfold k2_pay1
  simp only [shapeCast_self, addf_apply, broadcastTo_1b_ab_apply, mm1_apply, mm8_apply, truncf_apply, maximumf_apply, broadcast_apply]
  rfl

/-! ## The body at a row of a block -/

/-- THE BODY AT A ROW. Let the loaded blocks agree with the whole arrays at row `r` of the array for row `p` of the block
    (node arrays), at the shifted rows (the row blocks of the taller weight matrices), and everywhere (the parameter rows).
    Then the value the body stores at row `p` is `Cert.Spec.finalAt` of the whole arrays at row `r`. -/
theorem body_apply
    (A0 A1 : Vec Ideal S5000x64 .f32) (X2 : Vec Ideal S5000x8 .f32) (B3 B4 B5 B6 B7 : Vec Ideal S1x64 .f32)
    (W8u W8d : Vec Ideal S64x256 .f32) (C9 C10 : Vec Ideal S1x256 .f32) (W11 : Vec Ideal S64x256 .f32)
    (C12 C13 : Vec Ideal S1x256 .f32) (L14a L14b : Vec Ideal S64x1 .f32) (L14c : Vec Ideal S8x1 .f32) (L15 : Vec Ideal S1x1 .f32)
    (hh1 agg2 : Cert.Spec.Arr 100000 64) (x : Cert.Spec.Arr 100000 8) (b2 g2 be2 mean2 var2 : Cert.Spec.Arr 1 64)
    (w1t : Cert.Spec.Arr 128 256) (bi1 bh1 : Cert.Spec.Arr 1 256) (w2t : Cert.Spec.Arr 64 256) (bi2 bh2 : Cert.Spec.Arr 1 256)
    (wl : Cert.Spec.Arr 136 1) (bl : Cert.Spec.Arr 1 1) (r : Fin 100000) (p : Fin 5000)
    (hA0 : ∀ k : Fin 64, A0 (ix2 p k) = hh1 (ix2 r k)) (hA1 : ∀ k : Fin 64, A1 (ix2 p k) = agg2 (ix2 r k))
    (hX2 : ∀ k : Fin 8, X2 (ix2 p k) = x (ix2 r k))
    (hB3 : ∀ k : Fin 64, B3 (ix2 0 k) = b2 (ix2 0 k)) (hB4 : ∀ k : Fin 64, B4 (ix2 0 k) = g2 (ix2 0 k))
    (hB5 : ∀ k : Fin 64, B5 (ix2 0 k) = be2 (ix2 0 k)) (hB6 : ∀ k : Fin 64, B6 (ix2 0 k) = mean2 (ix2 0 k))
    (hB7 : ∀ k : Fin 64, B7 (ix2 0 k) = var2 (ix2 0 k))
    (hW8u : ∀ (k : Fin 64) (j : Fin 256), W8u (ix2 k j) = w1t (ix2 (Cert.Spec.up k) j))
    (hW8d : ∀ (k : Fin 64) (j : Fin 256), W8d (ix2 k j) = w1t (ix2 (Cert.Spec.dn k) j))
    (hC9 : ∀ j : Fin 256, C9 (ix2 0 j) = bi1 (ix2 0 j)) (hC10 : ∀ j : Fin 256, C10 (ix2 0 j) = bh1 (ix2 0 j))
    (hW11 : ∀ (k : Fin 64) (j : Fin 256), W11 (ix2 k j) = w2t (ix2 k j))
    (hC12 : ∀ j : Fin 256, C12 (ix2 0 j) = bi2 (ix2 0 j)) (hC13 : ∀ j : Fin 256, C13 (ix2 0 j) = bh2 (ix2 0 j))
    (hL14a : ∀ k : Fin 64, L14a (ix2 k 0) = wl (ix2 (Cert.Spec.ro0 k) 0))
    (hL14b : ∀ k : Fin 64, L14b (ix2 k 0) = wl (ix2 (Cert.Spec.ro1 k) 0))
    (hL14c : ∀ k : Fin 8, L14c (ix2 k 0) = wl (ix2 (Cert.Spec.ro2 k) 0))
    (hL15 : L15 (ix2 0 0) = bl (ix2 0 0)) :
    k2_pay1 (k2_pay6 (k2_pay2 A1 B3 B7 B6 B4 B5) (k2_pay3 W8d) (k2_pay4 A0 W8u) C9 C10 W11 C12 C13) X2
        (k2_pay7 (k2_pay2 A1 B3 B7 B6 B4 B5) (k2_pay3 W8d) (k2_pay4 A0 W8u) C9 C10) (Scalar.ofBits .f32 0x00000000#32)
        L14a L14b L14c L15 (ix2 p (0 : Fin 1))
      = Cert.Spec.finalAt hh1 agg2 x b2 g2 be2 mean2 var2 w1t bi1 bh1 w2t bi2 bh2 wl bl r := by
  have e2 : ∀ k : Fin 64, k2_pay2 A1 B3 B7 B6 B4 B5 (ix2 p k) = Cert.Spec.actAt agg2 b2 g2 be2 mean2 var2 r k := fun k => by
    rw [pay2_apply, hA1, hB3, hB4, hB5, hB6, hB7]; rfl
  have e1 : ∀ j : Fin 256, pre1B (k2_pay2 A1 B3 B7 B6 B4 B5) (k2_pay3 W8d) (k2_pay4 A0 W8u) C9 C10 p j
      = Cert.Spec.pre1At hh1 (Cert.Spec.actAt agg2 b2 g2 be2 mean2 var2) w1t bi1 bh1 r j := fun j => by
    unfold pre1B Cert.Spec.pre1At
    rw [pay4_apply, hC9, hC10]
    simp only [e2, pay3_apply, hA0, hW8u, hW8d]
  have e5 : ∀ c : Fin 64, k2_pay5 (k2_pay2 A1 B3 B7 B6 B4 B5) (k2_pay3 W8d) (k2_pay4 A0 W8u) C9 C10 (ix2 p c)
      = Cert.Spec.lh1At hh1 (Cert.Spec.actAt agg2 b2 g2 be2 mean2 var2) w1t bi1 bh1 r c := fun c => by
    rw [pay5_apply, e1, e1, e1]; rfl
  have e6 : ∀ c : Fin 64, k2_pay6 (k2_pay2 A1 B3 B7 B6 B4 B5) (k2_pay3 W8d) (k2_pay4 A0 W8u) C9 C10 W11 C12 C13 (ix2 p c)
      = Cert.Spec.lh2At (Cert.Spec.lh1At hh1 (Cert.Spec.actAt agg2 b2 g2 be2 mean2 var2) w1t bi1 bh1) w2t bi2 bh2 r c := fun c => by
    have q : ∀ j : Fin 256, pre2B (k2_pay5 (k2_pay2 A1 B3 B7 B6 B4 B5) (k2_pay3 W8d) (k2_pay4 A0 W8u) C9 C10) W11 C12 C13 p j
        = Cert.Spec.pre2At (Cert.Spec.lh1At hh1 (Cert.Spec.actAt agg2 b2 g2 be2 mean2 var2) w1t bi1 bh1) w2t bi2 bh2 r j := fun j => by
      unfold pre2B Cert.Spec.pre2At
      rw [hC12, hC13]
      simp only [e5, hW11]
    rw [pay6_apply, q, q, q]; rfl
  rw [pay1_apply]
  unfold Cert.Spec.finalAt Cert.Spec.outAt
  rw [hL15]
  simp only [pay7_apply, e5, e6, hX2, hL14a, hL14b, hL14c]

end Cert.KernelIdeal.Region2

end
-- ==== Proof.Region2.lean ====
/-
  The last stage as one function of the arrays it reads.

  The stage runs over 20 row blocks of 5000 rows. At block `t` its body stores, at row `p` of the output block, the
  read-out of row `t * 5000 + p` of the whole arrays (`body_apply`); the 20 output blocks tile the result's 100000 rows,
  so the result array is `Cert.Spec.final` of the arrays the stage reads.
-/
import proofs.«159935_j82514911690903_1_alg».proof.Proof.Region2Pay

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a rank-2 rectangle are the constant function `0`. -/
theorem hz : (![0, 0] : Fin 2 → Nat) = fun _ => 0 := funext fun a => by fin_cases a <;> rfl

/-- The function the result array is claimed to be. -/
abbrev G (c : Dev nD) : Cert.Spec.Arr 100000 1 :=
  Cert.Spec.final (V c main_v51_0) (V c main_v68) (V c main_arg0) (V c main_v71) (V c main_v72) (V c main_v73) (V c main_v74) (V c main_v75) (V c main_v69) (V c main_v76) (V c main_v77) (V c main_v70) (V c main_v78) (V c main_v79) (V c main_arg21) (V c main_v80)

/-! ## The printed index maps, decided over the 20 grid points

The three node windows and the output window are at row block `t`, column block `0`; every parameter window stays
at block `(0, 0)`. -/

theorem idx0 : ∀ t : Fin cfg2.N, win2_0.index t (0 : Fin 2) = t.val ∧ win2_0.index t (1 : Fin 2) = 0 :=
  (by decide +kernel : ∀ t : Fin grid2.N, _)
theorem idx1 : ∀ t : Fin cfg2.N, win2_1.index t (0 : Fin 2) = t.val ∧ win2_1.index t (1 : Fin 2) = 0 :=
  (by decide +kernel : ∀ t : Fin grid2.N, _)
theorem idx2 : ∀ t : Fin cfg2.N, win2_2.index t (0 : Fin 2) = t.val ∧ win2_2.index t (1 : Fin 2) = 0 :=
  (by decide +kernel : ∀ t : Fin grid2.N, _)
theorem idx3 : ∀ t : Fin cfg2.N, win2_3.index t (0 : Fin 2) = 0 ∧ win2_3.index t (1 : Fin 2) = 0 :=
  (by decide +kernel : ∀ t : Fin grid2.N, _)
theorem idx4 : ∀ t : Fin cfg2.N, win2_4.index t (0 : Fin 2) = 0 ∧ win2_4.index t (1 : Fin 2) = 0 :=
  (by decide +kernel : ∀ t : Fin grid2.N, _)
theorem idx5 : ∀ t : Fin cfg2.N, win2_5.index t (0 : Fin 2) = 0 ∧ win2_5.index t (1 : Fin 2) = 0 :=
  (by decide +kernel : ∀ t : Fin grid2.N, _)
theorem idx6 : ∀ t : Fin cfg2.N, win2_6.index t (0 : Fin 2) = 0 ∧ win2_6.index t (1 : Fin 2) = 0 :=
  (by decide +kernel : ∀ t : Fin grid2.N, _)
theorem idx7 : ∀ t : Fin cfg2.N, win2_7.index t (0 : Fin 2) = 0 ∧ win2_7.index t (1 : Fin 2) = 0 :=
  (by decide +kernel : ∀ t : Fin grid2.N, _)
theorem idx8 : ∀ t : Fin cfg2.N, win2_8.index t (0 : Fin 2) = 0 ∧ win2_8.index t (1 : Fin 2) = 0 :=
  (by decide +kernel : ∀ t : Fin grid2.N, _)
theorem idx9 : ∀ t : Fin cfg2.N, win2_9.index t (0 : Fin 2) = 0 ∧ win2_9.index t (1 : Fin 2) = 0 :=
  (by decide +kernel : ∀ t : Fin grid2.N, _)
theorem idx10 : ∀ t : Fin cfg2.N, win2_10.index t (0 : Fin 2) = 0 ∧ win2_10.index t (1 : Fin 2) = 0 :=
  (by decide +kernel : ∀ t : Fin grid2.N, _)
theorem idx11 : ∀ t : Fin cfg2.N, win2_11.index t (0 : Fin 2) = 0 ∧ win2_11.index t (1 : Fin 2) = 0 :=
  (by decide +kernel : ∀ t : Fin grid2.N, _)
theorem idx12 : ∀ t : Fin cfg2.N, win2_12.index t (0 : Fin 2) = 0 ∧ win2_12.index t (1 : Fin 2) = 0 :=
  (by decide +kernel : ∀ t : Fin grid2.N, _)
theorem idx13 : ∀ t : Fin cfg2.N, win2_13.index t (0 : Fin 2) = 0 ∧ win2_13.index t (1 : Fin 2) = 0 :=
  (by decide +kernel : ∀ t : Fin grid2.N, _)
theorem idx14 : ∀ t : Fin cfg2.N, win2_14.index t (0 : Fin 2) = 0 ∧ win2_14.index t (1 : Fin 2) = 0 :=
  (by decide +kernel : ∀ t : Fin grid2.N, _)
theorem idx15 : ∀ t : Fin cfg2.N, win2_15.index t (0 : Fin 2) = 0 ∧ win2_15.index t (1 : Fin 2) = 0 :=
  (by decide +kernel : ∀ t : Fin grid2.N, _)
theorem idx16 : ∀ t : Fin cfg2.N, win2_16.index t (0 : Fin 2) = t.val ∧ win2_16.index t (1 : Fin 2) = 0 :=
  (by decide +kernel : ∀ t : Fin grid2.N, _)

/-! ## Each loaded block read where the whole array has it

A block's coordinate in the array is the block index times the block size plus the coordinate inside the block, and a
load through a rectangle of the block shifts by the rectangle's offset. -/

/-- Row `p` of block `t` of the first layer's activation is row `t * 5000 + p` of the array. -/
theorem ld_h1 (c : Dev nD) (t : Fin cfg2.N) (p : Fin 5000) (k : Fin 64) (r : Fin 100000) (hr : r.val = t.val * 5000 + p.val) :
    View.ld (iblk2 V c 0 t) r2_0 (ix2 p k) = V c main_v51_0 (ix2 r k) := by
  obtain ⟨ir, ic⟩ := idx0 t
  show V c main_v51_0 (((cfg2.win 0).blk t).view.emb (r2_0.idx (ix2 p k))) = _
  refine congrArg _ (funext fun a => Fin.ext ?_)
  match a with
  | ⟨0, _⟩ =>
    show win2_0.index t (0 : Fin 2) * 5000 + 1 * (0 + 1 * p.val) = r.val; omega
  | ⟨1, _⟩ =>
    show win2_0.index t (1 : Fin 2) * 64 + 1 * (0 + 1 * k.val) = k.val; omega
/-- The same for the second aggregation. -/
theorem ld_agg2 (c : Dev nD) (t : Fin cfg2.N) (p : Fin 5000) (k : Fin 64) (r : Fin 100000) (hr : r.val = t.val * 5000 + p.val) :
    View.ld (iblk2 V c 1 t) r2_0 (ix2 p k) = V c main_v68 (ix2 r k) := by
  obtain ⟨ir, ic⟩ := idx1 t
  show V c main_v68 (((cfg2.win 1).blk t).view.emb (r2_0.idx (ix2 p k))) = _
  refine congrArg _ (funext fun a => Fin.ext ?_)
  match a with
  | ⟨0, _⟩ =>
    show win2_1.index t (0 : Fin 2) * 5000 + 1 * (0 + 1 * p.val) = r.val; omega
  | ⟨1, _⟩ =>
    show win2_1.index t (1 : Fin 2) * 64 + 1 * (0 + 1 * k.val) = k.val; omega
/-- The same for the input features. -/
theorem ld_x (c : Dev nD) (t : Fin cfg2.N) (p : Fin 5000) (k : Fin 8) (r : Fin 100000) (hr : r.val = t.val * 5000 + p.val) :
    View.ld (iblk2 V c 2 t) r2_6 (ix2 p k) = V c main_arg0 (ix2 r k) := by
  obtain ⟨ir, ic⟩ := idx2 t
  show V c main_arg0 (((cfg2.win 2).blk t).view.emb (r2_6.idx (ix2 p k))) = _
  refine congrArg _ (funext fun a => Fin.ext ?_)
  match a with
  | ⟨0, _⟩ =>
    show win2_2.index t (0 : Fin 2) * 5000 + 1 * (0 + 1 * p.val) = r.val; omega
  | ⟨1, _⟩ =>
    show win2_2.index t (1 : Fin 2) * 8 + 1 * (0 + 1 * k.val) = k.val; omega
/-- The second normalisation's bias row is read whole at every point. -/
theorem ld_b2 (c : Dev nD) (t : Fin cfg2.N) (k : Fin 64) :
    View.ld (iblk2 V c 3 t) r2_1 (ix2 (0 : Fin 1) k) = V c main_v71 (ix2 (0 : Fin 1) k) := by
  obtain ⟨ir, ic⟩ := idx3 t
  show V c main_v71 (((cfg2.win 3).blk t).view.emb (r2_1.idx (ix2 (0 : Fin 1) k))) = _
  refine congrArg _ (funext fun a => Fin.ext ?_)
  match a with
  | ⟨0, _⟩ =>
    show win2_3.index t (0 : Fin 2) * 1 + 1 * (0 + 1 * (0 : Fin 1).val) = (0 : Fin 1).val; omega
  | ⟨1, _⟩ =>
    show win2_3.index t (1 : Fin 2) * 64 + 1 * (0 + 1 * k.val) = k.val; omega
/-- The second normalisation's scale row is read whole at every point. -/
theorem ld_g2 (c : Dev nD) (t : Fin cfg2.N) (k : Fin 64) :
    View.ld (iblk2 V c 4 t) r2_1 (ix2 (0 : Fin 1) k) = V c main_v72 (ix2 (0 : Fin 1) k) := by
  obtain ⟨ir, ic⟩ := idx4 t
  show V c main_v72 (((cfg2.win 4).blk t).view.emb (r2_1.idx (ix2 (0 : Fin 1) k))) = _
  refine congrArg _ (funext fun a => Fin.ext ?_)
  match a with
  | ⟨0, _⟩ =>
    show win2_4.index t (0 : Fin 2) * 1 + 1 * (0 + 1 * (0 : Fin 1).val) = (0 : Fin 1).val; omega
  | ⟨1, _⟩ =>
    show win2_4.index t (1 : Fin 2) * 64 + 1 * (0 + 1 * k.val) = k.val; omega
/-- The second normalisation's shift row is read whole at every point. -/
theorem ld_be2 (c : Dev nD) (t : Fin cfg2.N) (k : Fin 64) :
    View.ld (iblk2 V c 5 t) r2_1 (ix2 (0 : Fin 1) k) = V c main_v73 (ix2 (0 : Fin 1) k) := by
  obtain ⟨ir, ic⟩ := idx5 t
  show V c main_v73 (((cfg2.win 5).blk t).view.emb (r2_1.idx (ix2 (0 : Fin 1) k))) = _
  refine congrArg _ (funext fun a => Fin.ext ?_)
  match a with
  | ⟨0, _⟩ =>
    show win2_5.index t (0 : Fin 2) * 1 + 1 * (0 + 1 * (0 : Fin 1).val) = (0 : Fin 1).val; omega
  | ⟨1, _⟩ =>
    show win2_5.index t (1 : Fin 2) * 64 + 1 * (0 + 1 * k.val) = k.val; omega
/-- The second normalisation's mean row is read whole at every point. -/
theorem ld_mean2 (c : Dev nD) (t : Fin cfg2.N) (k : Fin 64) :
    View.ld (iblk2 V c 6 t) r2_1 (ix2 (0 : Fin 1) k) = V c main_v74 (ix2 (0 : Fin 1) k) := by
  obtain ⟨ir, ic⟩ := idx6 t
  show V c main_v74 (((cfg2.win 6).blk t).view.emb (r2_1.idx (ix2 (0 : Fin 1) k))) = _
  refine congrArg _ (funext fun a => Fin.ext ?_)
  match a with
  | ⟨0, _⟩ =>
    show win2_6.index t (0 : Fin 2) * 1 + 1 * (0 + 1 * (0 : Fin 1).val) = (0 : Fin 1).val; omega
  | ⟨1, _⟩ =>
    show win2_6.index t (1 : Fin 2) * 64 + 1 * (0 + 1 * k.val) = k.val; omega
/-- The second normalisation's variance row is read whole at every point. -/
theorem ld_var2 (c : Dev nD) (t : Fin cfg2.N) (k : Fin 64) :
    View.ld (iblk2 V c 7 t) r2_1 (ix2 (0 : Fin 1) k) = V c main_v75 (ix2 (0 : Fin 1) k) := by
  obtain ⟨ir, ic⟩ := idx7 t
  show V c main_v75 (((cfg2.win 7).blk t).view.emb (r2_1.idx (ix2 (0 : Fin 1) k))) = _
  refine congrArg _ (funext fun a => Fin.ext ?_)
  match a with
  | ⟨0, _⟩ =>
    show win2_7.index t (0 : Fin 2) * 1 + 1 * (0 + 1 * (0 : Fin 1).val) = (0 : Fin 1).val; omega
  | ⟨1, _⟩ =>
    show win2_7.index t (1 : Fin 2) * 64 + 1 * (0 + 1 * k.val) = k.val; omega
/-- The rectangle at row 0 of the first cell's weight reads rows `0..63`. -/
theorem ld_w1_up (c : Dev nD) (t : Fin cfg2.N) (k : Fin 64) (j : Fin 256) :
    View.ld (iblk2 V c 8 t) r2_2 (ix2 k j) = V c main_v69 (ix2 (Cert.Spec.up k) j) := by
  obtain ⟨ir, ic⟩ := idx8 t
  show V c main_v69 (((cfg2.win 8).blk t).view.emb (r2_2.idx (ix2 k j))) = _
  refine congrArg _ (funext fun a => Fin.ext ?_)
  match a with
  | ⟨0, _⟩ =>
    show win2_8.index t (0 : Fin 2) * 128 + 1 * (0 + 1 * k.val) = k.val; omega
  | ⟨1, _⟩ =>
    show win2_8.index t (1 : Fin 2) * 256 + 1 * (0 + 1 * j.val) = j.val; omega
/-- The rectangle at row 64 of the first cell's weight reads rows `64..127`. -/
theorem ld_w1_dn (c : Dev nD) (t : Fin cfg2.N) (k : Fin 64) (j : Fin 256) :
    View.ld (iblk2 V c 8 t) r2_3 (ix2 k j) = V c main_v69 (ix2 (Cert.Spec.dn k) j) := by
  obtain ⟨ir, ic⟩ := idx8 t
  show V c main_v69 (((cfg2.win 8).blk t).view.emb (r2_3.idx (ix2 k j))) = _
  refine congrArg _ (funext fun a => Fin.ext ?_)
  match a with
  | ⟨0, _⟩ =>
    show win2_8.index t (0 : Fin 2) * 128 + 1 * ((![64, 0] : Fin 2 → Nat) 0 + 1 * k.val) = 64 + k.val
    simp only [Matrix.cons_val_zero]
    omega
  | ⟨1, _⟩ =>
    show win2_8.index t (1 : Fin 2) * 256 + 1 * (0 + 1 * j.val) = j.val; omega
/-- The first cell's bias rows are read whole. -/
theorem ld_bi1 (c : Dev nD) (t : Fin cfg2.N) (j : Fin 256) :
    View.ld (iblk2 V c 9 t) r2_4 (ix2 (0 : Fin 1) j) = V c main_v76 (ix2 (0 : Fin 1) j) := by
  obtain ⟨ir, ic⟩ := idx9 t
  show V c main_v76 (((cfg2.win 9).blk t).view.emb (r2_4.idx (ix2 (0 : Fin 1) j))) = _
  refine congrArg _ (funext fun a => Fin.ext ?_)
  match a with
  | ⟨0, _⟩ =>
    show win2_9.index t (0 : Fin 2) * 1 + 1 * (0 + 1 * (0 : Fin 1).val) = (0 : Fin 1).val; omega
  | ⟨1, _⟩ =>
    show win2_9.index t (1 : Fin 2) * 256 + 1 * (0 + 1 * j.val) = j.val; omega
theorem ld_bh1 (c : Dev nD) (t : Fin cfg2.N) (j : Fin 256) :
    View.ld (iblk2 V c 10 t) r2_4 (ix2 (0 : Fin 1) j) = V c main_v77 (ix2 (0 : Fin 1) j) := by
  obtain ⟨ir, ic⟩ := idx10 t
  show V c main_v77 (((cfg2.win 10).blk t).view.emb (r2_4.idx (ix2 (0 : Fin 1) j))) = _
  refine congrArg _ (funext fun a => Fin.ext ?_)
  match a with
  | ⟨0, _⟩ =>
    show win2_10.index t (0 : Fin 2) * 1 + 1 * (0 + 1 * (0 : Fin 1).val) = (0 : Fin 1).val; omega
  | ⟨1, _⟩ =>
    show win2_10.index t (1 : Fin 2) * 256 + 1 * (0 + 1 * j.val) = j.val; omega
/-- The second cell's weight is read whole. -/
theorem ld_w2 (c : Dev nD) (t : Fin cfg2.N) (k : Fin 64) (j : Fin 256) :
    View.ld (iblk2 V c 11 t) r2_5 (ix2 k j) = V c main_v70 (ix2 k j) := by
  obtain ⟨ir, ic⟩ := idx11 t
  show V c main_v70 (((cfg2.win 11).blk t).view.emb (r2_5.idx (ix2 k j))) = _
  refine congrArg _ (funext fun a => Fin.ext ?_)
  match a with
  | ⟨0, _⟩ =>
    show win2_11.index t (0 : Fin 2) * 64 + 1 * (0 + 1 * k.val) = k.val; omega
  | ⟨1, _⟩ =>
    show win2_11.index t (1 : Fin 2) * 256 + 1 * (0 + 1 * j.val) = j.val; omega
/-- The second cell's bias rows are read whole. -/
theorem ld_bi2 (c : Dev nD) (t : Fin cfg2.N) (j : Fin 256) :
    View.ld (iblk2 V c 12 t) r2_4 (ix2 (0 : Fin 1) j) = V c main_v78 (ix2 (0 : Fin 1) j) := by
  obtain ⟨ir, ic⟩ := idx12 t
  show V c main_v78 (((cfg2.win 12).blk t).view.emb (r2_4.idx (ix2 (0 : Fin 1) j))) = _
  refine congrArg _ (funext fun a => Fin.ext ?_)
  match a with
  | ⟨0, _⟩ =>
    show win2_12.index t (0 : Fin 2) * 1 + 1 * (0 + 1 * (0 : Fin 1).val) = (0 : Fin 1).val; omega
  | ⟨1, _⟩ =>
    show win2_12.index t (1 : Fin 2) * 256 + 1 * (0 + 1 * j.val) = j.val; omega
theorem ld_bh2 (c : Dev nD) (t : Fin cfg2.N) (j : Fin 256) :
    View.ld (iblk2 V c 13 t) r2_4 (ix2 (0 : Fin 1) j) = V c main_v79 (ix2 (0 : Fin 1) j) := by
  obtain ⟨ir, ic⟩ := idx13 t
  show V c main_v79 (((cfg2.win 13).blk t).view.emb (r2_4.idx (ix2 (0 : Fin 1) j))) = _
  refine congrArg _ (funext fun a => Fin.ext ?_)
  match a with
  | ⟨0, _⟩ =>
    show win2_13.index t (0 : Fin 2) * 1 + 1 * (0 + 1 * (0 : Fin 1).val) = (0 : Fin 1).val; omega
  | ⟨1, _⟩ =>
    show win2_13.index t (1 : Fin 2) * 256 + 1 * (0 + 1 * j.val) = j.val; omega
/-- The read-out matrix's rectangle at row 0 reads rows `0..63`, -/
theorem ld_wl0 (c : Dev nD) (t : Fin cfg2.N) (k : Fin 64) :
    View.ld (iblk2 V c 14 t) r2_7 (ix2 k (0 : Fin 1)) = V c main_arg21 (ix2 (Cert.Spec.ro0 k) (0 : Fin 1)) := by
  obtain ⟨ir, ic⟩ := idx14 t
  show V c main_arg21 (((cfg2.win 14).blk t).view.emb (r2_7.idx (ix2 k (0 : Fin 1)))) = _
  refine congrArg _ (funext fun a => Fin.ext ?_)
  match a with
  | ⟨0, _⟩ =>
    show win2_14.index t (0 : Fin 2) * 136 + 1 * (0 + 1 * k.val) = k.val; omega
  | ⟨1, _⟩ =>
    show win2_14.index t (1 : Fin 2) * 1 + 1 * (0 + 1 * (0 : Fin 1).val) = (0 : Fin 1).val; omega
/-- the one at row 64 rows `64..127`, -/
theorem ld_wl1 (c : Dev nD) (t : Fin cfg2.N) (k : Fin 64) :
    View.ld (iblk2 V c 14 t) r2_8 (ix2 k (0 : Fin 1)) = V c main_arg21 (ix2 (Cert.Spec.ro1 k) (0 : Fin 1)) := by
  obtain ⟨ir, ic⟩ := idx14 t
  show V c main_arg21 (((cfg2.win 14).blk t).view.emb (r2_8.idx (ix2 k (0 : Fin 1)))) = _
  refine congrArg _ (funext fun a => Fin.ext ?_)
  match a with
  | ⟨0, _⟩ =>
    show win2_14.index t (0 : Fin 2) * 136 + 1 * ((![64, 0] : Fin 2 → Nat) 0 + 1 * k.val) = 64 + k.val
    simp only [Matrix.cons_val_zero]
    omega
  | ⟨1, _⟩ =>
    show win2_14.index t (1 : Fin 2) * 1 + 1 * (0 + 1 * (0 : Fin 1).val) = (0 : Fin 1).val; omega
/-- and the one at row 128 rows `128..135`. -/
theorem ld_wl2 (c : Dev nD) (t : Fin cfg2.N) (k : Fin 8) :
    View.ld (iblk2 V c 14 t) r2_9 (ix2 k (0 : Fin 1)) = V c main_arg21 (ix2 (Cert.Spec.ro2 k) (0 : Fin 1)) := by
  obtain ⟨ir, ic⟩ := idx14 t
  show V c main_arg21 (((cfg2.win 14).blk t).view.emb (r2_9.idx (ix2 k (0 : Fin 1)))) = _
  refine congrArg _ (funext fun a => Fin.ext ?_)
  match a with
  | ⟨0, _⟩ =>
    show win2_14.index t (0 : Fin 2) * 136 + 1 * ((![128, 0] : Fin 2 → Nat) 0 + 1 * k.val) = 128 + k.val
    simp only [Matrix.cons_val_zero]
    omega
  | ⟨1, _⟩ =>
    show win2_14.index t (1 : Fin 2) * 1 + 1 * (0 + 1 * (0 : Fin 1).val) = (0 : Fin 1).val; omega
/-- The read-out bias is read whole. -/
theorem ld_bl (c : Dev nD) (t : Fin cfg2.N)  :
    View.ld (iblk2 V c 15 t) r2_10 (ix2 (0 : Fin 1) (0 : Fin 1)) = V c main_v80 (ix2 (0 : Fin 1) (0 : Fin 1)) := by
  obtain ⟨ir, ic⟩ := idx15 t
  show V c main_v80 (((cfg2.win 15).blk t).view.emb (r2_10.idx (ix2 (0 : Fin 1) (0 : Fin 1)))) = _
  refine congrArg _ (funext fun a => Fin.ext ?_)
  match a with
  | ⟨0, _⟩ =>
    show win2_15.index t (0 : Fin 2) * 1 + 1 * (0 + 1 * (0 : Fin 1).val) = (0 : Fin 1).val; omega
  | ⟨1, _⟩ =>
    show win2_15.index t (1 : Fin 2) * 1 + 1 * (0 + 1 * (0 : Fin 1).val) = (0 : Fin 1).val; omega

/-! ## What a point writes back -/

/-- WHAT POINT `t` WRITES BACK is block `t` of `G`: row `p` of the block the body leaves is the read-out of row
    `t * 5000 + p` of the arrays the stage reads. -/
theorem wrote (c : Dev nD) (t : Fin cfg2.N) :
    (dat2 (F := Ideal) V c).flushed 16 t = ((cfg2.win 16).blk t).view.read (Elt Ideal) (G V c) := by
  show (cfg2.win 16).cut (grid2.coords t) ((dat2 V c).after 16 t) = _
  rw [after2_16]
  unfold out2_16
  rw [View.canon_unit_zero hz]
  funext j
  obtain ⟨p, q, rfl⟩ : ∃ (p : Fin 5000) (q : Fin 1), j = ix2 p q := ⟨j 0, j 1, eq_ix2 j⟩
  obtain rfl : q = 0 := Subsingleton.elim _ _
  obtain ⟨ir, ic⟩ := idx16 t
  have ht : t.val < 20 := t.isLt
  have hp : p.val < 5000 := p.isLt
  have hr : ((⟨t.val * 5000 + p.val, by omega⟩ : Fin 100000)).val = t.val * 5000 + p.val := rfl
  refine (body_apply _ _ _ _ _ _ _ _ _ _ _ _ _ _ _ _ _ _ _ _ _ _ _ _ _ _ _ _ _ _ _ _ _ _ _ _ _
    (fun k => ld_h1 V c t p k _ hr) (fun k => ld_agg2 V c t p k _ hr) (fun k => ld_x V c t p k _ hr)
    (ld_b2 V c t) (ld_g2 V c t) (ld_be2 V c t) (ld_mean2 V c t) (ld_var2 V c t) (ld_w1_up V c t) (ld_w1_dn V c t)
    (ld_bi1 V c t) (ld_bh1 V c t) (ld_w2 V c t) (ld_bi2 V c t) (ld_bh2 V c t) (ld_wl0 V c t) (ld_wl1 V c t) (ld_wl2 V c t)
    (ld_bl V c t)).trans ?_
  show Cert.Spec.finalAt _ _ _ _ _ _ _ _ _ _ _ _ _ _ _ _ _ = Cert.Spec.finalAt _ _ _ _ _ _ _ _ _ _ _ _ _ _ _ _ ((((cfg2.win 16).blk t).view.emb (ix2 p (0 : Fin 1))) 0)
  refine congrArg _ (Fin.ext ?_)
  show t.val * 5000 + p.val = win2_16.index t (0 : Fin 2) * 5000 + 1 * p.val
  omega

/-! ## The blocks tile the result -/

/-- An index of the result is in point `t`'s block iff each coordinate is in the block's range on its axis. -/
theorem mem_blk (t : Fin cfg2.N) (i : S100000x1.Idx) :
    i ∈ ((cfg2.win 16).blk t).view.set ↔ ∀ a : Fin 2, win2_16.index t a * S5000x1.size a ≤ (i a).val ∧ (i a).val < win2_16.index t a * S5000x1.size a + S5000x1.size a := by
  show i ∈ ((View.whole main_v81).slice (win2_16.rect t)).set ↔ _
  rw [View.set_slice_whole, Rect.mem_set_unit]
  exact Iff.rfl

/-- Row `r` of the result lies in the block of point `r / 5000`, which is written back. -/
theorem covered (i : S100000x1.Idx) :
    ∃ t : Fin cfg2.N, (cfg2.win 16).flush t = true ∧ i ∈ ((cfg2.win 16).blk t).view.set := by
  have hi0 : (i 0).val < 100000 := (i 0).isLt
  have hi1 : (i 1).val < 1 := (i 1).isLt
  obtain ⟨t, tv⟩ : ∃ t : Fin cfg2.N, t.val = (i 0).val / 5000 := ⟨⟨(i 0).val / 5000, by show _ < 20; omega⟩, rfl⟩
  refine ⟨t, flush2_16 t, ?_⟩
  rw [mem_blk]
  obtain ⟨ir, ic⟩ := idx16 t
  intro a
  match a with
  | ⟨0, _⟩ =>
    show win2_16.index t (0 : Fin 2) * 5000 ≤ (i 0).val ∧ (i 0).val < win2_16.index t (0 : Fin 2) * 5000 + 5000
    omega
  | ⟨1, _⟩ =>
    show win2_16.index t (1 : Fin 2) * 1 ≤ (i 1).val ∧ (i 1).val < win2_16.index t (1 : Fin 2) * 1 + 1
    omega

/-! ## The result array -/

/-- THE RESULT of the last stage is `Cert.Spec.final` of the arrays it reads, as the stage finds them. -/
theorem arr (c : Dev nD) :
    (dat2 (F := Ideal) V c).arrAt 16 cfg2.N = Cert.Spec.final (V c main_v51_0) (V c main_v68) (V c main_arg0) (V c main_v71) (V c main_v72) (V c main_v73) (V c main_v74) (V c main_v75) (V c main_v69) (V c main_v76) (V c main_v77) (V c main_v70) (V c main_v78) (V c main_v79) (V c main_arg21) (V c main_v80) :=
  (dat2 V c).arrAt_eq_of_cover 16 (G V c) (fun t _ => wrote V c t) covered

end Cert.KernelIdeal.Region2

end
-- ==== Proof.RefLayer1.lean ====
/-
  The reference's first layer, read as the stage functions of the specification.

  The reference computes the first projection as a `dot_general` (a sum over the 8 input features), adds the bias row,
  rectifies, normalises with the running statistics, and projects by `W2` with another `dot_general`. Entry by entry
  these are `Spec.proj1`, `Spec.actAt` and `Spec.h2preAt` of the aggregated array: the reference's broadcasts of a
  length-64 parameter to `[1, 64]` and on to `[N, 64]` read the parameter at the column, which is how a `[1, 64]` row
  `p` with `p (0, k) = x k` is read by the specification.
-/
import proofs.«159935_j82514911690903_1_alg».proof.Proof.ReadP
import proofs.«159935_j82514911690903_1_alg».proof.Proof.Spec

noncomputable section

open scoped BigOperators

namespace Cert.RefLayer1

open Cert.ReferenceIdeal Cert.ReferenceIdeal.Gen Cert.ReferenceIdeal.Read
open Idealize.ShloMosaic Idealize.ShloMosaic.TcCoe Idealize.ShloMosaic.ValueIdx

/-- The reference's first projection is `x · W1`, entry by entry. -/
theorem proj_eq (x0 : (⟨S100000x8, .f32⟩ : BufTy).Contents (Elt Ideal)) (x3 : (⟨S8x64, .f32⟩ : BufTy).Contents (Elt Ideal)) :
    val_main_v4 (F := Ideal) x0 x3 = Cert.Spec.proj1 x0 x3 := by
  funext i
  obtain ⟨r, c, rfl⟩ : ∃ (r : Fin 100000) (c : Fin 64), i = ix2 r c := ⟨i 0, i 1, eq_ix2 i⟩
  rw [val_main_v4_apply]
  show _ = Cert.Spec.proj1At x0 x3 r c
  unfold Cert.Spec.proj1At
  refine Finset.sum_congr rfl fun k _ => ?_
  have e1 : lidx_main_v4 (ix2 r c) k = ix2 r k := funext fun a => Fin.ext (by match a with | ⟨0, _⟩ => rfl | ⟨1, _⟩ => rfl)
  have e2 : ridx_main_v4 (ix2 r c) k = ix2 k c := funext fun a => Fin.ext (by match a with | ⟨0, _⟩ => rfl | ⟨1, _⟩ => rfl)
  rw [e1, e2]

/-- The reference's normalised first activation at `(r, k)` is `Spec.actAt` of its aggregated array, for parameter rows
    that hold the length-64 parameters. -/
theorem act_at (x0 : (⟨S100000x8, .f32⟩ : BufTy).Contents (Elt Ideal)) (x1 : (⟨S2x3200000, .i32⟩ : BufTy).Contents (Elt Ideal)) (x2 : (⟨S3200000, .f32⟩ : BufTy).Contents (Elt Ideal)) (x3 : (⟨S8x64, .f32⟩ : BufTy).Contents (Elt Ideal))
    (x4 x7 x8 x9 x10 : (⟨S64, .f32⟩ : BufTy).Contents (Elt Ideal)) (b g be mean var : Cert.Spec.Arr 1 64)
    (hb : ∀ k : Fin 64, b (ix2 0 k) = x4 (ix1 k)) (hg : ∀ k : Fin 64, g (ix2 0 k) = x7 (ix1 k))
    (hbe : ∀ k : Fin 64, be (ix2 0 k) = x8 (ix1 k)) (hmean : ∀ k : Fin 64, mean (ix2 0 k) = x9 (ix1 k))
    (hvar : ∀ k : Fin 64, var (ix2 0 k) = x10 (ix1 k)) (r : Fin 100000) (k : Fin 64) :
    val_main_v69 (F := Ideal) x0 x1 x2 x3 x4 x7 x8 x9 x10 (ix2 r k)
      = Cert.Spec.actAt (val_main_v50 (F := Ideal) x0 x1 x2 x3) b g be mean var r k := by
  have ep : ∀ i : S1x64.Idx, (⟨(i 1).val, (i 1).isLt⟩ : Fin 64) = i 1 := fun i => rfl
  have e51 : idx_main_v51 (idx_main_v52 (ix2 r k)) = ix1 k := funext fun a => Fin.ext (by match a with | ⟨0, _⟩ => rfl)
  have e55 : idx_main_v55 (idx_main_v56 (ix2 r k)) = ix1 k := funext fun a => Fin.ext (by match a with | ⟨0, _⟩ => rfl)
  have e61 : idx_main_v61 (idx_main_v62 (ix2 r k)) = ix1 k := funext fun a => Fin.ext (by match a with | ⟨0, _⟩ => rfl)
  have e64 : idx_main_v64 (idx_main_v65 (ix2 r k)) = ix1 k := funext fun a => Fin.ext (by match a with | ⟨0, _⟩ => rfl)
  have e67 : idx_main_v67 (idx_main_v68 (ix2 r k)) = ix1 k := funext fun a => Fin.ext (by match a with | ⟨0, _⟩ => rfl)
  rw [val_main_v69_apply, val_main_v66_apply, val_main_v63_apply, val_main_v57_apply, val_main_v54_apply, val_main_v53_apply,
    val_main_v52_apply, val_main_v51_apply, e51, val_main_v56_apply, val_main_v55_apply, e55, val_main_v62_apply,
    val_main_v61_apply, e61, val_main_v60_apply, val_main_v59_apply, val_main_v58_apply, val_main_v65_apply, val_main_v64_apply, e64,
    val_main_v68_apply, val_main_v67_apply, e67, val_main_call0_v0_apply]
  unfold Cert.Spec.actAt Cert.Spec.bnRelu
  rw [hb, hg, hbe, hmean, hvar]
  rfl

/-- The reference's first activation as an array. -/
theorem h1_eq (x0 : (⟨S100000x8, .f32⟩ : BufTy).Contents (Elt Ideal)) (x1 : (⟨S2x3200000, .i32⟩ : BufTy).Contents (Elt Ideal)) (x2 : (⟨S3200000, .f32⟩ : BufTy).Contents (Elt Ideal)) (x3 : (⟨S8x64, .f32⟩ : BufTy).Contents (Elt Ideal))
    (x4 x7 x8 x9 x10 : (⟨S64, .f32⟩ : BufTy).Contents (Elt Ideal)) (b g be mean var : Cert.Spec.Arr 1 64)
    (hb : ∀ k : Fin 64, b (ix2 0 k) = x4 (ix1 k)) (hg : ∀ k : Fin 64, g (ix2 0 k) = x7 (ix1 k))
    (hbe : ∀ k : Fin 64, be (ix2 0 k) = x8 (ix1 k)) (hmean : ∀ k : Fin 64, mean (ix2 0 k) = x9 (ix1 k))
    (hvar : ∀ k : Fin 64, var (ix2 0 k) = x10 (ix1 k)) :
    Cert.Spec.h1 (val_main_v50 (F := Ideal) x0 x1 x2 x3) b g be mean var
      = val_main_v69 (F := Ideal) x0 x1 x2 x3 x4 x7 x8 x9 x10 := by
  funext i
  obtain ⟨r, k, rfl⟩ : ∃ (r : Fin 100000) (k : Fin 64), i = ix2 r k := ⟨i 0, i 1, eq_ix2 i⟩
  exact (act_at x0 x1 x2 x3 x4 x7 x8 x9 x10 b g be mean var hb hg hbe hmean hvar r k).symm

/-- The reference's second projection is `h1 · W2`. -/
theorem h2pre_eq (x0 : (⟨S100000x8, .f32⟩ : BufTy).Contents (Elt Ideal)) (x1 : (⟨S2x3200000, .i32⟩ : BufTy).Contents (Elt Ideal)) (x2 : (⟨S3200000, .f32⟩ : BufTy).Contents (Elt Ideal)) (x3 : (⟨S8x64, .f32⟩ : BufTy).Contents (Elt Ideal))
    (x4 : (⟨S64, .f32⟩ : BufTy).Contents (Elt Ideal)) (x5 : (⟨S64x64, .f32⟩ : BufTy).Contents (Elt Ideal))
    (x7 x8 x9 x10 : (⟨S64, .f32⟩ : BufTy).Contents (Elt Ideal)) (b g be mean var : Cert.Spec.Arr 1 64)
    (hb : ∀ k : Fin 64, b (ix2 0 k) = x4 (ix1 k)) (hg : ∀ k : Fin 64, g (ix2 0 k) = x7 (ix1 k))
    (hbe : ∀ k : Fin 64, be (ix2 0 k) = x8 (ix1 k)) (hmean : ∀ k : Fin 64, mean (ix2 0 k) = x9 (ix1 k))
    (hvar : ∀ k : Fin 64, var (ix2 0 k) = x10 (ix1 k)) :
    Cert.Spec.h2pre (val_main_v50 (F := Ideal) x0 x1 x2 x3) b g be mean var x5
      = val_main_v70 (F := Ideal) x0 x1 x2 x3 x4 x5 x7 x8 x9 x10 := by
  funext i
  obtain ⟨r, c, rfl⟩ : ∃ (r : Fin 100000) (c : Fin 64), i = ix2 r c := ⟨i 0, i 1, eq_ix2 i⟩
  rw [val_main_v70_apply]
  show Cert.Spec.h2preAt (val_main_v50 (F := Ideal) x0 x1 x2 x3) b g be mean var x5 r c = _
  unfold Cert.Spec.h2preAt
  refine Finset.sum_congr rfl fun k _ => ?_
  have e1 : lidx_main_v70 (ix2 r c) k = ix2 r k := funext fun a => Fin.ext (by match a with | ⟨0, _⟩ => rfl | ⟨1, _⟩ => rfl)
  have e2 : ridx_main_v70 (ix2 r c) k = ix2 k c := funext fun a => Fin.ext (by match a with | ⟨0, _⟩ => rfl | ⟨1, _⟩ => rfl)
  rw [e1, e2, act_at x0 x1 x2 x3 x4 x7 x8 x9 x10 b g be mean var hb hg hbe hmean hvar r k]

end Cert.RefLayer1

end
-- ==== Proof.SumSplit.lean ====
/-
  Two small facts about finite sums and one about a float word, over the extended reals.

  A product against a tall matrix contracts over all its rows at once; the same product computed block of rows by
  block of rows is the sum of the blocks' contributions. Addition of extended reals is associative and commutative
  (also at the infinities), so a sum over `Fin 128` is the sum over its two halves and a sum over `Fin 136` the sum
  over rows `0..63`, `64..127` and `128..135`. The word `0x3F800000` is the real `1`.
-/
import Idealize.ShloMosaic.PureOps.Ideal
import Idealize.ShloMosaic.PureOps.IdealRules

noncomputable section

open scoped BigOperators

namespace Cert.SumSplit

open Idealize.ShloMosaic

/-- A sum over 128 indices is the sum over `k` and over `64 + k`, `k < 64`. -/
theorem sum128 (f : Fin 128 → EReal) :
    ∑ k : Fin 128, f k
      = (∑ k : Fin 64, f ⟨k.val, by omega⟩) + ∑ k : Fin 64, f ⟨64 + k.val, by omega⟩ := by
  have h := Fin.sum_univ_add (a := 64) (b := 64) (fun k : Fin (64 + 64) => f k)
  refine h.trans ?_
  congr 1

/-- A sum over 136 indices is the sum over `k`, over `64 + k` (`k < 64`) and over `128 + k` (`k < 8`). -/
theorem sum136 (f : Fin 136 → EReal) :
    ∑ k : Fin 136, f k
      = (∑ k : Fin 64, f ⟨k.val, by omega⟩) + (∑ k : Fin 64, f ⟨64 + k.val, by omega⟩) + ∑ k : Fin 8, f ⟨128 + k.val, by omega⟩ := by
  have h := Fin.sum_univ_add (a := 128) (b := 8) (fun k : Fin (128 + 8) => f k)
  refine h.trans ?_
  congr 1
  exact sum128 (fun k : Fin 128 => f ⟨k.val, by omega⟩)

/-- The word of `1.0` is `1`. -/
theorem one_word : Ideal.ofBits .f32 0x3F800000#32 = (1 : EReal) := IdealRules.sign_bit.ideal_onePat .f32

/-- The logistic function spelt with the word of `1.0`: `1.0 / (1.0 + exp (-x))`. -/
theorem logistic_words (x : EReal) :
    Ideal.div (Ideal.ofBits .f32 0x3F800000#32) (Ideal.ofBits .f32 0x3F800000#32 + Ideal.exp (-x)) = Ideal.logistic x := by
  rw [one_word]; rfl

end Cert.SumSplit

end
-- ==== Proof.RefFinal.lean ====
/-
  The reference's last stretch, read as the last stage of the specification.

  From its two activations the reference builds `[N, 128]` features by concatenation and multiplies them by the
  transposed `[128, 256]` gate weight in ONE product, adds the SUM of the two gate biases, slices the four gates and
  applies `σ(o) · tanh (σ(i) · tanh g)` with `σ x = 1 / (1 + exp (-x))`; the second cell does the same from the first
  cell's output; the read-out concatenates both cells' outputs with the input features to `[N, 136]`, rectifies and
  multiplies by the `[136, 1]` read-out matrix, then adds the bias.

  The specification states the same numbers with every product split by row blocks and the biases added one after the
  other. The two agree because a finite sum over the contracted coordinate is the sum over its blocks
  (`SumSplit.sum128`, `sum136`), a concatenation reads the piece its coordinate falls in, addition of extended reals is
  associative, and `1 / (1 + exp (-x))` with the word of `1.0` is the logistic function. No finiteness is used.
-/
import proofs.«159935_j82514911690903_1_alg».proof.Proof.ReadP
import proofs.«159935_j82514911690903_1_alg».proof.Proof.Spec
import proofs.«159935_j82514911690903_1_alg».proof.Proof.SumSplit

set_option maxRecDepth 16384

noncomputable section

open scoped BigOperators

namespace Cert.RefFinal

open Cert.ReferenceIdeal Cert.ReferenceIdeal.Gen Cert.ReferenceIdeal.Read
open Idealize.ShloMosaic Idealize.ShloMosaic.TcCoe Idealize.ShloMosaic.ValueIdx
open Cert.Spec (Arr)

variable (x0 : (⟨S100000x8, .f32⟩ : BufTy).Contents (Elt Ideal)) (x1 : (⟨S2x3200000, .i32⟩ : BufTy).Contents (Elt Ideal))
  (x2 : (⟨S3200000, .f32⟩ : BufTy).Contents (Elt Ideal)) (x3 : (⟨S8x64, .f32⟩ : BufTy).Contents (Elt Ideal))
  (x4 : (⟨S64, .f32⟩ : BufTy).Contents (Elt Ideal)) (x5 : (⟨S64x64, .f32⟩ : BufTy).Contents (Elt Ideal))
  (x6 x7 x8 x9 x10 x11 x12 x13 x14 : (⟨S64, .f32⟩ : BufTy).Contents (Elt Ideal))
  (x15 : (⟨S256x128, .f32⟩ : BufTy).Contents (Elt Ideal)) (x16 x17 : (⟨S256, .f32⟩ : BufTy).Contents (Elt Ideal))
  (x18 : (⟨S256x64, .f32⟩ : BufTy).Contents (Elt Ideal)) (x19 x20 : (⟨S256, .f32⟩ : BufTy).Contents (Elt Ideal))
  (x21 : (⟨S136x1, .f32⟩ : BufTy).Contents (Elt Ideal)) (x22 : (⟨S1, .f32⟩ : BufTy).Contents (Elt Ideal))

/-! ## The second activation -/

/-- The reference's second normalised activation at `(r, k)` is `Spec.actAt` of its second aggregated array. -/
theorem act2_at (b2 g2 be2 mean2 var2 : Arr 1 64)
    (hb : ∀ k : Fin 64, b2 (ix2 0 k) = x6 (ix1 k)) (hg : ∀ k : Fin 64, g2 (ix2 0 k) = x11 (ix1 k))
    (hbe : ∀ k : Fin 64, be2 (ix2 0 k) = x12 (ix1 k)) (hmean : ∀ k : Fin 64, mean2 (ix2 0 k) = x13 (ix1 k))
    (hvar : ∀ k : Fin 64, var2 (ix2 0 k) = x14 (ix1 k)) (r : Fin 100000) (k : Fin 64) :
    val_main_v135 (F := Ideal) x0 x1 x2 x3 x4 x5 x6 x7 x8 x9 x10 x11 x12 x13 x14 (ix2 r k)
      = Cert.Spec.actAt (val_main_v116 (F := Ideal) x0 x1 x2 x3 x4 x5 x7 x8 x9 x10) b2 g2 be2 mean2 var2 r k := by
  have e117 : idx_main_v117 (idx_main_v118 (ix2 r k)) = ix1 k := funext fun a => Fin.ext (by match a with | ⟨0, _⟩ => rfl)
  have e121 : idx_main_v121 (idx_main_v122 (ix2 r k)) = ix1 k := funext fun a => Fin.ext (by match a with | ⟨0, _⟩ => rfl)
  have e127 : idx_main_v127 (idx_main_v128 (ix2 r k)) = ix1 k := funext fun a => Fin.ext (by match a with | ⟨0, _⟩ => rfl)
  have e130 : idx_main_v130 (idx_main_v131 (ix2 r k)) = ix1 k := funext fun a => Fin.ext (by match a with | ⟨0, _⟩ => rfl)
  have e133 : idx_main_v133 (idx_main_v134 (ix2 r k)) = ix1 k := funext fun a => Fin.ext (by match a with | ⟨0, _⟩ => rfl)
  rw [val_main_v135_apply, val_main_v132_apply, val_main_v129_apply, val_main_v123_apply, val_main_v120_apply, val_main_v119_apply,
    val_main_v118_apply, val_main_v117_apply, e117, val_main_v122_apply, val_main_v121_apply, e121, val_main_v128_apply,
    val_main_v127_apply, e127, val_main_v126_apply, val_main_v125_apply, val_main_v124_apply, val_main_v131_apply, val_main_v130_apply, e130,
    val_main_v134_apply, val_main_v133_apply, e133, val_main_call1_v0_apply]
  unfold Cert.Spec.actAt Cert.Spec.bnRelu
  rw [hb, hg, hbe, hmean, hvar]
  rfl

/-! ## The first cell -/

/-- The features' left half is the first activation, the right half the second. -/
theorem feats_left (r : Fin 100000) (k : Fin 64) :
    val_main_v136 (F := Ideal) x0 x1 x2 x3 x4 x5 x6 x7 x8 x9 x10 x11 x12 x13 x14 (ix2 r (⟨k.val, by omega⟩ : Fin 128)) = val_main_v69 (F := Ideal) x0 x1 x2 x3 x4 x7 x8 x9 x10 (ix2 r k) := by
  unfold val_main_v136
  refine concatenate_pair_apply_left (t := S100000x128) (s₁ := S100000x64) (s₂ := S100000x64) 1 _ _ _
    (ix2 r (⟨k.val, by omega⟩ : Fin 128)) rfl (ix2 r k) (fun b => ?_)
  match b with
  | ⟨0, _⟩ => rfl
  | ⟨1, _⟩ => rfl
theorem feats_right (r : Fin 100000) (k : Fin 64) :
    val_main_v136 (F := Ideal) x0 x1 x2 x3 x4 x5 x6 x7 x8 x9 x10 x11 x12 x13 x14 (ix2 r (⟨64 + k.val, by omega⟩ : Fin 128)) = val_main_v135 (F := Ideal) x0 x1 x2 x3 x4 x5 x6 x7 x8 x9 x10 x11 x12 x13 x14 (ix2 r k) := by
  unfold val_main_v136
  refine concatenate_pair_apply_right (t := S100000x128) (s₁ := S100000x64) (s₂ := S100000x64) 1 _ _ _
    (ix2 r (⟨64 + k.val, by omega⟩ : Fin 128)) rfl rfl (ix2 r k) (fun b hb => ?_) ?_
  · match b with
    | ⟨0, _⟩ => rfl
    | ⟨1, _⟩ => exact absurd rfl hb
  · show k.val + 64 = 64 + k.val
    omega

/-- The first cell's pre-activation: one product over 128 features plus the summed biases is the two half products
    and the biases added one by one. -/
theorem pre1_at (w1t : Arr 128 256) (bi1 bh1 : Arr 1 256)
    (hw1 : ∀ (k : Fin 128) (j : Fin 256), w1t (ix2 k j) = x15 (ix2 j k))
    (hbi1 : ∀ j : Fin 256, bi1 (ix2 0 j) = x16 (ix1 j)) (hbh1 : ∀ j : Fin 256, bh1 (ix2 0 j) = x17 (ix1 j))
    (r : Fin 100000) (j : Fin 256) :
    val_main_v142 (F := Ideal) x0 x1 x2 x3 x4 x5 x6 x7 x8 x9 x10 x11 x12 x13 x14 x15 x16 x17 (ix2 r j)
      = Cert.Spec.pre1At (val_main_v69 (F := Ideal) x0 x1 x2 x3 x4 x7 x8 x9 x10) (fun r k => val_main_v135 (F := Ideal) x0 x1 x2 x3 x4 x5 x6 x7 x8 x9 x10 x11 x12 x13 x14 (ix2 r k)) w1t bi1 bh1 r j := by
  have e140 : idx_main_v140 (idx_main_v141 (ix2 r j)) = ix1 j := funext fun a => Fin.ext (by match a with | ⟨0, _⟩ => rfl)
  rw [val_main_v142_apply, val_main_v138_apply, val_main_v141_apply, val_main_v140_apply, e140, val_main_v139_apply,
    Cert.SumSplit.sum128]
  unfold Cert.Spec.pre1At
  rw [hbi1, hbh1]
  refine ((add_assoc _ _ _).symm.trans ?_)
  refine congrArg₂ (· + ·) (congrArg₂ (· + ·) (congrArg₂ (· + ·) ?_ ?_) rfl) rfl
  · refine Finset.sum_congr rfl fun k _ => ?_
    have el : lidx_main_v138 (ix2 r j) (⟨k.val, by omega⟩ : Fin 128) = ix2 r (⟨k.val, by omega⟩ : Fin 128) := funext fun a => Fin.ext (by match a with | ⟨0, _⟩ => rfl | ⟨1, _⟩ => rfl)
    have er : idx_main_v137 (ridx_main_v138 (ix2 r j) (⟨k.val, by omega⟩ : Fin 128)) = ix2 j (⟨k.val, by omega⟩ : Fin 128) := funext fun a => Fin.ext (by match a with | ⟨0, _⟩ => rfl | ⟨1, _⟩ => rfl)
    rw [el, feats_left, val_main_v137_apply, er, hw1]
  · refine Finset.sum_congr rfl fun k _ => ?_
    have el : lidx_main_v138 (ix2 r j) (⟨64 + k.val, by omega⟩ : Fin 128) = ix2 r (⟨64 + k.val, by omega⟩ : Fin 128) := funext fun a => Fin.ext (by match a with | ⟨0, _⟩ => rfl | ⟨1, _⟩ => rfl)
    have er : idx_main_v137 (ridx_main_v138 (ix2 r j) (⟨64 + k.val, by omega⟩ : Fin 128)) = ix2 j (⟨64 + k.val, by omega⟩ : Fin 128) := funext fun a => Fin.ext (by match a with | ⟨0, _⟩ => rfl | ⟨1, _⟩ => rfl)
    rw [el, feats_right, val_main_v137_apply, er, hw1]

/-- A gate cell spelt with the word of `1.0`. -/
theorem cell_words (i g o : EReal) :
    Ideal.div (Ideal.ofBits .f32 0x3F800000#32) (Ideal.ofBits .f32 0x3F800000#32 + Ideal.exp (-o))
        * Ideal.tanh (Ideal.div (Ideal.ofBits .f32 0x3F800000#32) (Ideal.ofBits .f32 0x3F800000#32 + Ideal.exp (-i)) * Ideal.tanh g)
      = Cert.Spec.cell i g o := by
  rw [Cert.SumSplit.logistic_words, Cert.SumSplit.logistic_words]; rfl

/-- The same cell as the host operations spell it. -/
theorem cell_ops (i g o : EReal) :
    FloatOps.mulf (F := Ideal) (φ := .f32)
        (FloatOps.hostDivf (FloatOps.ofBits .f32 0x3F800000#32)
          (FloatOps.addf (FloatOps.ofBits .f32 0x3F800000#32) (FloatOps.hostUnary .exp (FloatOps.hostNegf o))))
        (FloatOps.hostUnary .tanh
          (FloatOps.mulf
            (FloatOps.hostDivf (FloatOps.ofBits .f32 0x3F800000#32)
              (FloatOps.addf (FloatOps.ofBits .f32 0x3F800000#32) (FloatOps.hostUnary .exp (FloatOps.hostNegf i))))
            (FloatOps.hostUnary .tanh g)))
      = Cert.Spec.cell i g o :=
  cell_words i g o

/-- The first cell's output at `(r, c)`. -/
theorem lh1_at (w1t : Arr 128 256) (bi1 bh1 : Arr 1 256)
    (hw1 : ∀ (k : Fin 128) (j : Fin 256), w1t (ix2 k j) = x15 (ix2 j k))
    (hbi1 : ∀ j : Fin 256, bi1 (ix2 0 j) = x16 (ix1 j)) (hbh1 : ∀ j : Fin 256, bh1 (ix2 0 j) = x17 (ix1 j))
    (r : Fin 100000) (c : Fin 64) :
    val_main_v162 (F := Ideal) x0 x1 x2 x3 x4 x5 x6 x7 x8 x9 x10 x11 x12 x13 x14 x15 x16 x17 (ix2 r c)
      = Cert.Spec.lh1At (val_main_v69 (F := Ideal) x0 x1 x2 x3 x4 x7 x8 x9 x10) (fun r k => val_main_v135 (F := Ideal) x0 x1 x2 x3 x4 x5 x6 x7 x8 x9 x10 x11 x12 x13 x14 (ix2 r k)) w1t bi1 bh1 r c := by
  have e143 : idx_main_v143 (ix2 r c) = ix2 r (Cert.Spec.cI c) := funext fun a => Fin.ext (by match a with | ⟨0, _⟩ => rfl | ⟨1, _⟩ => rfl)
  have e145 : idx_main_v145 (ix2 r c) = ix2 r (Cert.Spec.cG c) := funext fun a => Fin.ext (by match a with | ⟨0, _⟩ => rfl | ⟨1, _⟩ => rfl)
  have e146 : idx_main_v146 (ix2 r c) = ix2 r (Cert.Spec.cO c) := funext fun a => Fin.ext (by match a with | ⟨0, _⟩ => rfl | ⟨1, _⟩ => rfl)
  rw [val_main_v162_apply, val_main_v160_apply, val_main_v161_apply, val_main_v158_apply, val_main_v156_apply, val_main_v155_apply,
    val_main_v146_apply, e146, val_main_v154_apply, val_main_v152_apply, val_main_v153_apply, val_main_v150_apply, val_main_v148_apply,
    val_main_v147_apply, val_main_v143_apply, e143, val_main_v145_apply, e145, val_main_v159_apply, val_main_v157_apply,
    val_main_v151_apply, val_main_v149_apply,
    pre1_at x0 x1 x2 x3 x4 x5 x6 x7 x8 x9 x10 x11 x12 x13 x14 x15 x16 x17 w1t bi1 bh1 hw1 hbi1 hbh1 r (Cert.Spec.cI c), pre1_at x0 x1 x2 x3 x4 x5 x6 x7 x8 x9 x10 x11 x12 x13 x14 x15 x16 x17 w1t bi1 bh1 hw1 hbi1 hbh1 r (Cert.Spec.cG c),
    pre1_at x0 x1 x2 x3 x4 x5 x6 x7 x8 x9 x10 x11 x12 x13 x14 x15 x16 x17 w1t bi1 bh1 hw1 hbi1 hbh1 r (Cert.Spec.cO c)]
  unfold Cert.Spec.lh1At
  rw [val_main_cst_27_apply, val_main_cst_26_apply, val_main_cst_25_apply, val_main_cst_24_apply]
  exact cell_ops _ _ _

/-! ## The second cell -/

theorem pre2_at (w2t : Arr 64 256) (bi2 bh2 : Arr 1 256)
    (hw2 : ∀ (k : Fin 64) (j : Fin 256), w2t (ix2 k j) = x18 (ix2 j k))
    (hbi2 : ∀ j : Fin 256, bi2 (ix2 0 j) = x19 (ix1 j)) (hbh2 : ∀ j : Fin 256, bh2 (ix2 0 j) = x20 (ix1 j))
    (r : Fin 100000) (j : Fin 256) :
    val_main_v168 (F := Ideal) x0 x1 x2 x3 x4 x5 x6 x7 x8 x9 x10 x11 x12 x13 x14 x15 x16 x17 x18 x19 x20 (ix2 r j)
      = Cert.Spec.pre2At (fun r k => val_main_v162 (F := Ideal) x0 x1 x2 x3 x4 x5 x6 x7 x8 x9 x10 x11 x12 x13 x14 x15 x16 x17 (ix2 r k)) w2t bi2 bh2 r j := by
  have e166 : idx_main_v166 (idx_main_v167 (ix2 r j)) = ix1 j := funext fun a => Fin.ext (by match a with | ⟨0, _⟩ => rfl)
  rw [val_main_v168_apply, val_main_v164_apply, val_main_v167_apply, val_main_v166_apply, e166, val_main_v165_apply]
  unfold Cert.Spec.pre2At
  rw [hbi2, hbh2]
  refine ((add_assoc _ _ _).symm.trans ?_)
  refine congrArg₂ (· + ·) (congrArg₂ (· + ·) ?_ rfl) rfl
  refine Finset.sum_congr rfl fun k _ => ?_
  have el : lidx_main_v164 (ix2 r j) k = ix2 r k := funext fun a => Fin.ext (by match a with | ⟨0, _⟩ => rfl | ⟨1, _⟩ => rfl)
  have er : idx_main_v163 (ridx_main_v164 (ix2 r j) k) = ix2 j k := funext fun a => Fin.ext (by match a with | ⟨0, _⟩ => rfl | ⟨1, _⟩ => rfl)
  rw [el, val_main_v163_apply, er, hw2]

theorem lh2_at (w2t : Arr 64 256) (bi2 bh2 : Arr 1 256)
    (hw2 : ∀ (k : Fin 64) (j : Fin 256), w2t (ix2 k j) = x18 (ix2 j k))
    (hbi2 : ∀ j : Fin 256, bi2 (ix2 0 j) = x19 (ix1 j)) (hbh2 : ∀ j : Fin 256, bh2 (ix2 0 j) = x20 (ix1 j))
    (r : Fin 100000) (c : Fin 64) :
    val_main_v188 (F := Ideal) x0 x1 x2 x3 x4 x5 x6 x7 x8 x9 x10 x11 x12 x13 x14 x15 x16 x17 x18 x19 x20 (ix2 r c)
      = Cert.Spec.lh2At (fun r k => val_main_v162 (F := Ideal) x0 x1 x2 x3 x4 x5 x6 x7 x8 x9 x10 x11 x12 x13 x14 x15 x16 x17 (ix2 r k)) w2t bi2 bh2 r c := by
  have e169 : idx_main_v169 (ix2 r c) = ix2 r (Cert.Spec.cI c) := funext fun a => Fin.ext (by match a with | ⟨0, _⟩ => rfl | ⟨1, _⟩ => rfl)
  have e171 : idx_main_v171 (ix2 r c) = ix2 r (Cert.Spec.cG c) := funext fun a => Fin.ext (by match a with | ⟨0, _⟩ => rfl | ⟨1, _⟩ => rfl)
  have e172 : idx_main_v172 (ix2 r c) = ix2 r (Cert.Spec.cO c) := funext fun a => Fin.ext (by match a with | ⟨0, _⟩ => rfl | ⟨1, _⟩ => rfl)
  rw [val_main_v188_apply, val_main_v186_apply, val_main_v187_apply, val_main_v184_apply, val_main_v182_apply, val_main_v181_apply,
    val_main_v172_apply, e172, val_main_v180_apply, val_main_v178_apply, val_main_v179_apply, val_main_v176_apply, val_main_v174_apply,
    val_main_v173_apply, val_main_v169_apply, e169, val_main_v171_apply, e171, val_main_v185_apply, val_main_v183_apply,
    val_main_v177_apply, val_main_v175_apply,
    pre2_at x0 x1 x2 x3 x4 x5 x6 x7 x8 x9 x10 x11 x12 x13 x14 x15 x16 x17 x18 x19 x20 w2t bi2 bh2 hw2 hbi2 hbh2 r (Cert.Spec.cI c), pre2_at x0 x1 x2 x3 x4 x5 x6 x7 x8 x9 x10 x11 x12 x13 x14 x15 x16 x17 x18 x19 x20 w2t bi2 bh2 hw2 hbi2 hbh2 r (Cert.Spec.cG c),
    pre2_at x0 x1 x2 x3 x4 x5 x6 x7 x8 x9 x10 x11 x12 x13 x14 x15 x16 x17 x18 x19 x20 w2t bi2 bh2 hw2 hbi2 hbh2 r (Cert.Spec.cO c)]
  unfold Cert.Spec.lh2At
  rw [val_main_cst_31_apply, val_main_cst_30_apply, val_main_cst_29_apply, val_main_cst_28_apply]
  exact cell_ops _ _ _

/-! ## The read-out -/

/-- The three pieces of the read-out's input. -/
theorem cat_0 (r : Fin 100000) (k : Fin 64) :
    val_main_v189 (F := Ideal) x0 x1 x2 x3 x4 x5 x6 x7 x8 x9 x10 x11 x12 x13 x14 x15 x16 x17 x18 x19 x20 (ix2 r (Cert.Spec.ro0 k)) = val_main_v162 (F := Ideal) x0 x1 x2 x3 x4 x5 x6 x7 x8 x9 x10 x11 x12 x13 x14 x15 x16 x17 (ix2 r k) := by
  unfold val_main_v189
  refine concatenate_apply_piece (t := S100000x136) 1 _ _ _ 0 ?hk S100000x64
    (val_main_v162 (F := Ideal) x0 x1 x2 x3 x4 x5 x6 x7 x8 x9 x10 x11 x12 x13 x14 x15 x16 x17) ?hxk rfl 0 ?hpre (ix2 r k) (fun b hb => ?hi) ?ha
  case hk => show (0 : Nat) < 3; omega
  case hxk => rfl
  case hpre => rfl
  case hi =>
    match b with
    | ⟨0, _⟩ => rfl
    | ⟨1, _⟩ => exact absurd rfl hb
  case ha =>
    show 0 + k.val = k.val
    omega
theorem cat_1 (r : Fin 100000) (k : Fin 64) :
    val_main_v189 (F := Ideal) x0 x1 x2 x3 x4 x5 x6 x7 x8 x9 x10 x11 x12 x13 x14 x15 x16 x17 x18 x19 x20 (ix2 r (Cert.Spec.ro1 k)) = val_main_v188 (F := Ideal) x0 x1 x2 x3 x4 x5 x6 x7 x8 x9 x10 x11 x12 x13 x14 x15 x16 x17 x18 x19 x20 (ix2 r k) := by
  unfold val_main_v189
  refine concatenate_apply_piece (t := S100000x136) 1 _ _ _ 1 ?hk S100000x64
    (val_main_v188 (F := Ideal) x0 x1 x2 x3 x4 x5 x6 x7 x8 x9 x10 x11 x12 x13 x14 x15 x16 x17 x18 x19 x20) ?hxk rfl 64 ?hpre (ix2 r k) (fun b hb => ?hi) ?ha
  case hk => show (1 : Nat) < 3; omega
  case hxk => rfl
  case hpre => rfl
  case hi =>
    match b with
    | ⟨0, _⟩ => rfl
    | ⟨1, _⟩ => exact absurd rfl hb
  case ha =>
    show 64 + k.val = 64 + k.val
    omega
theorem cat_2 (r : Fin 100000) (k : Fin 8) :
    val_main_v189 (F := Ideal) x0 x1 x2 x3 x4 x5 x6 x7 x8 x9 x10 x11 x12 x13 x14 x15 x16 x17 x18 x19 x20 (ix2 r (Cert.Spec.ro2 k)) = x0 (ix2 r k) := by
  unfold val_main_v189
  refine concatenate_apply_piece (t := S100000x136) 1 _ _ _ 2 ?hk S100000x8
    x0 ?hxk rfl 128 ?hpre (ix2 r k) (fun b hb => ?hi) ?ha
  case hk => show (2 : Nat) < 3; omega
  case hxk => rfl
  case hpre => rfl
  case hi =>
    match b with
    | ⟨0, _⟩ => rfl
    | ⟨1, _⟩ => exact absurd rfl hb
  case ha =>
    show 128 + k.val = 128 + k.val
    omega

/-- The reference's result at row `r` is the read-out of the specification. -/
theorem out_at (bl : Arr 1 1) (hbl : bl (ix2 0 0) = x22 (ix1 0)) (r : Fin 100000) :
    val_main_v194 (F := Ideal) x0 x1 x2 x3 x4 x5 x6 x7 x8 x9 x10 x11 x12 x13 x14 x15 x16 x17 x18 x19 x20 x21 x22 (ix2 r 0)
      = Cert.Spec.outAt (fun r k => val_main_v162 (F := Ideal) x0 x1 x2 x3 x4 x5 x6 x7 x8 x9 x10 x11 x12 x13 x14 x15 x16 x17 (ix2 r k))
          (fun r k => val_main_v188 (F := Ideal) x0 x1 x2 x3 x4 x5 x6 x7 x8 x9 x10 x11 x12 x13 x14 x15 x16 x17 x18 x19 x20 (ix2 r k)) x0 x21 bl r := by
  have e192 : idx_main_v192 (idx_main_v193 (ix2 r (0 : Fin 1))) = ix1 0 := funext fun a => Fin.ext (by match a with | ⟨0, _⟩ => rfl)
  rw [val_main_v194_apply, val_main_v191_apply, val_main_v193_apply, val_main_v192_apply, e192, Cert.SumSplit.sum136]
  unfold Cert.Spec.outAt
  rw [hbl]
  refine congrArg₂ (· + ·) (congrArg₂ (· + ·) (congrArg₂ (· + ·) ?_ ?_) ?_) rfl
  · refine Finset.sum_congr rfl fun k _ => ?_
    have el : lidx_main_v191 (ix2 r (0 : Fin 1)) (⟨k.val, by omega⟩ : Fin 136) = ix2 r (Cert.Spec.ro0 k) := funext fun a => Fin.ext (by match a with | ⟨0, _⟩ => rfl | ⟨1, _⟩ => rfl)
    have er : ridx_main_v191 (ix2 r (0 : Fin 1)) (⟨k.val, by omega⟩ : Fin 136) = ix2 (Cert.Spec.ro0 k) 0 := funext fun a => Fin.ext (by match a with | ⟨0, _⟩ => rfl | ⟨1, _⟩ => rfl)
    rw [el, er, val_main_v190_apply, cat_0, val_main_call2_v0_apply]
    rfl
  · refine Finset.sum_congr rfl fun k _ => ?_
    have el : lidx_main_v191 (ix2 r (0 : Fin 1)) (⟨64 + k.val, by omega⟩ : Fin 136) = ix2 r (Cert.Spec.ro1 k) := funext fun a => Fin.ext (by match a with | ⟨0, _⟩ => rfl | ⟨1, _⟩ => rfl)
    have er : ridx_main_v191 (ix2 r (0 : Fin 1)) (⟨64 + k.val, by omega⟩ : Fin 136) = ix2 (Cert.Spec.ro1 k) 0 := funext fun a => Fin.ext (by match a with | ⟨0, _⟩ => rfl | ⟨1, _⟩ => rfl)
    rw [el, er, val_main_v190_apply, cat_1, val_main_call2_v0_apply]
    rfl
  · refine Finset.sum_congr rfl fun k _ => ?_
    have el : lidx_main_v191 (ix2 r (0 : Fin 1)) (⟨128 + k.val, by omega⟩ : Fin 136) = ix2 r (Cert.Spec.ro2 k) := funext fun a => Fin.ext (by match a with | ⟨0, _⟩ => rfl | ⟨1, _⟩ => rfl)
    have er : ridx_main_v191 (ix2 r (0 : Fin 1)) (⟨128 + k.val, by omega⟩ : Fin 136) = ix2 (Cert.Spec.ro2 k) 0 := funext fun a => Fin.ext (by match a with | ⟨0, _⟩ => rfl | ⟨1, _⟩ => rfl)
    rw [el, er, val_main_v190_apply, cat_2, val_main_call2_v0_apply]
    rfl

/-! ## The whole last stage -/

/-- The last stage of the specification, fed the reference's own two activations and parameter arrays that hold the
    reference's parameters (rows for the vectors, transposes for the two gate weights), is the reference's result. -/
theorem final_eq (b2 g2 be2 mean2 var2 : Arr 1 64) (w1t : Arr 128 256) (bi1 bh1 : Arr 1 256) (w2t : Arr 64 256)
    (bi2 bh2 : Arr 1 256) (bl : Arr 1 1)
    (hb : ∀ k : Fin 64, b2 (ix2 0 k) = x6 (ix1 k)) (hg : ∀ k : Fin 64, g2 (ix2 0 k) = x11 (ix1 k))
    (hbe : ∀ k : Fin 64, be2 (ix2 0 k) = x12 (ix1 k)) (hmean : ∀ k : Fin 64, mean2 (ix2 0 k) = x13 (ix1 k))
    (hvar : ∀ k : Fin 64, var2 (ix2 0 k) = x14 (ix1 k))
    (hw1 : ∀ (k : Fin 128) (j : Fin 256), w1t (ix2 k j) = x15 (ix2 j k))
    (hbi1 : ∀ j : Fin 256, bi1 (ix2 0 j) = x16 (ix1 j)) (hbh1 : ∀ j : Fin 256, bh1 (ix2 0 j) = x17 (ix1 j))
    (hw2 : ∀ (k : Fin 64) (j : Fin 256), w2t (ix2 k j) = x18 (ix2 j k))
    (hbi2 : ∀ j : Fin 256, bi2 (ix2 0 j) = x19 (ix1 j)) (hbh2 : ∀ j : Fin 256, bh2 (ix2 0 j) = x20 (ix1 j))
    (hbl : bl (ix2 0 0) = x22 (ix1 0)) :
    Cert.Spec.final (val_main_v69 (F := Ideal) x0 x1 x2 x3 x4 x7 x8 x9 x10) (val_main_v116 (F := Ideal) x0 x1 x2 x3 x4 x5 x7 x8 x9 x10) x0 b2 g2 be2 mean2 var2
        w1t bi1 bh1 w2t bi2 bh2 x21 bl
      = val_main_v194 (F := Ideal) x0 x1 x2 x3 x4 x5 x6 x7 x8 x9 x10 x11 x12 x13 x14 x15 x16 x17 x18 x19 x20 x21 x22 := by
  have ha2 : (fun r k => val_main_v135 (F := Ideal) x0 x1 x2 x3 x4 x5 x6 x7 x8 x9 x10 x11 x12 x13 x14 (ix2 r k))
      = Cert.Spec.actAt (val_main_v116 (F := Ideal) x0 x1 x2 x3 x4 x5 x7 x8 x9 x10) b2 g2 be2 mean2 var2 := by
    funext r k
    exact act2_at x0 x1 x2 x3 x4 x5 x6 x7 x8 x9 x10 x11 x12 x13 x14 b2 g2 be2 mean2 var2 hb hg hbe hmean hvar r k
  have h1 : (fun r k => val_main_v162 (F := Ideal) x0 x1 x2 x3 x4 x5 x6 x7 x8 x9 x10 x11 x12 x13 x14 x15 x16 x17 (ix2 r k))
      = Cert.Spec.lh1At (val_main_v69 (F := Ideal) x0 x1 x2 x3 x4 x7 x8 x9 x10) (Cert.Spec.actAt (val_main_v116 (F := Ideal) x0 x1 x2 x3 x4 x5 x7 x8 x9 x10) b2 g2 be2 mean2 var2) w1t bi1 bh1 := by
    funext r k
    rw [lh1_at x0 x1 x2 x3 x4 x5 x6 x7 x8 x9 x10 x11 x12 x13 x14 x15 x16 x17 w1t bi1 bh1 hw1 hbi1 hbh1 r k, ha2]
  have h2 : (fun r k => val_main_v188 (F := Ideal) x0 x1 x2 x3 x4 x5 x6 x7 x8 x9 x10 x11 x12 x13 x14 x15 x16 x17 x18 x19 x20 (ix2 r k))
      = Cert.Spec.lh2At (fun r k => val_main_v162 (F := Ideal) x0 x1 x2 x3 x4 x5 x6 x7 x8 x9 x10 x11 x12 x13 x14 x15 x16 x17 (ix2 r k)) w2t bi2 bh2 := by
    funext r k
    exact lh2_at x0 x1 x2 x3 x4 x5 x6 x7 x8 x9 x10 x11 x12 x13 x14 x15 x16 x17 x18 x19 x20 w2t bi2 bh2 hw2 hbi2 hbh2 r k
  funext i
  obtain ⟨r, z, rfl⟩ : ∃ (r : Fin 100000) (z : Fin 1), i = ix2 r z := ⟨i 0, i 1, eq_ix2 i⟩
  obtain rfl : z = 0 := Subsingleton.elim _ _
  show Cert.Spec.finalAt (val_main_v69 (F := Ideal) x0 x1 x2 x3 x4 x7 x8 x9 x10) (val_main_v116 (F := Ideal) x0 x1 x2 x3 x4 x5 x7 x8 x9 x10) x0 b2 g2 be2 mean2 var2
      w1t bi1 bh1 w2t bi2 bh2 x21 bl r = _
  rw [out_at x0 x1 x2 x3 x4 x5 x6 x7 x8 x9 x10 x11 x12 x13 x14 x15 x16 x17 x18 x19 x20 x21 x22 bl hbl r]
  unfold Cert.Spec.finalAt
  rw [h2, h1]

end Cert.RefFinal

end
-- ==== Proof.RefWrap.lean ====
/-
  Negative-index wrapping is the identity on non-negative ids.

  Where the reference indexes with python semantics it first replaces an id `d` by `d + N` when `d < 0` (a signed
  comparison, an addition and a select). On an array of non-negative ids the comparison is 0 everywhere and the select
  returns the id itself.
-/
import proofs.«159935_j82514911690903_1_alg».proof.Proof.ReadP
import Idealize.ShloMosaic.Lib.Affine

noncomputable section

namespace Cert.RefWrap

open Cert.ReferenceIdeal Cert.ReferenceIdeal.Gen Cert.ReferenceIdeal.Read
open Idealize.ShloMosaic Idealize.ShloMosaic.TcCoe Idealize.ShloMosaic.ValueIdx

variable {F : FTy → Type} [FloatOps F]

/-- On non-negative destination ids the wrapped ids are the ids. -/
theorem wrap_dst (x1 : (⟨S2x3200000, .i32⟩ : BufTy).Contents (Elt F))
    (h : ∀ e : S3200000.Idx, 0 ≤ (val_main_v3 (F := F) x1 e).toInt) :
    val_main_v10 (F := F) x1 = val_main_v3 (F := F) x1 := by
  funext e
  rw [val_main_v10_apply, val_main_v7_apply, val_main_v6_apply, val_main_c_apply]
  have hz : IntOp.cmpi .slt (val_main_v3 (F := F) x1 e) 0#32 = 0#1 := by
    apply eq_zero_of_ne_one
    intro hc
    have h1 := IntOp.cmpi_slt.1 hc
    have h0 := h e
    have hzero : (0#32 : BitVec 32).toInt = 0 := by decide
    omega
  rw [hz, select_zero]

end Cert.RefWrap

end
-- ==== Proof.FoldReads.lean ====
/-
  The kernel's host stretches, read at the buffers the regions and the later stretches use.

  Between its three regions the kernel's program runs plain array operations: it slices the edge list into sources
  and destinations, accumulates the weighted in-degree (plus the self loop), takes its inverse square root, forms the
  edge normalisation `dinv[src] · w · dinv[dst]` and the self-loop factor `1 / deg`, and — after each projection —
  propagates: gather the projected rows at the sources, scale, scatter-add at the destinations, add the self-loop
  term. Each lemma reads one buffer after one stretch, from ANY contents `U` the stretch starts at, and identifies it
  with the reference's stage of the same name, given that the stretch's inputs hold the reference's earlier stages.

  The one place the two programs differ is the degree: the reference scatters at destination ids WRAPPED python-style
  (`d + N` for `d < 0`), the kernel at the ids themselves. On non-negative ids wrapping is the identity
  (`RefWrap.wrap_dst`), and that is the only use of the domain hypothesis.
-/
import proofs.«159935_j82514911690903_1_alg».proof.Proof.Gen.KernelIdeal.Launch
import proofs.«159935_j82514911690903_1_alg».proof.Proof.ReadP
import proofs.«159935_j82514911690903_1_alg».proof.Proof.RefWrap
import Idealize.ShloMosaic.Lib.StableHlo.Run

set_option maxRecDepth 16384

noncomputable section

namespace Cert.FoldReads

open Cert.KernelIdeal Cert.KernelIdeal.Gen
open Idealize.ShloMosaic Idealize.ShloMosaic.TcCoe Idealize.SL.Sem Idealize.ShloMosaic.StableHlo

variable (U : Valuation τ sig (Elt Ideal))

/-- Read one buffer after a stretch: unfold the stretch and compute the fold. -/
local macro "read_fold" ops:ident : tactic => `(tactic| (dsimp only [$ops:ident]; after_results_simp))

/-! ## The first stretch: edge list, degree, normalisation -/

/-- The sources and the destinations are rows 0 and 1 of the edge list. -/
theorem src0 : after hostOps0 U (Proc.devRef .tc main_v1) = Cert.ReferenceIdeal.Read.val_main_v1 (F := Ideal) (U (Proc.devRef .tc main_arg1)) := by
  read_fold hostOps0
  rfl
theorem dst0 : after hostOps0 U (Proc.devRef .tc main_v3) = Cert.ReferenceIdeal.Read.val_main_v3 (F := Ideal) (U (Proc.devRef .tc main_arg1)) := by
  read_fold hostOps0
  rfl

/-- The edge normalisation, on non-negative destination ids. -/
theorem norm0 (h : ∀ e, 0 ≤ (Cert.ReferenceIdeal.Read.val_main_v3 (F := Ideal) (U (Proc.devRef .tc main_arg1)) e).toInt) :
    after hostOps0 U (Proc.devRef .tc main_v25)
      = Cert.ReferenceIdeal.Read.val_main_v31 (F := Ideal) (U (Proc.devRef .tc main_arg1)) (U (Proc.devRef .tc main_arg2)) := by
  read_fold hostOps0
  simp only [Cert.ReferenceIdeal.Read.val_main_cst, Cert.ReferenceIdeal.Read.val_main_v5, Cert.ReferenceIdeal.Read.val_main_c, Cert.ReferenceIdeal.Read.val_main_v6, Cert.ReferenceIdeal.Read.val_main_v7, Cert.ReferenceIdeal.Read.val_main_c_0, Cert.ReferenceIdeal.Read.val_main_v8, Cert.ReferenceIdeal.Read.val_main_v9, Cert.ReferenceIdeal.Read.val_main_v11, Cert.ReferenceIdeal.Read.val_main_v12, Cert.ReferenceIdeal.Read.val_main_cst_1, Cert.ReferenceIdeal.Read.val_main_v13, Cert.ReferenceIdeal.Read.val_main_v14, Cert.ReferenceIdeal.Read.val_main_v15, Cert.ReferenceIdeal.Read.val_main_c_2, Cert.ReferenceIdeal.Read.val_main_v16, Cert.ReferenceIdeal.Read.val_main_v17, Cert.ReferenceIdeal.Read.val_main_c_3, Cert.ReferenceIdeal.Read.val_main_v18, Cert.ReferenceIdeal.Read.val_main_v19, Cert.ReferenceIdeal.Read.val_main_v20, Cert.ReferenceIdeal.Read.val_main_v21, Cert.ReferenceIdeal.Read.val_main_v22, Cert.ReferenceIdeal.Read.val_main_v23, Cert.ReferenceIdeal.Read.val_main_c_4, Cert.ReferenceIdeal.Read.val_main_v24, Cert.ReferenceIdeal.Read.val_main_v25, Cert.ReferenceIdeal.Read.val_main_c_5, Cert.ReferenceIdeal.Read.val_main_v26, Cert.ReferenceIdeal.Read.val_main_v27, Cert.ReferenceIdeal.Read.val_main_v28, Cert.ReferenceIdeal.Read.val_main_v29, Cert.ReferenceIdeal.Read.val_main_v30, Cert.ReferenceIdeal.Read.val_main_v31]
  rw [Cert.RefWrap.wrap_dst _ h]
  rfl

/-- The self-loop factor `1 / deg`, on non-negative destination ids. -/
theorem self0 (h : ∀ e, 0 ≤ (Cert.ReferenceIdeal.Read.val_main_v3 (F := Ideal) (U (Proc.devRef .tc main_arg1)) e).toInt) :
    after hostOps0 U (Proc.devRef .tc main_v27)
      = Cert.ReferenceIdeal.Read.val_main_v46 (F := Ideal) (U (Proc.devRef .tc main_arg1)) (U (Proc.devRef .tc main_arg2)) := by
  read_fold hostOps0
  simp only [Cert.ReferenceIdeal.Read.val_main_v46, Cert.ReferenceIdeal.Read.val_main_v45, Cert.ReferenceIdeal.Read.val_main_cst_9, Cert.ReferenceIdeal.Read.val_main_v14, Cert.ReferenceIdeal.Read.val_main_v13, Cert.ReferenceIdeal.Read.val_main_cst_1, Cert.ReferenceIdeal.Read.val_main_v12, Cert.ReferenceIdeal.Read.val_main_v11, Cert.ReferenceIdeal.Read.val_main_v5, Cert.ReferenceIdeal.Read.val_main_cst]
  rw [Cert.RefWrap.wrap_dst _ h]
  rfl

/-! ## The second stretch: the first propagation, and the first layer's parameter rows -/

/-- The first aggregation, from the projected rows and the edge data of the first stretch. -/
theorem agg1
    (x0 : (⟨Cert.ReferenceIdeal.S100000x8, .f32⟩ : BufTy).Contents (Elt Ideal)) (x1 : (⟨Cert.ReferenceIdeal.S2x3200000, .i32⟩ : BufTy).Contents (Elt Ideal))
    (x2 : (⟨Cert.ReferenceIdeal.S3200000, .f32⟩ : BufTy).Contents (Elt Ideal)) (x3 : (⟨Cert.ReferenceIdeal.S8x64, .f32⟩ : BufTy).Contents (Elt Ideal))
    (hp : (U (Proc.devRef .tc main_v28)) = Cert.ReferenceIdeal.Read.val_main_v4 (F := Ideal) x0 x3)
    (hs : (U (Proc.devRef .tc main_v1)) = Cert.ReferenceIdeal.Read.val_main_v1 (F := Ideal) x1) (hd : (U (Proc.devRef .tc main_v3)) = Cert.ReferenceIdeal.Read.val_main_v3 (F := Ideal) x1)
    (hn : (U (Proc.devRef .tc main_v25)) = Cert.ReferenceIdeal.Read.val_main_v31 (F := Ideal) x1 x2) (hl : (U (Proc.devRef .tc main_v27)) = Cert.ReferenceIdeal.Read.val_main_v46 (F := Ideal) x1 x2) :
    after hostOps1 U (Proc.devRef .tc main_v45) = Cert.ReferenceIdeal.Read.val_main_v50 (F := Ideal) x0 x1 x2 x3 := by
  read_fold hostOps1
  rw [hp, hs, hd, hn, hl]
  simp only [Cert.ReferenceIdeal.Read.val_main_v32, Cert.ReferenceIdeal.Read.val_main_c_6, Cert.ReferenceIdeal.Read.val_main_v33, Cert.ReferenceIdeal.Read.val_main_v34, Cert.ReferenceIdeal.Read.val_main_c_7, Cert.ReferenceIdeal.Read.val_main_v35, Cert.ReferenceIdeal.Read.val_main_v36, Cert.ReferenceIdeal.Read.val_main_v37, Cert.ReferenceIdeal.Read.val_main_v38, Cert.ReferenceIdeal.Read.val_main_v39, Cert.ReferenceIdeal.Read.val_main_v40, Cert.ReferenceIdeal.Read.val_main_v41, Cert.ReferenceIdeal.Read.val_main_cst_8, Cert.ReferenceIdeal.Read.val_main_v42, Cert.ReferenceIdeal.Read.val_main_v43, Cert.ReferenceIdeal.Read.val_main_v44, Cert.ReferenceIdeal.Read.val_main_v47, Cert.ReferenceIdeal.Read.val_main_v48, Cert.ReferenceIdeal.Read.val_main_v49, Cert.ReferenceIdeal.Read.val_main_v50]
  rfl

/-! ## The third stretch: the second propagation -/

/-- The reference recomputes the degree, the normalisation and the self-loop factor for its second layer: the same
    operations on the same inputs. -/
theorem norm_again {F : FTy → Type} [FloatOps F] (x1 : (⟨Cert.ReferenceIdeal.S2x3200000, .i32⟩ : BufTy).Contents (Elt F))
    (x2 : (⟨Cert.ReferenceIdeal.S3200000, .f32⟩ : BufTy).Contents (Elt F)) :
    Cert.ReferenceIdeal.Read.val_main_v97 (F := F) x1 x2 = Cert.ReferenceIdeal.Read.val_main_v31 (F := F) x1 x2 := by
  simp only [Cert.ReferenceIdeal.Read.val_main_cst_11, Cert.ReferenceIdeal.Read.val_main_v71, Cert.ReferenceIdeal.Read.val_main_c_12, Cert.ReferenceIdeal.Read.val_main_v72, Cert.ReferenceIdeal.Read.val_main_v73, Cert.ReferenceIdeal.Read.val_main_c_13, Cert.ReferenceIdeal.Read.val_main_v74, Cert.ReferenceIdeal.Read.val_main_v75, Cert.ReferenceIdeal.Read.val_main_v76, Cert.ReferenceIdeal.Read.val_main_v77, Cert.ReferenceIdeal.Read.val_main_v78, Cert.ReferenceIdeal.Read.val_main_cst_14, Cert.ReferenceIdeal.Read.val_main_v79, Cert.ReferenceIdeal.Read.val_main_v80, Cert.ReferenceIdeal.Read.val_main_v81, Cert.ReferenceIdeal.Read.val_main_c_15, Cert.ReferenceIdeal.Read.val_main_v82, Cert.ReferenceIdeal.Read.val_main_v83, Cert.ReferenceIdeal.Read.val_main_c_16, Cert.ReferenceIdeal.Read.val_main_v84, Cert.ReferenceIdeal.Read.val_main_v85, Cert.ReferenceIdeal.Read.val_main_v86, Cert.ReferenceIdeal.Read.val_main_v87, Cert.ReferenceIdeal.Read.val_main_v88, Cert.ReferenceIdeal.Read.val_main_v89, Cert.ReferenceIdeal.Read.val_main_c_17, Cert.ReferenceIdeal.Read.val_main_v90, Cert.ReferenceIdeal.Read.val_main_v91, Cert.ReferenceIdeal.Read.val_main_c_18, Cert.ReferenceIdeal.Read.val_main_v92, Cert.ReferenceIdeal.Read.val_main_v93, Cert.ReferenceIdeal.Read.val_main_v94, Cert.ReferenceIdeal.Read.val_main_v95, Cert.ReferenceIdeal.Read.val_main_v96, Cert.ReferenceIdeal.Read.val_main_v97, Cert.ReferenceIdeal.Read.val_main_cst, Cert.ReferenceIdeal.Read.val_main_v5, Cert.ReferenceIdeal.Read.val_main_c, Cert.ReferenceIdeal.Read.val_main_v6, Cert.ReferenceIdeal.Read.val_main_v7, Cert.ReferenceIdeal.Read.val_main_c_0, Cert.ReferenceIdeal.Read.val_main_v8, Cert.ReferenceIdeal.Read.val_main_v9, Cert.ReferenceIdeal.Read.val_main_v10, Cert.ReferenceIdeal.Read.val_main_v11, Cert.ReferenceIdeal.Read.val_main_v12, Cert.ReferenceIdeal.Read.val_main_cst_1, Cert.ReferenceIdeal.Read.val_main_v13, Cert.ReferenceIdeal.Read.val_main_v14, Cert.ReferenceIdeal.Read.val_main_v15, Cert.ReferenceIdeal.Read.val_main_c_2, Cert.ReferenceIdeal.Read.val_main_v16, Cert.ReferenceIdeal.Read.val_main_v17, Cert.ReferenceIdeal.Read.val_main_c_3, Cert.ReferenceIdeal.Read.val_main_v18, Cert.ReferenceIdeal.Read.val_main_v19, Cert.ReferenceIdeal.Read.val_main_v20, Cert.ReferenceIdeal.Read.val_main_v21, Cert.ReferenceIdeal.Read.val_main_v22, Cert.ReferenceIdeal.Read.val_main_v23, Cert.ReferenceIdeal.Read.val_main_c_4, Cert.ReferenceIdeal.Read.val_main_v24, Cert.ReferenceIdeal.Read.val_main_v25, Cert.ReferenceIdeal.Read.val_main_c_5, Cert.ReferenceIdeal.Read.val_main_v26, Cert.ReferenceIdeal.Read.val_main_v27, Cert.ReferenceIdeal.Read.val_main_v28, Cert.ReferenceIdeal.Read.val_main_v29, Cert.ReferenceIdeal.Read.val_main_v30, Cert.ReferenceIdeal.Read.val_main_v31]
theorem self_again {F : FTy → Type} [FloatOps F] (x1 : (⟨Cert.ReferenceIdeal.S2x3200000, .i32⟩ : BufTy).Contents (Elt F))
    (x2 : (⟨Cert.ReferenceIdeal.S3200000, .f32⟩ : BufTy).Contents (Elt F)) :
    Cert.ReferenceIdeal.Read.val_main_v112 (F := F) x1 x2 = Cert.ReferenceIdeal.Read.val_main_v46 (F := F) x1 x2 := by
  simp only [Cert.ReferenceIdeal.Read.val_main_v112, Cert.ReferenceIdeal.Read.val_main_v111, Cert.ReferenceIdeal.Read.val_main_cst_22, Cert.ReferenceIdeal.Read.val_main_c_12, Cert.ReferenceIdeal.Read.val_main_v80, Cert.ReferenceIdeal.Read.val_main_v79, Cert.ReferenceIdeal.Read.val_main_cst_14, Cert.ReferenceIdeal.Read.val_main_v78, Cert.ReferenceIdeal.Read.val_main_v77, Cert.ReferenceIdeal.Read.val_main_v71, Cert.ReferenceIdeal.Read.val_main_cst_11, Cert.ReferenceIdeal.Read.val_main_v72, Cert.ReferenceIdeal.Read.val_main_v73, Cert.ReferenceIdeal.Read.val_main_c_13, Cert.ReferenceIdeal.Read.val_main_v74, Cert.ReferenceIdeal.Read.val_main_v75, Cert.ReferenceIdeal.Read.val_main_v76, Cert.ReferenceIdeal.Read.val_main_v46, Cert.ReferenceIdeal.Read.val_main_v45, Cert.ReferenceIdeal.Read.val_main_cst_9, Cert.ReferenceIdeal.Read.val_main_v14, Cert.ReferenceIdeal.Read.val_main_v13, Cert.ReferenceIdeal.Read.val_main_cst_1, Cert.ReferenceIdeal.Read.val_main_v12, Cert.ReferenceIdeal.Read.val_main_v11, Cert.ReferenceIdeal.Read.val_main_v5, Cert.ReferenceIdeal.Read.val_main_cst, Cert.ReferenceIdeal.Read.val_main_c, Cert.ReferenceIdeal.Read.val_main_v6, Cert.ReferenceIdeal.Read.val_main_v7, Cert.ReferenceIdeal.Read.val_main_c_0, Cert.ReferenceIdeal.Read.val_main_v8, Cert.ReferenceIdeal.Read.val_main_v9, Cert.ReferenceIdeal.Read.val_main_v10]

/-- The second aggregation, from the second projection and the edge data of the first stretch. -/
theorem agg2
    (x0 : (⟨Cert.ReferenceIdeal.S100000x8, .f32⟩ : BufTy).Contents (Elt Ideal)) (x1 : (⟨Cert.ReferenceIdeal.S2x3200000, .i32⟩ : BufTy).Contents (Elt Ideal)) (x2 : (⟨Cert.ReferenceIdeal.S3200000, .f32⟩ : BufTy).Contents (Elt Ideal)) (x3 : (⟨Cert.ReferenceIdeal.S8x64, .f32⟩ : BufTy).Contents (Elt Ideal))
    (x4 : (⟨Cert.ReferenceIdeal.S64, .f32⟩ : BufTy).Contents (Elt Ideal)) (x5 : (⟨Cert.ReferenceIdeal.S64x64, .f32⟩ : BufTy).Contents (Elt Ideal)) (x7 x8 x9 x10 : (⟨Cert.ReferenceIdeal.S64, .f32⟩ : BufTy).Contents (Elt Ideal))
    (hp : (U (Proc.devRef .tc main_v51_1)) = Cert.ReferenceIdeal.Read.val_main_v70 (F := Ideal) x0 x1 x2 x3 x4 x5 x7 x8 x9 x10)
    (hs : (U (Proc.devRef .tc main_v1)) = Cert.ReferenceIdeal.Read.val_main_v1 (F := Ideal) x1) (hd : (U (Proc.devRef .tc main_v3)) = Cert.ReferenceIdeal.Read.val_main_v3 (F := Ideal) x1)
    (hn : (U (Proc.devRef .tc main_v25)) = Cert.ReferenceIdeal.Read.val_main_v97 (F := Ideal) x1 x2) (hl : (U (Proc.devRef .tc main_v27)) = Cert.ReferenceIdeal.Read.val_main_v112 (F := Ideal) x1 x2) :
    after hostOps2 U (Proc.devRef .tc main_v68) = Cert.ReferenceIdeal.Read.val_main_v116 (F := Ideal) x0 x1 x2 x3 x4 x5 x7 x8 x9 x10 := by
  read_fold hostOps2
  rw [hp, hs, hd, hn, hl]
  simp only [Cert.ReferenceIdeal.Read.val_main_v98, Cert.ReferenceIdeal.Read.val_main_c_19, Cert.ReferenceIdeal.Read.val_main_v99, Cert.ReferenceIdeal.Read.val_main_v100, Cert.ReferenceIdeal.Read.val_main_c_20, Cert.ReferenceIdeal.Read.val_main_v101, Cert.ReferenceIdeal.Read.val_main_v102, Cert.ReferenceIdeal.Read.val_main_v103, Cert.ReferenceIdeal.Read.val_main_v104, Cert.ReferenceIdeal.Read.val_main_v105, Cert.ReferenceIdeal.Read.val_main_v106, Cert.ReferenceIdeal.Read.val_main_v107, Cert.ReferenceIdeal.Read.val_main_cst_21, Cert.ReferenceIdeal.Read.val_main_v108, Cert.ReferenceIdeal.Read.val_main_v109, Cert.ReferenceIdeal.Read.val_main_v110, Cert.ReferenceIdeal.Read.val_main_v113, Cert.ReferenceIdeal.Read.val_main_v114, Cert.ReferenceIdeal.Read.val_main_v115, Cert.ReferenceIdeal.Read.val_main_v116]
  rfl

end Cert.FoldReads

end
-- ==== Proof.ParamReads.lean ====
/-
  The parameter arrays as the regions find them. Between the regions the program's host operations reshape each
  parameter vector `[n]` into a row `[1, n]`, transpose two weight matrices, and leave every other argument
  alone. Each theorem reads one such buffer, after a stretch of host operations from ANY contents `U`, as the argument it
  came from at an index; `kept0` / `kept1` / `kept2` say a buffer no operation of a stretch writes is as it was.
-/
import proofs.«159935_j82514911690903_1_alg».proof.Proof.Gen.KernelIdeal.Launch
import Idealize.ShloMosaic.Lib.StableHlo.Run
import Idealize.ShloMosaic.PureOps.Ideal
import Idealize.ShloMosaic.Lib.Pipeline.Value
import Idealize.ShloMosaic.Lib.ValueIdx

set_option maxRecDepth 16384

noncomputable section

namespace Cert.ParamReads

open Cert.KernelIdeal Cert.KernelIdeal.Gen
open Idealize.ShloMosaic Idealize.ShloMosaic.TcCoe Idealize.SL.Sem Idealize.ShloMosaic.StableHlo Idealize.ShloMosaic.ValueIdx

/-! ## What a stretch of host operations leaves alone -/

section Kept
variable {F : FTy → Type} [FloatOps F]

/-- The buffers the 35 host operations before region 0 write, one each, in order. -/
abbrev written0 : List (Ref sig .tc) :=
  [main_v0, main_v1, main_v2, main_v3, main_cst, main_v4, main_v5, main_v6, main_cst_0, main_v7, main_v8, main_v9, main_c, main_v10, main_v11, main_c_1, main_v12, main_v13, main_v14, main_v15, main_v16, main_v17, main_c_2, main_v18, main_v19, main_c_3, main_v20, main_v21, main_v22, main_v23, main_v24, main_v25, main_cst_4, main_v26, main_v27]

/-- Every host operation before region 0 writes one buffer of that list. -/
theorem hostOps0_writes : (hostOps0 : List (HloOp τ sig (Elt F))).Forall fun op =>
    op.writes ⊆ (written0.map (Proc.devRef (τ := τ) .tc)).toFinset := by
  simp only [hostOps0, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))

/-- A buffer outside that list is as it was after the host operations before region 0
    (at a literal reference the side condition is `by decide`). -/
theorem kept0 (U : Valuation τ sig (Elt F)) (r : Ref sig .tc) (hr : r ∉ written0) :
    after hostOps0 U (Proc.devRef .tc r) = U (Proc.devRef .tc r) :=
  after_of_writes_sub hostOps0 U hostOps0_writes hr

/-- The buffers the 25 host operations before region 1 write, one each, in order. -/
abbrev written1 : List (Ref sig .tc) :=
  [main_v29, main_c_5, main_v30, main_v31, main_c_6, main_v32, main_v33, main_v34, main_v35, main_v36, main_v37, main_v38, main_cst_7, main_v39, main_v40, main_v41, main_v42, main_v43, main_v44, main_v45, main_v46, main_v47, main_v48, main_v49, main_v50]

/-- Every host operation before region 1 writes one buffer of that list. -/
theorem hostOps1_writes : (hostOps1 : List (HloOp τ sig (Elt F))).Forall fun op =>
    op.writes ⊆ (written1.map (Proc.devRef (τ := τ) .tc)).toFinset := by
  simp only [hostOps1, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))

/-- A buffer outside that list is as it was after the host operations before region 1
    (at a literal reference the side condition is `by decide`). -/
theorem kept1 (U : Valuation τ sig (Elt F)) (r : Ref sig .tc) (hr : r ∉ written1) :
    after hostOps1 U (Proc.devRef .tc r) = U (Proc.devRef .tc r) :=
  after_of_writes_sub hostOps1 U hostOps1_writes hr

/-- The buffers the 32 host operations before region 2 write, one each, in order. -/
abbrev written2 : List (Ref sig .tc) :=
  [main_v52, main_c_8, main_v53, main_v54, main_c_9, main_v55, main_v56, main_v57, main_v58, main_v59, main_v60, main_v61, main_cst_10, main_v62, main_v63, main_v64, main_v65, main_v66, main_v67, main_v68, main_v69, main_v70, main_v71, main_v72, main_v73, main_v74, main_v75, main_v76, main_v77, main_v78, main_v79, main_v80]

/-- Every host operation before region 2 writes one buffer of that list. -/
theorem hostOps2_writes : (hostOps2 : List (HloOp τ sig (Elt F))).Forall fun op =>
    op.writes ⊆ (written2.map (Proc.devRef (τ := τ) .tc)).toFinset := by
  simp only [hostOps2, List.Forall, StableHlo.nullary_writes, StableHlo.unary_writes, StableHlo.binary_writes, StableHlo.ternary_writes, StableHlo.quaternary_writes, StableHlo.reshape_writes]
  repeat' apply And.intro
  all_goals exact Finset.singleton_subset_iff.mpr (List.mem_toFinset.mpr (List.mem_map.mpr ⟨_, by decide, rfl⟩))

/-- A buffer outside that list is as it was after the host operations before region 2
    (at a literal reference the side condition is `by decide`). -/
theorem kept2 (U : Valuation τ sig (Elt F)) (r : Ref sig .tc) (hr : r ∉ written2) :
    after hostOps2 U (Proc.devRef .tc r) = U (Proc.devRef .tc r) :=
  after_of_writes_sub hostOps2 U hostOps2_writes hr

end Kept

/-! ## A vector as a one-row matrix, and a transposed matrix, at an index -/

/-- A vector `[n]` reshaped to a row `[1, n]` reads, at `(0, k)`, the vector at `k`. -/
theorem reshape_row {α : Type} {n : ℕ} (x : (⟨1, ![n]⟩ : Shape).Idx → α) (h : (⟨1, ![n]⟩ : Shape).ShapeCasts ⟨2, ![1, n]⟩)
    (k : Fin n) : shapeCast ⟨2, ![1, n]⟩ x h (ix2 (0 : Fin 1) k) = x (ix1 k) :=
  shapeCast_apply x h _ _ (by
    rw [Shape.rowMajor_val_two, Shape.rowMajor_val_one]
    show k.val = 0 * n + k.val
    rw [Nat.zero_mul, Nat.zero_add])

/-- A matrix `[b, a]` transposed to `[a, b]` reads, at `(k, j)`, the matrix at `(j, k)`. -/
theorem transpose_at {α : Type} {a b : ℕ} (x : (⟨2, ![b, a]⟩ : Shape).Idx → α)
    (h : (⟨2, ![b, a]⟩ : Shape).Transposes [1, 0] ⟨2, ![a, b]⟩) (k : Fin a) (j : Fin b) :
    transpose ⟨2, ![a, b]⟩ [1, 0] x h (ix2 k j) = x (ix2 j k) :=
  transpose_apply [1, 0] x h (ix2 k j) (ix2 j k) (fun c => match c with
    | ⟨0, _⟩ => rfl
    | ⟨1, _⟩ => rfl)

variable (U : Valuation τ sig (Elt Ideal))

/-! ## The rows region 1 reads -/

/-- `main_v46` is `main_arg4` as a row: entry `(0, k)` is entry `k`. -/
theorem row_v46 (k : Fin 64) : (after hostOps1 U (Proc.devRef .tc main_v46) : (⟨2, ![1, 64]⟩ : Shape).Idx → EReal) (ix2 0 k)
    = (U (Proc.devRef .tc main_arg4) : (⟨1, ![64]⟩ : Shape).Idx → EReal) (ix1 k) := by
  dsimp only [hostOps1]
  after_results_simp
  exact reshape_row _ _ k

/-- `main_v47` is `main_arg7` as a row: entry `(0, k)` is entry `k`. -/
theorem row_v47 (k : Fin 64) : (after hostOps1 U (Proc.devRef .tc main_v47) : (⟨2, ![1, 64]⟩ : Shape).Idx → EReal) (ix2 0 k)
    = (U (Proc.devRef .tc main_arg7) : (⟨1, ![64]⟩ : Shape).Idx → EReal) (ix1 k) := by
  dsimp only [hostOps1]
  after_results_simp
  exact reshape_row _ _ k

/-- `main_v48` is `main_arg8` as a row: entry `(0, k)` is entry `k`. -/
theorem row_v48 (k : Fin 64) : (after hostOps1 U (Proc.devRef .tc main_v48) : (⟨2, ![1, 64]⟩ : Shape).Idx → EReal) (ix2 0 k)
    = (U (Proc.devRef .tc main_arg8) : (⟨1, ![64]⟩ : Shape).Idx → EReal) (ix1 k) := by
  dsimp only [hostOps1]
  after_results_simp
  exact reshape_row _ _ k

/-- `main_v49` is `main_arg9` as a row: entry `(0, k)` is entry `k`. -/
theorem row_v49 (k : Fin 64) : (after hostOps1 U (Proc.devRef .tc main_v49) : (⟨2, ![1, 64]⟩ : Shape).Idx → EReal) (ix2 0 k)
    = (U (Proc.devRef .tc main_arg9) : (⟨1, ![64]⟩ : Shape).Idx → EReal) (ix1 k) := by
  dsimp only [hostOps1]
  after_results_simp
  exact reshape_row _ _ k

/-- `main_v50` is `main_arg10` as a row: entry `(0, k)` is entry `k`. -/
theorem row_v50 (k : Fin 64) : (after hostOps1 U (Proc.devRef .tc main_v50) : (⟨2, ![1, 64]⟩ : Shape).Idx → EReal) (ix2 0 k)
    = (U (Proc.devRef .tc main_arg10) : (⟨1, ![64]⟩ : Shape).Idx → EReal) (ix1 k) := by
  dsimp only [hostOps1]
  after_results_simp
  exact reshape_row _ _ k

/-! ## The rows and the transposed matrices region 2 reads -/

/-- `main_v71` is `main_arg6` as a row: entry `(0, k)` is entry `k`. -/
theorem row_v71 (k : Fin 64) : (after hostOps2 U (Proc.devRef .tc main_v71) : (⟨2, ![1, 64]⟩ : Shape).Idx → EReal) (ix2 0 k)
    = (U (Proc.devRef .tc main_arg6) : (⟨1, ![64]⟩ : Shape).Idx → EReal) (ix1 k) := by
  dsimp only [hostOps2]
  after_results_simp
  exact reshape_row _ _ k

/-- `main_v72` is `main_arg11` as a row: entry `(0, k)` is entry `k`. -/
theorem row_v72 (k : Fin 64) : (after hostOps2 U (Proc.devRef .tc main_v72) : (⟨2, ![1, 64]⟩ : Shape).Idx → EReal) (ix2 0 k)
    = (U (Proc.devRef .tc main_arg11) : (⟨1, ![64]⟩ : Shape).Idx → EReal) (ix1 k) := by
  dsimp only [hostOps2]
  after_results_simp
  exact reshape_row _ _ k

/-- `main_v73` is `main_arg12` as a row: entry `(0, k)` is entry `k`. -/
theorem row_v73 (k : Fin 64) : (after hostOps2 U (Proc.devRef .tc main_v73) : (⟨2, ![1, 64]⟩ : Shape).Idx → EReal) (ix2 0 k)
    = (U (Proc.devRef .tc main_arg12) : (⟨1, ![64]⟩ : Shape).Idx → EReal) (ix1 k) := by
  dsimp only [hostOps2]
  after_results_simp
  exact reshape_row _ _ k

/-- `main_v74` is `main_arg13` as a row: entry `(0, k)` is entry `k`. -/
theorem row_v74 (k : Fin 64) : (after hostOps2 U (Proc.devRef .tc main_v74) : (⟨2, ![1, 64]⟩ : Shape).Idx → EReal) (ix2 0 k)
    = (U (Proc.devRef .tc main_arg13) : (⟨1, ![64]⟩ : Shape).Idx → EReal) (ix1 k) := by
  dsimp only [hostOps2]
  after_results_simp
  exact reshape_row _ _ k

/-- `main_v75` is `main_arg14` as a row: entry `(0, k)` is entry `k`. -/
theorem row_v75 (k : Fin 64) : (after hostOps2 U (Proc.devRef .tc main_v75) : (⟨2, ![1, 64]⟩ : Shape).Idx → EReal) (ix2 0 k)
    = (U (Proc.devRef .tc main_arg14) : (⟨1, ![64]⟩ : Shape).Idx → EReal) (ix1 k) := by
  dsimp only [hostOps2]
  after_results_simp
  exact reshape_row _ _ k

/-- `main_v76` is `main_arg16` as a row: entry `(0, j)` is entry `j`. -/
theorem row_v76 (j : Fin 256) : (after hostOps2 U (Proc.devRef .tc main_v76) : (⟨2, ![1, 256]⟩ : Shape).Idx → EReal) (ix2 0 j)
    = (U (Proc.devRef .tc main_arg16) : (⟨1, ![256]⟩ : Shape).Idx → EReal) (ix1 j) := by
  dsimp only [hostOps2]
  after_results_simp
  exact reshape_row _ _ j

/-- `main_v77` is `main_arg17` as a row: entry `(0, j)` is entry `j`. -/
theorem row_v77 (j : Fin 256) : (after hostOps2 U (Proc.devRef .tc main_v77) : (⟨2, ![1, 256]⟩ : Shape).Idx → EReal) (ix2 0 j)
    = (U (Proc.devRef .tc main_arg17) : (⟨1, ![256]⟩ : Shape).Idx → EReal) (ix1 j) := by
  dsimp only [hostOps2]
  after_results_simp
  exact reshape_row _ _ j

/-- `main_v78` is `main_arg19` as a row: entry `(0, j)` is entry `j`. -/
theorem row_v78 (j : Fin 256) : (after hostOps2 U (Proc.devRef .tc main_v78) : (⟨2, ![1, 256]⟩ : Shape).Idx → EReal) (ix2 0 j)
    = (U (Proc.devRef .tc main_arg19) : (⟨1, ![256]⟩ : Shape).Idx → EReal) (ix1 j) := by
  dsimp only [hostOps2]
  after_results_simp
  exact reshape_row _ _ j

/-- `main_v79` is `main_arg20` as a row: entry `(0, j)` is entry `j`. -/
theorem row_v79 (j : Fin 256) : (after hostOps2 U (Proc.devRef .tc main_v79) : (⟨2, ![1, 256]⟩ : Shape).Idx → EReal) (ix2 0 j)
    = (U (Proc.devRef .tc main_arg20) : (⟨1, ![256]⟩ : Shape).Idx → EReal) (ix1 j) := by
  dsimp only [hostOps2]
  after_results_simp
  exact reshape_row _ _ j

/-- `main_v80` is `main_arg22` as a `[1, 1]` matrix. -/
theorem row_v80 : (after hostOps2 U (Proc.devRef .tc main_v80) : (⟨2, ![1, 1]⟩ : Shape).Idx → EReal) (ix2 0 0)
    = (U (Proc.devRef .tc main_arg22) : (⟨1, ![1]⟩ : Shape).Idx → EReal) (ix1 0) := by
  dsimp only [hostOps2]
  after_results_simp
  exact reshape_row _ _ (0 : Fin 1)

/-- `main_v69` is `main_arg15` transposed: entry `(k, j)` is entry `(j, k)`. -/
theorem transposed_v69 (k : Fin 128) (j : Fin 256) : (after hostOps2 U (Proc.devRef .tc main_v69) : (⟨2, ![128, 256]⟩ : Shape).Idx → EReal) (ix2 k j)
    = (U (Proc.devRef .tc main_arg15) : (⟨2, ![256, 128]⟩ : Shape).Idx → EReal) (ix2 j k) := by
  dsimp only [hostOps2]
  after_results_simp
  exact transpose_at _ _ k j

/-- `main_v70` is `main_arg18` transposed: entry `(k, j)` is entry `(j, k)`. -/
theorem transposed_v70 (k : Fin 64) (j : Fin 256) : (after hostOps2 U (Proc.devRef .tc main_v70) : (⟨2, ![64, 256]⟩ : Shape).Idx → EReal) (ix2 k j)
    = (U (Proc.devRef .tc main_arg18) : (⟨2, ![256, 64]⟩ : Shape).Idx → EReal) (ix2 j k) := by
  dsimp only [hostOps2]
  after_results_simp
  exact transpose_at _ _ k j

end Cert.ParamReads

end
-- ==== Proof.GlueChain.lean ====
/-
  The kernel's result, boundary by boundary, is the reference's result.

  The kernel's program alternates host stretches and row-tiled regions; the contents of its buffers at each boundary
  are the fold `Gen.W0` … `Gen.W6`. Walking the fold once:

  * after the first stretch the sources, destinations, edge normalisation and self-loop factor are the reference's
    (`FoldReads.src0` … `self0`; the normalisation and the factor use that destination ids are non-negative);
  * the first region leaves `x · W1` (`Region0.arr`), the reference's first projection (`RefLayer1.proj_eq`);
  * the second stretch propagates it: the reference's first aggregation (`FoldReads.agg1`);
  * the second region leaves the first activation and its projection (`Region1.arr_h1`, `arr_h2pre`), the reference's
    (`RefLayer1.h1_eq`, `h2pre_eq`), the parameter rows being reshapes of the parameters;
  * the third stretch propagates the second projection: the reference's second aggregation (`FoldReads.agg2`, the
    reference's recomputed normalisation being the first one: `norm_again`, `self_again`);
  * the last region leaves `Spec.final` of those (`Region2.arr`), the reference's result (`RefFinal.final_eq`).

  An argument array is written by nothing, so it is read back through the fold to the launch memory.
-/
import proofs.«159935_j82514911690903_1_alg».proof.Proof.Gen.KernelIdeal.Frame
import proofs.«159935_j82514911690903_1_alg».proof.Proof.ReadP
import proofs.«159935_j82514911690903_1_alg».proof.Proof.Spec
import proofs.«159935_j82514911690903_1_alg».proof.Proof.Region0
import proofs.«159935_j82514911690903_1_alg».proof.Proof.Region1
import proofs.«159935_j82514911690903_1_alg».proof.Proof.Region2
import proofs.«159935_j82514911690903_1_alg».proof.Proof.RefLayer1
import proofs.«159935_j82514911690903_1_alg».proof.Proof.RefFinal
import proofs.«159935_j82514911690903_1_alg».proof.Proof.FoldReads
import proofs.«159935_j82514911690903_1_alg».proof.Proof.ParamReads

set_option maxRecDepth 16384

noncomputable section

namespace Cert.GlueChain

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## Buffers nothing writes: read back through the fold -/

/-- A buffer that is no region's array and that no stretch writes holds, at the second region's exit, what the launch
    memory holds. -/
theorem W4_back (r : Ref sig .tc) (h0 : r ∉ Cert.ParamReads.written0) (h1 : r ∉ Cert.ParamReads.written1)
    (hs0 : ∀ w, Pipeline.arrRef spec0 w ≠ r) (hs1 : ∀ w, Pipeline.arrRef spec1 w ≠ r) :
    W4 m ρ c (Proc.devRef .tc r) = W0 m ρ c (Proc.devRef .tc r) :=
  calc W4 m ρ c (Proc.devRef .tc r)
    _ = W3 m ρ c (Proc.devRef .tc r) := W4_of_ne m ρ c r hs1
    _ = W2 m ρ c (Proc.devRef .tc r) := Cert.ParamReads.kept1 (W2 m ρ c) r h1
    _ = W1 m ρ c (Proc.devRef .tc r) := W2_of_ne m ρ c r hs0
    _ = W0 m ρ c (Proc.devRef .tc r) := Cert.ParamReads.kept0 (W0 m ρ c) r h0

/-- The same at the first region's exit. -/
theorem W2_back (r : Ref sig .tc) (h0 : r ∉ Cert.ParamReads.written0) (hs0 : ∀ w, Pipeline.arrRef spec0 w ≠ r) :
    W2 m ρ c (Proc.devRef .tc r) = W0 m ρ c (Proc.devRef .tc r) :=
  (W2_of_ne m ρ c r hs0).trans (Cert.ParamReads.kept0 (W0 m ρ c) r h0)

/-! ## The first stretch -/

variable (hdst : ∀ e, 0 ≤ (Cert.ReferenceIdeal.Read.val_main_v3 (F := Ideal) (m ((c : Thread nD τ).loc main_arg1)) e).toInt)

theorem W1_src : W1 m ρ c (Proc.devRef .tc main_v1) = Cert.ReferenceIdeal.Read.val_main_v1 (F := Ideal) (m ((c : Thread nD τ).loc main_arg1)) := Cert.FoldReads.src0 (W0 m ρ c)
theorem W1_dst : W1 m ρ c (Proc.devRef .tc main_v3) = Cert.ReferenceIdeal.Read.val_main_v3 (F := Ideal) (m ((c : Thread nD τ).loc main_arg1)) := Cert.FoldReads.dst0 (W0 m ρ c)
include hdst in
theorem W1_norm : W1 m ρ c (Proc.devRef .tc main_v25) = Cert.ReferenceIdeal.Read.val_main_v31 (F := Ideal) (m ((c : Thread nD τ).loc main_arg1)) (m ((c : Thread nD τ).loc main_arg2)) := Cert.FoldReads.norm0 (W0 m ρ c) hdst
include hdst in
theorem W1_self : W1 m ρ c (Proc.devRef .tc main_v27) = Cert.ReferenceIdeal.Read.val_main_v46 (F := Ideal) (m ((c : Thread nD τ).loc main_arg1)) (m ((c : Thread nD τ).loc main_arg2)) := Cert.FoldReads.self0 (W0 m ρ c) hdst

/-! ## The first region and the second stretch -/

/-- The first region leaves the reference's first projection. -/
theorem W2_proj : W2 m ρ c (Proc.devRef .tc main_v28) = Cert.ReferenceIdeal.Read.val_main_v4 (F := Ideal) (m ((c : Thread nD τ).loc main_arg0)) (m ((c : Thread nD τ).loc main_arg3)) := by
  refine (W2_arr m ρ c 2).trans ?_
  rw [Cert.KernelIdeal.Region0.arr (V1 m ρ) c]
  rw [show V1 m ρ c main_arg0 = (m ((c : Thread nD τ).loc main_arg0)) from Cert.ParamReads.kept0 (W0 m ρ c) main_arg0 (by decide),
    show V1 m ρ c main_arg3 = (m ((c : Thread nD τ).loc main_arg3)) from Cert.ParamReads.kept0 (W0 m ρ c) main_arg3 (by decide)]
  exact (Cert.RefLayer1.proj_eq _ _).symm

include hdst in
/-- The second stretch leaves the reference's first aggregation. -/
theorem W3_agg : W3 m ρ c (Proc.devRef .tc main_v45) = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) :=
  Cert.FoldReads.agg1 (W2 m ρ c) _ _ _ _ (W2_proj m ρ c)
    ((W2_of_ne m ρ c main_v1 (by decide)).trans (W1_src m ρ c))
    ((W2_of_ne m ρ c main_v3 (by decide)).trans (W1_dst m ρ c))
    ((W2_of_ne m ρ c main_v25 (by decide)).trans (W1_norm m ρ c hdst))
    ((W2_of_ne m ρ c main_v27 (by decide)).trans (W1_self m ρ c hdst))

/-! ## The second region -/

include hdst in
/-- The second region leaves the reference's first activation … -/
theorem W4_h1 : W4 m ρ c (Proc.devRef .tc main_v51_0) = Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) := by
  refine (W4_arr m ρ c 7).trans ?_
  rw [Cert.KernelIdeal.Region1.arr_h1 (V3 m ρ) c,
    show V3 m ρ c main_v45 = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) from W3_agg m ρ c hdst]
  refine Cert.RefLayer1.h1_eq _ _ _ _ (m ((c : Thread nD τ).loc main_arg4)) (m ((c : Thread nD τ).loc main_arg7)) (m ((c : Thread nD τ).loc main_arg8)) (m ((c : Thread nD τ).loc main_arg9)) (m ((c : Thread nD τ).loc main_arg10)) _ _ _ _ _ ?_ ?_ ?_ ?_ ?_
  · intro k; exact (Cert.ParamReads.row_v46 (W2 m ρ c) k).trans (congrFun (W2_back m ρ c main_arg4 (by decide) (by decide)) (ix1 k))
  · intro k; exact (Cert.ParamReads.row_v47 (W2 m ρ c) k).trans (congrFun (W2_back m ρ c main_arg7 (by decide) (by decide)) (ix1 k))
  · intro k; exact (Cert.ParamReads.row_v48 (W2 m ρ c) k).trans (congrFun (W2_back m ρ c main_arg8 (by decide) (by decide)) (ix1 k))
  · intro k; exact (Cert.ParamReads.row_v49 (W2 m ρ c) k).trans (congrFun (W2_back m ρ c main_arg9 (by decide) (by decide)) (ix1 k))
  · intro k; exact (Cert.ParamReads.row_v50 (W2 m ρ c) k).trans (congrFun (W2_back m ρ c main_arg10 (by decide) (by decide)) (ix1 k))

include hdst in
/-- … and its projection by `W2`. -/
theorem W4_h2pre : W4 m ρ c (Proc.devRef .tc main_v51_1) = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) := by
  refine (W4_arr m ρ c 8).trans ?_
  rw [Cert.KernelIdeal.Region1.arr_h2pre (V3 m ρ) c,
    show V3 m ρ c main_v45 = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) from W3_agg m ρ c hdst,
    show V3 m ρ c main_arg5 = (m ((c : Thread nD τ).loc main_arg5)) from (Cert.ParamReads.kept1 (W2 m ρ c) main_arg5 (by decide)).trans (W2_back m ρ c main_arg5 (by decide) (by decide))]
  refine Cert.RefLayer1.h2pre_eq _ _ _ _ (m ((c : Thread nD τ).loc main_arg4)) _ (m ((c : Thread nD τ).loc main_arg7)) (m ((c : Thread nD τ).loc main_arg8)) (m ((c : Thread nD τ).loc main_arg9)) (m ((c : Thread nD τ).loc main_arg10)) _ _ _ _ _ ?_ ?_ ?_ ?_ ?_
  · intro k; exact (Cert.ParamReads.row_v46 (W2 m ρ c) k).trans (congrFun (W2_back m ρ c main_arg4 (by decide) (by decide)) (ix1 k))
  · intro k; exact (Cert.ParamReads.row_v47 (W2 m ρ c) k).trans (congrFun (W2_back m ρ c main_arg7 (by decide) (by decide)) (ix1 k))
  · intro k; exact (Cert.ParamReads.row_v48 (W2 m ρ c) k).trans (congrFun (W2_back m ρ c main_arg8 (by decide) (by decide)) (ix1 k))
  · intro k; exact (Cert.ParamReads.row_v49 (W2 m ρ c) k).trans (congrFun (W2_back m ρ c main_arg9 (by decide) (by decide)) (ix1 k))
  · intro k; exact (Cert.ParamReads.row_v50 (W2 m ρ c) k).trans (congrFun (W2_back m ρ c main_arg10 (by decide) (by decide)) (ix1 k))

/-! ## The third stretch -/

/-- An edge-data buffer of the first stretch is still there at the second region's exit. -/
theorem W4_edge (r : Ref sig .tc) (h1 : r ∉ Cert.ParamReads.written1)
    (hs0 : ∀ w, Pipeline.arrRef spec0 w ≠ r) (hs1 : ∀ w, Pipeline.arrRef spec1 w ≠ r) :
    W4 m ρ c (Proc.devRef .tc r) = W1 m ρ c (Proc.devRef .tc r) :=
  calc W4 m ρ c (Proc.devRef .tc r)
    _ = W3 m ρ c (Proc.devRef .tc r) := W4_of_ne m ρ c r hs1
    _ = W2 m ρ c (Proc.devRef .tc r) := Cert.ParamReads.kept1 (W2 m ρ c) r h1
    _ = W1 m ρ c (Proc.devRef .tc r) := W2_of_ne m ρ c r hs0

include hdst in
/-- The third stretch leaves the reference's second aggregation. -/
theorem W5_agg : W5 m ρ c (Proc.devRef .tc main_v68) = Cert.ReferenceIdeal.Read.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) :=
  Cert.FoldReads.agg2 (W4 m ρ c) _ _ _ _ _ _ _ _ _ _ (W4_h2pre m ρ c hdst)
    ((W4_edge m ρ c main_v1 (by decide) (by decide) (by decide)).trans (W1_src m ρ c))
    ((W4_edge m ρ c main_v3 (by decide) (by decide) (by decide)).trans (W1_dst m ρ c))
    (((W4_edge m ρ c main_v25 (by decide) (by decide) (by decide)).trans (W1_norm m ρ c hdst)).trans (Cert.FoldReads.norm_again _ _).symm)
    (((W4_edge m ρ c main_v27 (by decide) (by decide) (by decide)).trans (W1_self m ρ c hdst)).trans (Cert.FoldReads.self_again _ _).symm)

/-! ## The last region -/

/-- The input features are the first region's input array: read there, written nowhere. -/
theorem W4_arg0 : W4 m ρ c (Proc.devRef .tc main_arg0) = W0 m ρ c (Proc.devRef .tc main_arg0) :=
  calc W4 m ρ c (Proc.devRef .tc main_arg0)
    _ = W3 m ρ c (Proc.devRef .tc main_arg0) := W4_of_ne m ρ c main_arg0 (by decide)
    _ = W2 m ρ c (Proc.devRef .tc main_arg0) := Cert.ParamReads.kept1 (W2 m ρ c) main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := Cert.ParamReads.kept0 (W0 m ρ c) main_arg0 (by decide)

include hdst in
/-- THE KERNEL'S RESULT is the reference's result of the launch memory's arguments. -/
theorem result_eq : W6 m ρ c (Proc.devRef .tc main_v81) = Cert.ReferenceIdeal.Read.val_main_v194 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  refine (W6_arr m ρ c 16).trans ?_
  rw [Cert.KernelIdeal.Region2.arr (V5 m ρ) c,
    show V5 m ρ c main_v51_0 = Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) from
      (Cert.ParamReads.kept2 (W4 m ρ c) main_v51_0 (by decide)).trans (W4_h1 m ρ c hdst),
    show V5 m ρ c main_v68 = Cert.ReferenceIdeal.Read.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) from W5_agg m ρ c hdst,
    show V5 m ρ c main_arg0 = (m ((c : Thread nD τ).loc main_arg0)) from
      (Cert.ParamReads.kept2 (W4 m ρ c) main_arg0 (by decide)).trans (W4_arg0 m ρ c),
    show V5 m ρ c main_arg21 = (m ((c : Thread nD τ).loc main_arg21)) from
      (Cert.ParamReads.kept2 (W4 m ρ c) main_arg21 (by decide)).trans (W4_back m ρ c main_arg21 (by decide) (by decide) (by decide) (by decide))]
  refine Cert.RefFinal.final_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) _ _ _ _ _ _ _ _ _ _ _ _ ?_ ?_ ?_ ?_ ?_ ?_ ?_ ?_ ?_ ?_ ?_ ?_
  · intro k; exact (Cert.ParamReads.row_v71 (W4 m ρ c) k).trans (congrFun (W4_back m ρ c main_arg6 (by decide) (by decide) (by decide) (by decide)) (ix1 k))
  · intro k; exact (Cert.ParamReads.row_v72 (W4 m ρ c) k).trans (congrFun (W4_back m ρ c main_arg11 (by decide) (by decide) (by decide) (by decide)) (ix1 k))
  · intro k; exact (Cert.ParamReads.row_v73 (W4 m ρ c) k).trans (congrFun (W4_back m ρ c main_arg12 (by decide) (by decide) (by decide) (by decide)) (ix1 k))
  · intro k; exact (Cert.ParamReads.row_v74 (W4 m ρ c) k).trans (congrFun (W4_back m ρ c main_arg13 (by decide) (by decide) (by decide) (by decide)) (ix1 k))
  · intro k; exact (Cert.ParamReads.row_v75 (W4 m ρ c) k).trans (congrFun (W4_back m ρ c main_arg14 (by decide) (by decide) (by decide) (by decide)) (ix1 k))
  · intro k j; exact (Cert.ParamReads.transposed_v69 (W4 m ρ c) k j).trans (congrFun (W4_back m ρ c main_arg15 (by decide) (by decide) (by decide) (by decide)) (ix2 j k))
  · intro j; exact (Cert.ParamReads.row_v76 (W4 m ρ c) j).trans (congrFun (W4_back m ρ c main_arg16 (by decide) (by decide) (by decide) (by decide)) (ix1 j))
  · intro j; exact (Cert.ParamReads.row_v77 (W4 m ρ c) j).trans (congrFun (W4_back m ρ c main_arg17 (by decide) (by decide) (by decide) (by decide)) (ix1 j))
  · intro k j; exact (Cert.ParamReads.transposed_v70 (W4 m ρ c) k j).trans (congrFun (W4_back m ρ c main_arg18 (by decide) (by decide) (by decide) (by decide)) (ix2 j k))
  · intro j; exact (Cert.ParamReads.row_v78 (W4 m ρ c) j).trans (congrFun (W4_back m ρ c main_arg19 (by decide) (by decide) (by decide) (by decide)) (ix1 j))
  · intro j; exact (Cert.ParamReads.row_v79 (W4 m ρ c) j).trans (congrFun (W4_back m ρ c main_arg20 (by decide) (by decide) (by decide) (by decide)) (ix1 j))
  · exact (Cert.ParamReads.row_v80 (W4 m ρ c)).trans (congrFun (W4_back m ρ c main_arg22 (by decide) (by decide) (by decide) (by decide)) (ix1 0))

end Cert.GlueChain

end
-- ==== Proof.PreDst.lean ====
/-
  The added domain conjunct, read back: every destination node id is non-negative.

  The precondition is a conjunction of `all`-reductions, one per float input (finiteness) and a last one over the
  destination row of the edge list: `all (dst ≥ 0)`, a signed comparison of every entry of row 1 of the `[2, E]` edge
  array against zero. A conjunction that is 1 has every conjunct 1; an `and`-reduction to a single word that is 1 met
  a 1 at every index; and a signed `≥` that is 1 says the order of the two words as integers.
-/
import proofs.«159935_j82514911690903_1_alg».proof.Pre_finite_inputs
import Idealize.ShloMosaic.Lib.ReduceAll

set_option maxRecDepth 16384

noncomputable section

namespace Cert.PreDst

open Idealize.ShloMosaic Cert.Pre_finite_inputs Cert.Pre_finite_inputs.Facts

variable [Cert.Pre_finite_inputs.Facts]

/-- The scalar shape has one index. -/
instance : Subsingleton S_.Idx := ⟨fun a b => funext fun d => d.elim0⟩

/-- Row 1 of the edge array as a flat array: the destination ids. -/
def dstRow (x1 : IVec S2x3200000 32) : IVec S3200000 32 :=
  shapeCast S3200000 (extractStridedSlice S1x3200000 ![1, 0] x1 slices_S2x3200000_S1x3200000_1_0) shapeCasts_S1x3200000_S3200000

variable {F : FTy → Type} [FloatOps F]

/-- The last conjunct of the precondition: under it every destination id is non-negative as a signed word. -/
theorem dst_nonneg (a0 : FVec F S100000x8 .f32) (a1 : IVec S2x3200000 32) (a2 : FVec F S3200000 .f32) (a3 : FVec F S8x64 .f32)
    (a4 : FVec F S64 .f32) (a5 : FVec F S64x64 .f32) (a6 a7 a8 a9 a10 a11 a12 a13 a14 : FVec F S64 .f32)
    (a15 : FVec F S256x128 .f32) (a16 a17 : FVec F S256 .f32) (a18 : FVec F S256x64 .f32) (a19 a20 : FVec F S256 .f32)
    (a21 : FVec F S136x1 .f32) (a22 : FVec F S1 .f32)
    (h : fn (F := F) a0 a1 a2 a3 a4 a5 a6 a7 a8 a9 a10 a11 a12 a13 a14 a15 a16 a17 a18 a19 a20 a21 a22 = fun _ => 1#1)
    (e : S3200000.Idx) : 0 ≤ (dstRow a1 e).toInt := by
  have h0 := congrFun h (fun a => a.elim0)
  have h1 : fn_part6 (F := F) a1 a22 _ _ _ (fun a => a.elim0) = 1#1 := h0
  dsimp only [fn_part6] at h1
  have h2 := (IntOp.andi_eq_one.1 h1).2
  have h3 := Host.reduce_andi_all _ _ _ _ _ h2 e
  have h4 := IntOp.cmpi_sge.1 h3
  exact h4

end Cert.PreDst

end
-- ==== Proof.lean ====
/-
  The proof of `Cert.Claim`: a two-layer graph convolution, two gate cells and a linear read-out, computed by three
  row-tiled fused stages among plain propagation steps, against the same network written as array operations.

  Frames. The two kernel programs (word level and idealized) have their frames generated whole; the reference has no
  kernel, and its frame is its run (`RefRun.run`, the line of array operations read piece by piece) with the result dropped.

  The idealization rewrote nothing, so `preserves` is trivial.

  The value claim. Over the extended reals the two programs compute the same array, index by index, provided every
  destination node id of the edge list is non-negative (the precondition's last conjunct): for a negative id the
  reference's degree accumulation wraps the id python-style while the kernel's drops the edge, and the two results then
  differ. Under it, wrapping is the identity on the ids (`RefWrap.wrap_dst`), and the kernel's result — read boundary by
  boundary through its host stretches and its three regions (`GlueChain.result_eq`, over `KRun.run`) — is the reference's
  last stage of the launch memory's arguments. What remains between the two texts is a matter of arrangement and needs
  no finiteness: products split by blocks of rows (`SumSplit`), biases added one by one instead of summed first, a
  logistic function spelt `1 / (1 + exp (-x))`, reshapes against broadcasts of the parameter vectors.
-/
import proofs.«159935_j82514911690903_1_alg».proof.Defs
import proofs.«159935_j82514911690903_1_alg».proof.Proof.Gen.Kernel
import proofs.«159935_j82514911690903_1_alg».proof.Proof.Gen.Kernel.Skeleton
import proofs.«159935_j82514911690903_1_alg».proof.Proof.Gen.Kernel.Launch
import proofs.«159935_j82514911690903_1_alg».proof.Proof.Gen.Kernel.Points
import proofs.«159935_j82514911690903_1_alg».proof.Proof.Gen.Kernel.Frame
import proofs.«159935_j82514911690903_1_alg».proof.Proof.Gen.KernelIdeal
import proofs.«159935_j82514911690903_1_alg».proof.Proof.Gen.KernelIdeal.Skeleton
import proofs.«159935_j82514911690903_1_alg».proof.Proof.Gen.KernelIdeal.Launch
import proofs.«159935_j82514911690903_1_alg».proof.Proof.Gen.KernelIdeal.Points
import proofs.«159935_j82514911690903_1_alg».proof.Proof.Gen.KernelIdeal.Frame
import proofs.«159935_j82514911690903_1_alg».proof.Proof.Gen.ReferenceIdeal
import proofs.«159935_j82514911690903_1_alg».proof.Proof.ReadP
import proofs.«159935_j82514911690903_1_alg».proof.Proof.RunP
import proofs.«159935_j82514911690903_1_alg».proof.Proof.RefRun
import proofs.«159935_j82514911690903_1_alg».proof.Proof.Gen.Pre_finite_inputs
import proofs.«159935_j82514911690903_1_alg».proof.Proof.KRun
import proofs.«159935_j82514911690903_1_alg».proof.Proof.GlueChain
import proofs.«159935_j82514911690903_1_alg».proof.Proof.PreDst
import Idealize.ShloMosaic.Adequacy
import Idealize.ShloMosaic.Init

noncomputable section

namespace Cert.Proof

open Idealize.ShloMosaic Idealize.SL.Sem

/-- Under the precondition the destination ids, as the reference reads them off the edge list, are non-negative. -/
theorem dst_nonneg (m : (ℓ : Loc Cert.KernelIdeal.nD Cert.KernelIdeal.τ Cert.KernelIdeal.sig) → Buf (Elt Ideal) ℓ)
    (h : Cert.Pre_KernelIdeal m) (c : Dev Cert.KernelIdeal.nD) (e : Cert.ReferenceIdeal.S3200000.Idx) :
    0 ≤ (Cert.ReferenceIdeal.Read.val_main_v3 (F := Ideal)
      (m ((c.tc : Thread Cert.KernelIdeal.nD Cert.KernelIdeal.τ).loc Cert.KernelIdeal.main_arg1)) e).toInt :=
  Cert.PreDst.dst_nonneg _ _ _ _ _ _ _ _ _ _ _ _ _ _ _ _ _ _ _ _ _ _ _ (h c) e

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.RefRun.run m ρ)

set_option maxHeartbeats 2000000 in
/-- Both programs end with the reference's last stage of the (agreeing) arguments. -/
theorem algebraic : Cert.algebraic_KernelIdeal_ReferenceIdeal := by
  intro m ρ m' ρ' hpre hagree
  refine ⟨fun c => Cert.ReferenceIdeal.Read.val_main_v194 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19))
    (m ((c.tc : Thread Cert.KernelIdeal.nD Cert.KernelIdeal.τ).loc Cert.KernelIdeal.main_arg20))
    (m ((c.tc : Thread Cert.KernelIdeal.nD Cert.KernelIdeal.τ).loc Cert.KernelIdeal.main_arg21))
    (m ((c.tc : Thread Cert.KernelIdeal.nD Cert.KernelIdeal.τ).loc Cert.KernelIdeal.main_arg22)), ?_, ?_⟩
  · exact (θ_run Cert.KernelIdeal.defs _ _).mono
      (fun r h c => ⟨(h c).1.trans (Cert.GlueChain.result_eq m ρ c (dst_nonneg m hpre c)), (h c).2⟩)
      (Cert.KernelIdeal.KRun.run (F := Ideal) m ρ)
  · refine (θ_run Cert.ReferenceIdeal.defs _ _).mono (fun r h c => ⟨?_, (h c).2⟩)
      (Cert.RefRun.run m' ρ')
    obtain ⟨e0, e1, e2, e3, e4, e5, e6, e7, e8, e9, e10, e11, e12, e13, e14, e15, e16, e17, e18, e19, e20, e21, e22⟩ := hagree c
    rw [(h c).1, e0, e1, e2, e3, e4, e5, e6, e7, e8, e9, e10, e11, e12, e13, e14, e15, e16, e17, e18, e19, e20, e21, e22]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
